-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x64 : Shape := ⟨2, ![1024, 64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x2048x1024 .f32) (main_arg1 : FVec F S1024x64 .f32) (main_arg2 : FVec F S1024x64 .f32) (main_arg3 : FVec F S1024x64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x2048x1024 : Shape := ⟨3, ![4, 2048, 1024]⟩
abbrev S1024x64 : Shape := ⟨2, ![1024, 64]⟩
abbrev S1024x192 : Shape := ⟨2, ![1024, 192]⟩
abbrev S4x2048x64 : Shape := ⟨3, ![4, 2048, 64]⟩
abbrev S4x64x2048 : Shape := ⟨3, ![4, 64, 2048]⟩
abbrev S1x512x1024 : Shape := ⟨3, ![1, 512, 1024]⟩
abbrev S1x512x64 : Shape := ⟨3, ![1, 512, 64]⟩
abbrev S1x64x512 : Shape := ⟨3, ![1, 64, 512]⟩
abbrev S512x1024 : Shape := ⟨2, ![512, 1024]⟩
abbrev S512x192 : Shape := ⟨2, ![512, 192]⟩
abbrev S512x64 : Shape := ⟨2, ![512, 64]⟩
abbrev S64x512 : Shape := ⟨2, ![64, 512]⟩
abbrev S1x2048x64 : Shape := ⟨3, ![1, 2048, 64]⟩
abbrev S1x2048x1 : Shape := ⟨3, ![1, 2048, 1]⟩
abbrev S2048x64 : Shape := ⟨2, ![2048, 64]⟩
abbrev S2048x512 : Shape := ⟨2, ![2048, 512]⟩
abbrev S2048x1 : Shape := ⟨2, ![2048, 1]⟩
abbrev S2048 : Shape := ⟨1, ![2048]⟩

abbrev nBuf : Space → Nat
  | .hbm => 9
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S4x2048x64, .f32⟩
  | .hbm, ⟨6, _⟩ => ⟨S4x64x2048, .f32⟩
  | .hbm, ⟨7, _⟩ => ⟨S4x2048x64, .bf16⟩
  | .hbm, ⟨8, _⟩ => ⟨S4x2048x64, .f32⟩
  | .local _ .vmem, ⟨0, _⟩ => ⟨S1x512x1024, .f32⟩
  | .local _ .vmem, ⟨1, _⟩ => ⟨S1x512x1024, .f32⟩
  | .local _ .vmem, ⟨2, _⟩ => ⟨S1024x192, .f32⟩
  | .local _ .vmem, ⟨3, _⟩ => ⟨S1x512x64, .f32⟩
  | .local _ .vmem, ⟨4, _⟩ => ⟨S1x512x64, .f32⟩
  | .local _ .vmem, ⟨5, _⟩ => ⟨S1x64x512, .f32⟩
  | .local _ .vmem, ⟨6, _⟩ => ⟨S1x64x512, .f32⟩
  | .local _ .vmem, ⟨7, _⟩ => ⟨S1x512x64, .bf16⟩
  | .local _ .vmem, ⟨8, _⟩ => ⟨S1x512x64, .bf16⟩
  | .local _ .vmem, ⟨9, _⟩ => ⟨S1x2048x64, .f32⟩
  | .local _ .vmem, ⟨10, _⟩ => ⟨S1x2048x64, .f32⟩
  | .local _ .vmem, ⟨11, _⟩ => ⟨S1x64x512, .f32⟩
  | .local _ .vmem, ⟨12, _⟩ => ⟨S1x64x512, .f32⟩
  | .local _ .vmem, ⟨13, _⟩ => ⟨S1x512x64, .bf16⟩
  | .local _ .vmem, ⟨14, _⟩ => ⟨S1x512x64, .bf16⟩
  | .local _ .vmem, ⟨15, _⟩ => ⟨S1x2048x64, .f32⟩
  | .local _ .vmem, ⟨16, _⟩ => ⟨S1x2048x64, .f32⟩
  | .local _ .vmem, ⟨17, _⟩ => ⟨S1x2048x1, .f32⟩
  | .local _ .vmem, ⟨18, _⟩ => ⟨S1x2048x1, .f32⟩
  | .local _ .vmem, ⟨19, _⟩ => ⟨S1x2048x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_31 : BitVec 32 := 0#32
  let v52 : BitVec 1 := Scalar.cmpi .ne v51 c0_i32_31
  v52

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  concatenates_S1024x64_S1024x64_S1024x64_S1024x192_d1 : Shape.Concatenates [S1024x64, S1024x64, S1024x64] S1024x192 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S512x192_o0_0_S512x64 : S512x192.Slices ![0, 0] S512x64
  slices_S512x192_o0_64_S512x64 : S512x192.Slices ![0, 64] S512x64
  slices_S512x192_o0_128_S512x64 : S512x192.Slices ![0, 128] S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  transposes_S512x64_p1_0_S64x512 : S512x64.Transposes [1, 0] S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  bitsLt_bf16_f32 : FTy.bits .bf16 < FTy.bits .f32
  packedbf16_S1x512x64_S1x512x64_0_0_0 : (Rect.unit (s := S1x512x64) ![0, 0, 0] S1x512x64.size inb_S1x512x64_S1x512x64_0_0_0).PackedRows (EltTy.packing .bf16)
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048x1 : S1x2048x1.ShapeCasts S1x2048x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  shapeCasts_S1x2048x64_S2048x64 : S1x2048x64.ShapeCasts S2048x64
  iota_S2048x512_d0_w32 : S2048x512.Iotas .tc 32 [0]
  iota_S2048x512_d1_w32 : S2048x512.Iotas .tc 32 [1]
  shapeCasts_S1x2048x1_S2048x1 : S1x2048x1.ShapeCasts S2048x1
  reduces_S2048x512_S2048 : S2048x512.Reduces [1] S2048
  shapeCasts_S2048_S2048x1 : S2048.ShapeCasts S2048x1
  broadcasts_S2048x1_S2048x512 : S2048x1.Broadcasts S2048x512
  shapeCasts_S2048x1_S1x2048x1 : S2048x1.ShapeCasts S1x2048x1
  broadcasts_S2048x1_S2048x64 : S2048x1.Broadcasts S2048x64
  shapeCasts_S2048x64_S1x2048x64 : S2048x64.ShapeCasts S1x2048x64
  dot_S512x1024_S1024x192_S512x192_1_0_0_1_n_n_wf : DotDims.WF S512x1024 S1024x192 S512x192 [1] [0] [0] [1] [] []
  dot_S2048x64_S64x512_S2048x512_1_0_0_1_n_n_wf : DotDims.WF S2048x64 S64x512 S2048x512 [1] [0] [0] [1] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S4x2048x64.size a
  hwx0_2 : ∀ i : grid0.Coords, EltTy.bits .f32 = 32 ∨ (Rect.block (s := S4x2048x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S4x64x2048.size a
  hwx0_3 : ∀ i : grid0.Coords, EltTy.bits .f32 = 32 ∨ (Rect.block (s := S4x64x2048) S1x64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S4x2048x64.size a
  hwx0_4 : ∀ i : grid0.Coords, EltTy.bits .bf16 = 32 ∨ (Rect.block (s := S4x2048x64) S1x512x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S4x2048x64.size a
  hwx1_0 : ∀ i : grid1.Coords, EltTy.bits .f32 = 32 ∨ (Rect.block (s := S4x2048x64) S1x2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x512.size a ≤ S4x64x2048.size a
  hwx1_1 : ∀ i : grid1.Coords, EltTy.bits .f32 = 32 ∨ (Rect.block (s := S4x64x2048) S1x64x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S4x2048x64.size a
  hwx1_2 : ∀ i : grid1.Coords, EltTy.bits .bf16 = 32 ∨ (Rect.block (s := S4x2048x64) S1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x64.size a ≤ S4x2048x64.size a
  hwx1_3 : ∀ i : grid1.Coords, EltTy.bits .f32 = 32 ∨ (Rect.block (s := S4x2048x64) S1x2048x64.size (cc1_transform_3 i) (hinb1_3 i)).WholeWords (EltTy.packing .f32)

variable [Facts₀]

def dot_S512x1024_S1024x192_S512x192_1_0_0_1_n_n : DotDims S512x1024 S1024x192 S512x192 where
  lhsContracting := [1]
  rhsContracting := [0]
  lhsNonContracting := [0]
  rhsNonContracting := [1]
  lhsBatch := []
  rhsBatch := []
  wf := dot_S512x1024_S1024x192_S512x192_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x64x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x64 : Shape := ⟨2, ![1024, 64]⟩
abbrev S4x2048x64 : Shape := ⟨3, ![4, 2048, 64]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩
abbrev S4x2048 : Shape := ⟨2, ![4, 2048]⟩
abbrev S4x2048x1 : Shape := ⟨3, ![4, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x2048x64, .f32⟩
  | .hbm, ⟨5, _⟩ => ⟨S4x2048x64, .f32⟩
  | .hbm, ⟨6, _⟩ => ⟨S4x2048x64, .f32⟩
  | .hbm, ⟨7, _⟩ => ⟨S4x2048x2048, .f32⟩
  | .hbm, ⟨8, _⟩ => ⟨S_, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .i1⟩
  | .hbm, ⟨13, _⟩ => ⟨S2048x2048, .i1⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .i1⟩
  | .hbm, ⟨21, _⟩ => ⟨S2048x2048, .i1⟩
  | .hbm, ⟨22, _⟩ => ⟨S2048x2048, .i1⟩
  | .hbm, ⟨23, _⟩ => ⟨S1x2048x2048, .i1⟩
  | .hbm, ⟨24, _⟩ => ⟨S_, .f32⟩
  | .hbm, ⟨25, _⟩ => ⟨S_, .f32⟩
  | .hbm, ⟨26, _⟩ => ⟨S4x2048x2048, .i1⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S_, .f32⟩
  | .hbm, ⟨32, _⟩ => ⟨S4x2048, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x64_S4x2048x64_2_0_01_1_n_n_wf : DotDims.WF S4x2048x1024 S1024x64 S4x2048x64 [2] [0] [0, 1] [1] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S1024x64_S4x2048x64_2_0_01_1_n_n : DotDims S4x2048x1024 S1024x64 S4x2048x64 where
  lhsContracting := [2]
  rhsContracting := [0]
  lhsNonContracting := [0, 1]
  rhsNonContracting := [1]
  lhsBatch := []
  rhsBatch := []
  wf := dot_S4x2048x1024_S1024x64_S4x2048x64_2_0_01_1_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.KbRegion0.lean ====
/-
  The projection region (the first kernel launch), as a pipeline with proof data.

  At grid point (b, tt) the body reads a [1, 512, 1024] block of the activations and the whole [1024, 192] matrix of the
  three projection weights laid side by side, forms the [512, 192] product once, and writes three blocks: columns 0–63
  times 8 (the scaled queries), columns 64–127 transposed to [64, 512] (the keys, position along the last axis), and
  columns 128–191 (the values).  Each output block is stored whole by one store, so what a staging buffer holds after
  the body is one function of the two input blocks; the inputs are left as they were.  Nothing is kept between points.
-/
import proofs.«142842_j2482491097827_2_alg».proof.Proof.Gen.Kernel.Launch
import proofs.«142842_j2482491097827_2_alg».proof.Proof.Gen.Kernel.Skeleton
import proofs.«142842_j2482491097827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix whenever the body runs (it is fetched once; its block never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S1x512x1024 := Rect.unit (s := S1x512x1024) ![0, 0, 0] S1x512x1024.size inb_S1x512x1024_S1x512x1024_0_0_0
abbrev rW : Rect S1024x192 := Rect.unit (s := S1024x192) ![0, 0] S1024x192.size inb_S1024x192_S1024x192_0_0
abbrev rQ : Rect S1x512x64 := Rect.unit (s := S1x512x64) ![0, 0, 0] S1x512x64.size inb_S1x512x64_S1x512x64_0_0_0
abbrev rK : Rect S1x64x512 := Rect.unit (s := S1x64x512) ![0, 0, 0] S1x64x512.size inb_S1x64x512_S1x64x512_0_0_0

/-- The scaled-query block after the body. -/
def out0_2 (x0 : Vec F S1x512x1024 .f32) (x1 : Vec F S1024x192 .f32) : Vec F S1x512x64 .f32 :=
  View.canon [⟨rQ, k0_pay2 (View.ld x0 rX) (View.ld x1 rW)⟩]
/-- The transposed-key block after the body. -/
def out0_3 (x0 : Vec F S1x512x1024 .f32) (x1 : Vec F S1024x192 .f32) : Vec F S1x64x512 .f32 :=
  View.canon [⟨rK, k0_pay3 (View.ld x0 rX) (View.ld x1 rW)⟩]
/-- The value block after the body. -/
def out0_4 (x0 : Vec F S1x512x1024 .f32) (x1 : Vec F S1024x192 .f32) : Vec F S1x512x64 .bf16 :=
  View.canon [⟨rQ, k0_pay4 (View.ld x0 rX) (View.ld x1 rW)⟩]

theorem cover0_2 (p0 : Vec F S1x512x64 .f32) (y : S1x512x64.Idx) :
    ∃ pc ∈ ([⟨rQ, p0⟩] : List (View.Piece (Elt F) S1x512x64 .f32)), y ∈ pc.1.set :=
  View.cover_of_tiled [⟨rQ, p0⟩] S1x512x64.size (by rfl) y
theorem cover0_3 (p0 : Vec F S1x64x512 .f32) (y : S1x64x512.Idx) :
    ∃ pc ∈ ([⟨rK, p0⟩] : List (View.Piece (Elt F) S1x64x512 .f32)), y ∈ pc.1.set :=
  View.cover_of_tiled [⟨rK, p0⟩] S1x64x512.size (by rfl) y
theorem cover0_4 (p0 : Vec F S1x512x64 .bf16) (y : S1x512x64.Idx) :
    ∃ pc ∈ ([⟨rQ, p0⟩] : List (View.Piece (Elt F) S1x512x64 .bf16)), y ∈ pc.1.set :=
  View.cover_of_tiled [⟨rQ, p0⟩] S1x512x64.size (by rfl) y

set_option maxHeartbeats 4000000 in
/-- The body on whole staging memrefs: from the inputs at `x0`, `x1` and the outputs at anything, it ends with the inputs
    as they were and each output at its function of the inputs. -/
theorem sound_kernel0 (c : Dev nD) (E : Set ℕ) (i : grid0.Coords)
    (arg2 : Memref sig .tc .vmem S1x512x1024 .f32) (harg2 : arg2.IsWhole) (arg3 : Memref sig .tc .vmem S1024x192 .f32) (harg3 : arg3.IsWhole)
    (arg4 : Memref sig .tc .vmem S1x512x64 .f32) (harg4 : arg4.IsWhole) (arg5 : Memref sig .tc .vmem S1x64x512 .f32) (harg5 : arg5.IsWhole)
    (arg6 : Memref sig .tc .vmem S1x512x64 .bf16) (harg6 : arg6.IsWhole)
    (x0 : Vec F S1x512x1024 .f32) (x1 : Vec F S1024x192 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data -/

/-- The arrays as the region finds them; after the body each input's buffer at its block, each output's at its function
    of the two input blocks; nothing kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KbR1Defs.lean ====
/-
  The attention region (the second kernel launch): what its three control cases share.

  The grid is (batch b, key tile k), k innermost.  The body keeps three scratch buffers between points of one batch
  entry — the running row maxima, the running normalisers, the running weighted sums — resets them when k = 0, folds the
  tile in at every point, and stores the quotient into the output block only when k = 3.  So a point is in one of three
  cases: first tile (reset, no output), a middle tile (neither), last tile (output).  The output block is idle at the
  points that do not store it, and it is written back only at the last tile.
-/
import proofs.«142842_j2482491097827_2_alg».proof.Proof.Gen.Kernel.Launch
import proofs.«142842_j2482491097827_2_alg».proof.Proof.Gen.Kernel.Skeleton
import proofs.«142842_j2482491097827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, as functions of the grid coordinates, decided over the grid -/

/-- "this is the first key tile". -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "this is the last key tile". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev VO1_3 : View sig .tc .vmem S1x2048x64 .f32 := (Memref.whole cc1_stg3_0 : Memref sig .tc .vmem S1x2048x64 .f32).view
abbrev ms1_0 (t : Fin cfg1.N) : Memref sig .tc .vmem S1x2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x64 .f32 := win1_3.stage (cfg1.slots t 3)
abbrev hs1_3 (t : Fin cfg1.N) : (ms1_3 t).IsWhole := hstage1_3 ((cfg1.slots t 3).cast nbuf1_3)
/-- The running maxima. -/
abbrev scM1_0 : Memref sig .tc .vmem S1x2048x1 .f32 := Memref.whole cc1_scratch0
abbrev VS1_0 : View sig .tc .vmem S1x2048x1 .f32 := scM1_0.view
/-- The running normalisers. -/
abbrev scM1_1 : Memref sig .tc .vmem S1x2048x1 .f32 := Memref.whole cc1_scratch1
abbrev VS1_1 : View sig .tc .vmem S1x2048x1 .f32 := scM1_1.view
/-- The running weighted sums. -/
abbrev scM1_2 : Memref sig .tc .vmem S1x2048x64 .f32 := Memref.whole cc1_scratch2
abbrev VS1_2 : View sig .tc .vmem S1x2048x64 .f32 := scM1_2.view

/-- What the region may use and need not describe, with the three scratch buffers split out as memrefs owned at some
    contents: the first launch's staging buffers (each at anything), the scratch, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.KbR1RunA.lean ====
/-
  The attention body run once, in the case of the first key tile: the scratch buffers are reset, the tile is folded in, the output block is not touched.
  The run is a triple of the separation logic; the pieces each buffer ends with are found by running the body.
-/
import proofs.«142842_j2482491097827_2_alg».proof.Proof.KbR1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple in this case, with the lists of stored pieces (last store first) of the output block and of the three
    scratch buffers as its witness. -/
noncomputable def kernelRun1_A (c : Dev nD) (i : grid1.Coords) (arg2 : Memref sig .tc .vmem S1x2048x64 .f32) (harg2 : arg2.IsWhole) (arg3 : Memref sig .tc .vmem S1x64x512 .f32) (harg3 : arg3.IsWhole) (arg4 : Memref sig .tc .vmem S1x512x64 .bf16) (harg4 : arg4.IsWhole) (arg5 : Memref sig .tc .vmem S1x2048x64 .f32) (harg5 : arg5.IsWhole) (arg6 : Memref sig .tc .vmem S1x2048x1 .f32) (harg6 : arg6.IsWhole) (arg7 : Memref sig .tc .vmem S1x2048x1 .f32) (harg7 : arg7.IsWhole) (arg8 : Memref sig .tc .vmem S1x2048x64 .f32) (harg8 : arg8.IsWhole) (hc0 : cond1_0 i) (hc1 : ¬cond1_1 i)
    (x0 : Vec F S1x2048x64 .f32) (x1 : Vec F S1x64x512 .f32) (x2 : Vec F S1x512x64 .bf16) :
    Σ' (L3 : List (View.Piece (Elt F) S1x2048x64 .f32)) (LS0 : List (View.Piece (Elt F) S1x2048x1 .f32)) (LS1 : List (View.Piece (Elt F) S1x2048x1 .f32)), { LS2 : List (View.Piece (Elt F) S1x2048x64 .f32) //
      ∀ (xi3 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KbR1RunB.lean ====
/-
  The attention body run once, in the case of a middle key tile: the tile is folded into the carried scratch buffers, the output block is not touched.
  The run is a triple of the separation logic; the pieces each buffer ends with are found by running the body.
-/
import proofs.«142842_j2482491097827_2_alg».proof.Proof.KbR1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple in this case, with the lists of stored pieces (last store first) of the output block and of the three
    scratch buffers as its witness. -/
noncomputable def kernelRun1_B (c : Dev nD) (i : grid1.Coords) (arg2 : Memref sig .tc .vmem S1x2048x64 .f32) (harg2 : arg2.IsWhole) (arg3 : Memref sig .tc .vmem S1x64x512 .f32) (harg3 : arg3.IsWhole) (arg4 : Memref sig .tc .vmem S1x512x64 .bf16) (harg4 : arg4.IsWhole) (arg5 : Memref sig .tc .vmem S1x2048x64 .f32) (harg5 : arg5.IsWhole) (arg6 : Memref sig .tc .vmem S1x2048x1 .f32) (harg6 : arg6.IsWhole) (arg7 : Memref sig .tc .vmem S1x2048x1 .f32) (harg7 : arg7.IsWhole) (arg8 : Memref sig .tc .vmem S1x2048x64 .f32) (harg8 : arg8.IsWhole) (hc0 : ¬cond1_0 i) (hc1 : ¬cond1_1 i)
    (x0 : Vec F S1x2048x64 .f32) (x1 : Vec F S1x64x512 .f32) (x2 : Vec F S1x512x64 .bf16) (xs0 : Vec F S1x2048x1 .f32) (xs1 : Vec F S1x2048x1 .f32) (xs2 : Vec F S1x2048x64 .f32) :
    Σ' (L3 : List (View.Piece (Elt F) S1x2048x64 .f32)) (LS0 : List (View.Piece (Elt F) S1x2048x1 .f32)) (LS1 : List (View.Piece (Elt F) S1x2048x1 .f32)), { LS2 : List (View.Piece (Elt F) S1x2048x64 .f32) //
      ∀ (xi3 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KbR1RunC.lean ====
/-
  The attention body run once, in the case of the last key tile: the tile is folded into the carried scratch buffers and the quotient is stored into the output block.
  The run is a triple of the separation logic; the pieces each buffer ends with are found by running the body.
-/
import proofs.«142842_j2482491097827_2_alg».proof.Proof.KbR1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple in this case, with the lists of stored pieces (last store first) of the output block and of the three
    scratch buffers as its witness. -/
noncomputable def kernelRun1_C (c : Dev nD) (i : grid1.Coords) (arg2 : Memref sig .tc .vmem S1x2048x64 .f32) (harg2 : arg2.IsWhole) (arg3 : Memref sig .tc .vmem S1x64x512 .f32) (harg3 : arg3.IsWhole) (arg4 : Memref sig .tc .vmem S1x512x64 .bf16) (harg4 : arg4.IsWhole) (arg5 : Memref sig .tc .vmem S1x2048x64 .f32) (harg5 : arg5.IsWhole) (arg6 : Memref sig .tc .vmem S1x2048x1 .f32) (harg6 : arg6.IsWhole) (arg7 : Memref sig .tc .vmem S1x2048x1 .f32) (harg7 : arg7.IsWhole) (arg8 : Memref sig .tc .vmem S1x2048x64 .f32) (harg8 : arg8.IsWhole) (hc0 : ¬cond1_0 i) (hc1 : cond1_1 i)
    (x0 : Vec F S1x2048x64 .f32) (x1 : Vec F S1x64x512 .f32) (x2 : Vec F S1x512x64 .bf16) (xs0 : Vec F S1x2048x1 .f32) (xs1 : Vec F S1x2048x1 .f32) (xs2 : Vec F S1x2048x64 .f32) :
    Σ' (L3 : List (View.Piece (Elt F) S1x2048x64 .f32)) (LS0 : List (View.Piece (Elt F) S1x2048x1 .f32)) (LS1 : List (View.Piece (Elt F) S1x2048x1 .f32)), { LS2 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.KbRegion1.lean ====
/-
  The attention region as a pipeline with proof data.

  What the three scratch buffers (running maxima, normalisers, weighted sums) and the output block hold after each grid
  point is defined by recursion on the point: the first tile of a batch entry starts from nothing, every later tile from
  what the point before left.  The region's invariant carries the scratch buffers at exactly those contents from one
  point to the next; the output block is handed back untouched except at a last tile, where it is stored whole.
-/
import proofs.«142842_j2482491097827_2_alg».proof.Proof.KbR1RunA
import proofs.«142842_j2482491097827_2_alg».proof.Proof.KbR1RunB
import proofs.«142842_j2482491097827_2_alg».proof.Proof.KbR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output block and the three scratch buffers, in that order. -/
abbrev Tup : Type := (Vec F S1x2048x64 .f32 × Vec F S1x2048x1 .f32 × Vec F S1x2048x1 .f32 × Vec F S1x2048x64 .f32)

/-- What a first tile leaves: the scratch as reset and folded once; the output block's entry is a placeholder no one reads. -/
def stA (c : Dev nD) (t : Fin cfg1.N) (hA0 : cond1_0 (grid1.coords t)) (hA1 : ¬cond1_1 (grid1.coords t)) : Tup (F := F) :=
  (VO1_3.read (Elt F) (VO1_3.writes (Elt F) VO1_3.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.2.1))
/-- What a middle tile leaves, from what the point before left in the scratch. -/
def stB (c : Dev nD) (t : Fin cfg1.N) (hA0 : ¬cond1_0 (grid1.coords t)) (hA1 : ¬cond1_1 (grid1.coords t)) (p : Tup (F := F)) : Tup (F := F) :=
  (VO1_3.read (Elt F) (VO1_3.writes (Elt F) VO1_3.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).1),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).2.1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).2.2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).2.2.2.1))
/-- What a last tile leaves, the output block included. -/
def stC (c : Dev nD) (t : Fin cfg1.N) (hA0 : ¬cond1_0 (grid1.coords t)) (hA1 : cond1_1 (grid1.coords t)) (p : Tup (F := F)) : Tup (F := F) :=
  (VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).2.2.2.1))

/-! ## The stored pieces cover their buffers (every store is of a whole buffer) -/
theorem scover1_A_0 (c : Dev nD) (t : Fin cfg1.N) (hA0 : cond1_0 (grid1.coords t)) (hA1 : ¬cond1_1 (grid1.coords t)) (y : S1x2048x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.1 S1x2048x1.size (by sl_kernel_rfl) y
theorem scover1_A_1 (c : Dev nD) (t : Fin cfg1.N) (hA0 : cond1_0 (grid1.coords t)) (hA1 : ¬cond1_1 (grid1.coords t)) (y : S1x2048x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.1 S1x2048x1.size (by sl_kernel_rfl) y
theorem scover1_A_2 (c : Dev nD) (t : Fin cfg1.N) (hA0 : cond1_0 (grid1.coords t)) (hA1 : ¬cond1_1 (grid1.coords t)) (y : S1x2048x64.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.2.1 S1x2048x64.size (by sl_kernel_rfl) y
theorem scover1_B_0 (c : Dev nD) (t : Fin cfg1.N) (hA0 : ¬cond1_0 (grid1.coords t)) (hA1 : ¬cond1_1 (grid1.coords t)) (xs0 : Vec F S1x2048x1 .f32) (xs1 : Vec F S1x2048x1 .f32) (xs2 : Vec F S1x2048x64 .f32) (y : S1x2048x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.1 S1x2048x1.size (by sl_kernel_rfl) y
theorem scover1_B_1 (c : Dev nD) (t : Fin cfg1.N) (hA0 : ¬cond1_0 (grid1.coords t)) (hA1 : ¬cond1_1 (grid1.coords t)) (xs0 : Vec F S1x2048x1 .f32) (xs1 : Vec F S1x2048x1 .f32) (xs2 : Vec F S1x2048x64 .f32) (y : S1x2048x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.1 S1x2048x1.size (by sl_kernel_rfl) y
theorem scover1_B_2 (c : Dev nD) (t : Fin cfg1.N) (hA0 : ¬cond1_0 (grid1.coords t)) (hA1 : ¬cond1_1 (grid1.coords t)) (xs0 : Vec F S1x2048x1 .f32) (xs1 : Vec F S1x2048x1 .f32) (xs2 : Vec F S1x2048x64 .f32) (y : S1x2048x64.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.2.1 S1x2048x64.size (by sl_kernel_rfl) y
theorem scover1_C_0 (c : Dev nD) (t : Fin cfg1.N) (hA0 : ¬cond1_0 (grid1.coords t)) (hA1 : cond1_1 (grid1.coords t)) (xs0 : Vec F S1x2048x1 .f32) (xs1 : Vec F S1x2048x1 .f32) (xs2 : Vec F S1x2048x64 .f32) (y : S1x2048x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.1 S1x2048x1.size (by sl_kernel_rfl) y
theorem scover1_C_1 (c : Dev nD) (t : Fin cfg1.N) (hA0 : ¬cond1_0 (grid1.coords t)) (hA1 : cond1_1 (grid1.coords t)) (xs0 : Vec F S1x2048x1 .f32) (xs1 : Vec F S1x2048x1 .f32) (xs2 : Vec F S1x2048x64 .f32) (y : S1x2048x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.1 S1x2048x1.size (by sl_kernel_rfl) y
theorem scover1_C_2 (c : Dev nD) (t : Fin cfg1.N) (hA0 : ¬cond1_0 (grid1.coords t)) (hA1 : cond1_1 (grid1.coords t)) (xs0 : Vec F S1x2048x1 .f32) (xs1 : Vec F S1x2048x1 .f32) (xs2 : Vec F S1x2048x64 .f32) (y : S1x2048x64.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.2.1 S1x2048x64.size (by sl_kernel_rfl) y
theorem cover1_C_3 (c : Dev nD) (t : Fin cfg1.N) (hA0 : ¬cond1_0 (grid1.coords t)) (hA1 : cond1_1 (grid1.coords t)) (xs0 : Vec F S1x2048x1 .f32) (xs1 : Vec F S1x2048x1 .f32) (xs2 : Vec F S1x2048x64 .f32) (y : S1x2048x64.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).1 S1x2048x64.size (by sl_kernel_rfl) y

/-! ## Point by point -/

/-- What the output block and the scratch buffers hold after the body at position `n`. -/
def outsAt1 (c : Dev nD) : (n : ℕ) → n < cfg1.N → Tup (F := F)
  | 0, hn => stA V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 4 = 0 then
      if h1 : (n + 1) % 4 = 3 then False.elim (by omega)
      else stA V c ⟨n + 1, hn⟩ ((hcond1_0 ⟨n + 1, hn⟩).mpr h0) (fun h => h1 ((hcond1_1 ⟨n + 1, hn⟩).mp h))
    else
      if h1 : (n + 1) % 4 = 3 then
        stC V c ⟨n + 1, hn⟩ (fun h => h0 ((hcond1_0 ⟨n + 1, hn⟩).mp h)) ((hcond1_1 ⟨n + 1, hn⟩).mpr h1) (outsAt1 c n (Nat.lt_of_succ_lt hn))
      else
        stB V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 4 = 0) (h1 : ¬t.val % 4 = 3) :
    outsAt1 V c t.val t.isLt = stA V c t ((hcond1_0 t).mpr h0) (fun h => h1 ((hcond1_1 t).mp h)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = stB V c t (fun h => h0 ((hcond1_0 t).mp h)) (fun h => h1 ((hcond1_1 t).mp h))
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = stC V c t (fun h => h0 ((hcond1_0 t).mp h)) ((hcond1_1 t).mpr h1)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- A scoped buffer of the other launch, whole, at anything. -/
abbrev G (c : Dev nD) (b : Ref sig .tc) : sProp 𝕄 :=
  iprop(∃ f : Buf (Elt F) ((c : Thread nD τ).loc b), ((c : Thread nD τ).loc b) ↦{fullShare} f)

/-- Before the first point: whatever the launch hands over.  After point `n`: the scratch buffers at what that point left. -/
def PhiS (c : Dev nD) : (n : ℕ) → n ≤ cfg1.N → sProp 𝕄
  | 0, _ => Pipeline.ΦA spec1 c
  | n + 1, hn => iprop(iprop(G c cc0_stg0_0 ∗ G c cc0_stg0_1 ∗ G c cc0_stg1_0 ∗ G c cc0_stg2_0 ∗ G c cc0_stg2_1 ∗ G c cc0_stg3_0 ∗ G c cc0_stg3_1 ∗ G c cc0_stg4_0 ∗ G c cc0_stg4_1 ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(G c cc0_stg0_0 ∗ G c cc0_stg0_1 ∗ G c cc0_stg1_0 ∗ G c cc0_stg2_0 ∗ G c cc0_stg2_1 ∗ G c cc0_stg3_0 ∗ G c cc0_stg3_1 ∗ G c cc0_stg4_0 ∗ G c cc0_stg4_1 ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS_pos (c : Dev nD) (n : ℕ) (h : n ≤ cfg1.N) (hz : n ≠ 0) :
    PhiS V c n h = iprop(iprop(G c cc0_stg0_0 ∗ G c cc0_stg0_1 ∗ G c cc0_stg1_0 ∗ G c cc0_stg2_0 ∗ G c cc0_stg2_1 ∗ G c cc0_stg3_0 ∗ G c cc0_stg3_1 ∗ G c cc0_stg4_0 ∗ G c cc0_stg4_1 ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl
theorem PhiA1_eq' (c : Dev nD) :
    (Pipeline.ΦA spec1 c : sProp 𝕄)
      = iprop(iprop(G c cc0_stg0_0 ∗ G c cc0_stg0_1 ∗ G c cc0_stg1_0 ∗ G c cc0_stg2_0 ∗ G c cc0_stg2_1 ∗ G c cc0_stg3_0 ∗ G c cc0_stg3_1 ∗ G c cc0_stg4_0 ∗ G c cc0_stg4_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) :=
  PhiA1_eq c

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · by_cases h1 : t.val % 4 = 3
    · exfalso; omega
    · have hA0 : cond1_0 (grid1.coords t) := (hcond1_0 t).mpr h0
      have hA1 : ¬cond1_1 (grid1.coords t) := fun h => h1 ((hcond1_1 t).mp h)
      rw [Dat.leavesExact_idle (dat1 V c) 3 t (idleAt1_3_A t hA0 hA1) (noFlush1_3_A t hA0 hA1)]
      rw [outsAt1_A V c t h0 h1]
      unfold stA; (try dsimp only)
      by_cases hz : t.val = 0
      · rw [PhiS_castSucc V c t, PhiS_zero V c _ _ hz, PhiA1_eq']
        iintro ⟨⟨⟨G1, G2, G3, G4, G5, G6, G7, G8, G9, HS0, HS1, HS2⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [G1 G2 G3 G4 G5 G6 G7 G8 G9 HS0 HS1 HS2 Hg]
        · isplitr [Hg]
          swap; · iexact Hg
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [HS0]
          · unfold owns; iexists _; isplitr
            swap; · iexact HS0
            ipureintro; exact View.read_writes_of_cover _ _ _ _ _ (scover1_A_0 V c t hA0 hA1)
          isplitl [HS1]
          · unfold owns; iexists _; isplitr
            swap; · iexact HS1
            ipureintro; exact View.read_writes_of_cover _ _ _ _ _ (scover1_A_1 V c t hA0 hA1)
          unfold owns; iexists _; isplitr
          swap; · iexact HS2
          ipureintro; exact View.read_writes_of_cover _ _ _ _ _ (scover1_A_2 V c t hA0 hA1)
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨G1, G2, G3, G4, G5, G6, G7, G8, G9, HS0, HS1, HS2⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [G1 G2 G3 G4 G5 G6 G7 G8 G9 HS0 HS1 HS2 Hg]
        · isplitr [Hg]
          swap; · iexact Hg
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [HS0]
          · unfold owns; iexists _; isplitr
            swap; · iexact HS0
            ipureintro; exact View.read_writes_of_cover _ _ _ _ _ (scover1_A_0 V c t hA0 hA1)
          isplitl [HS1]
          · unfold owns; iexists _; isplitr
            swap; · iexact HS1
            ipureintro; exact View.read_writes_of_cover _ _ _ _ _ (scover1_A_1 V c t hA0 hA1)
          unfold owns; iexists _; isplitr
          swap; · iexact HS2
          ipureintro; exact View.read_writes_of_cover _ _ _ _ _ (scover1_A_2 V c t hA0 hA1)
        isplitl [Ho]; · iexact Ho
        isplitl [H0]; · iexact H0
        isplitl [H1]; · iexact H1
        isplitl [H2]; · iexact H2
        iexists _; iexact H3
  · by_cases h1 : t.val % 4 = 3
    · have hA0 : ¬cond1_0 (grid1.coords t) := fun h => h0 ((hcond1_0 t).mp h)
      have hA1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3_C t hA0 hA1], after1_3]
      rw [outsAt1_C V c t h0 h1]
      unfold stC; (try dsimp only)
      by_cases hz : t.val = 0
      · exfalso; omega
      · rw [PhiS_castSucc V c t, PhiS_pos V c _ _ hz]
        iintro ⟨⟨⟨G1, G2, G3, G4, G5, G6, G7, G8, G9, HS0, HS1, HS2⟩, Hg⟩, Ho, ⟨%d0, H0⟩, ⟨%d1, H1⟩, ⟨%d2, H2⟩, ⟨%d3, H3⟩⟩
        iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [G1 G2 G3 G4 G5 G6 G7 G8 G9 HS0 HS1 HS2 Hg]
        · isplitr [Hg]
          swap; · iexact Hg
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [HS0]
          · unfold owns; iexists _; isplitr
            swap; · iexact HS0
            ipureintro; exact View.read_writes_of_cover _ _ _ _ _ (scover1_C_0 V c t hA0 hA1 _ _ _)
          isplitl [HS1]
          · unfold owns; iexists _; isplitr
            swap; · iexact HS1
            ipureintro; exact View.read_writes_of_cover _ _ _ _ _ (scover1_C_1 V c t hA0 hA1 _ _ _)
          unfold owns; iexists _; isplitr
          swap; · iexact HS2
          ipureintro; exact View.read_writes_of_cover _ _ _ _ _ (scover1_C_2 V c t hA0 hA1 _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 V c t hA0 hA1 _ _ _)
    · have hA0 : ¬cond1_0 (grid1.coords t) := fun h => h0 ((hcond1_0 t).mp h)
      have hA1 : ¬cond1_1 (grid1.coords t) := fun h => h1 ((hcond1_1 t).mp h)
      rw [Dat.leavesExact_idle (dat1 V c) 3 t (idleAt1_3_B t hA0 hA1) (noFlush1_3_B t hA0 hA1)]
      rw [outsAt1_B V c t h0 h1]
      unfold stB; (try dsimp only)
      by_cases hz : t.val = 0
      · exfalso; omega
      · rw [PhiS_castSucc V c t, PhiS_pos V c _ _ hz]
        iintro ⟨⟨⟨G1, G2, G3, G4, G5, G6, G7, G8, G9, HS0, HS1, HS2⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [G1 G2 G3 G4 G5 G6 G7 G8 G9 HS0 HS1 HS2 Hg]
        · isplitr [Hg]
          swap; · iexact Hg
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [HS0]
          · unfold owns; iexists _; isplitr
            swap; · iexact HS0
            ipureintro; exact View.read_writes_of_cover _ _ _ _ _ (scover1_B_0 V c t hA0 hA1 _ _ _)
          isplitl [HS1]
          · unfold owns; iexists _; isplitr
            swap; · iexact HS1
            ipureintro; exact View.read_writes_of_cover _ _ _ _ _ (scover1_B_1 V c t hA0 hA1 _ _ _)
          unfold owns; iexists _; isplitr
          swap; · iexact HS2
          ipureintro; exact View.read_writes_of_cover _ _ _ _ _ (scover1_B_2 V c t hA0 hA1 _ _ _)
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the scratch buffers' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS V c (Fin.last cfg1.N).val (Nat.le_of_lt_succ (Fin.last cfg1.N).isLt) from rfl, PhiS_pos V c _ _ ht, PhiA1_eq']
  iintro ⟨⟨G1, G2, G3, G4, G5, G6, G7, G8, G9, HS0, HS1, HS2⟩, Hg⟩
  isplitr [Hg]
  swap; · iexact Hg
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [HS0]; · iexists _; iexact HS0
  isplitl [HS1]; · iexists _; iexact HS1
  iexists _; iexact HS2

end Region

end Cert.Kernel.Hand

end
-- ==== Proof.KbRun.lean ====
/-
  The whole program as three segments — the host stretch that lays the three weight matrices side by side, the
  projection region, the attention region — and its run: every weakly fair execution ends, nothing faults, the four
  argument arrays end as launched, and the result array ends at what the attention region's write-backs leave.

  Between segments a core holds every unscoped buffer whole at contents that are folded from the launch memory: after the
  host stretch, the concatenated weights; after a region, its output arrays at the fold of its write-backs and every
  other buffer as it was.
-/
import proofs.«142842_j2482491097827_2_alg».proof.Proof.KbRegion0
import proofs.«142842_j2482491097827_2_alg».proof.Proof.KbRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segment boundaries -/

/-- At launch. -/
abbrev W0 : Dev nD → Valuation τ sig (Elt F) := fun c b => m (c, b)
/-- After the host stretch. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No segment writes an argument -/

/-- The host stretch writes only the concatenated-weights buffer. -/
theorem W1_keeps (c : Dev nD) (b : Ref sig .tc) (hb : b ≠ main_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_keeps m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_keeps m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_keeps m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_keeps m c main_arg3 (by decide)
    _ = m ((c : Thread nD τ).loc main_arg3) := rfl
/-- The result array ends at the fold of the attention region's write-backs. -/
theorem W3_main_v2 (c : Dev nD) : W3 m c (Proc.devRef .tc main_v2) = (dat1 (V2 m) c).arrAt 3 cfg1.N :=
  W3_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region over the thread state: entered with every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered with every unscoped buffer at `W2`, left at `W3`.  Its
    invariant starts as whatever the launch hands over and ends with the scratch buffers' contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS (V2 m) c 0 (Nat.zero_le _) from rfl, PhiS_zero (V2 m) c 0 _ rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program ends, nothing faulting, with
    the result array at the fold of the attention region's write-backs and the four argument arrays as launched. -/
theorem run_main : θ_run defs (onTc (τ := τ) (main (F := F))) ⟨m, fun _ => 0, ρ⟩ (fun r => ∀ c : Dev nD,
      r.2.mem ((c.tc : Thread nD τ).loc main_v2) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_main_v2 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

end Cert.Kernel.Hand

end
-- ==== Proof.KiR1Defs.lean ====
/-
  The attention region (the second kernel launch): what its three control cases share.

  The grid is (batch b, key tile k), k innermost.  The body keeps three scratch buffers between points of one batch
  entry — the running row maxima, the running normalisers, the running weighted sums — resets them when k = 0, folds the
  tile in at every point, and stores the quotient into the output block only when k = 3.  So a point is in one of three
  cases: first tile (reset, no output), a middle tile (neither), last tile (output).  The output block is idle at the
  points that do not store it, and it is written back only at the last tile.
-/
import proofs.«142842_j2482491097827_2_alg».proof.Proof.Gen.KernelIdeal.Launch
import proofs.«142842_j2482491097827_2_alg».proof.Proof.Gen.KernelIdeal.Skeleton
import proofs.«142842_j2482491097827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions, as functions of the grid coordinates, decided over the grid -/

/-- "this is the first key tile". -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "this is the last key tile". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev VO1_3 : View sig .tc .vmem S1x2048x64 .f32 := (Memref.whole cc1_stg3_0 : Memref sig .tc .vmem S1x2048x64 .f32).view
abbrev ms1_0 (t : Fin cfg1.N) : Memref sig .tc .vmem S1x2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x64 .f32 := win1_3.stage (cfg1.slots t 3)
abbrev hs1_3 (t : Fin cfg1.N) : (ms1_3 t).IsWhole := hstage1_3 ((cfg1.slots t 3).cast nbuf1_3)
/-- The running maxima. -/
abbrev scM1_0 : Memref sig .tc .vmem S1x2048x1 .f32 := Memref.whole cc1_scratch0
abbrev VS1_0 : View sig .tc .vmem S1x2048x1 .f32 := scM1_0.view
/-- The running normalisers. -/
abbrev scM1_1 : Memref sig .tc .vmem S1x2048x1 .f32 := Memref.whole cc1_scratch1
abbrev VS1_1 : View sig .tc .vmem S1x2048x1 .f32 := scM1_1.view
/-- The running weighted sums. -/
abbrev scM1_2 : Memref sig .tc .vmem S1x2048x64 .f32 := Memref.whole cc1_scratch2
abbrev VS1_2 : View sig .tc .vmem S1x2048x64 .f32 := scM1_2.view

/-- What the region may use and need not describe, with the three scratch buffers split out as memrefs owned at some
    contents: the first launch's staging buffers (each at anything), the scratch, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KiR1RunA.lean ====
/-
  The attention body run once, in the case of the first key tile: the scratch buffers are reset, the tile is folded in, the output block is not touched.
  The run is a triple of the separation logic; the pieces each buffer ends with are found by running the body.
-/
import proofs.«142842_j2482491097827_2_alg».proof.Proof.KiR1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's triple in this case, with the lists of stored pieces (last store first) of the output block and of the three
    scratch buffers as its witness. -/
noncomputable def kernelRun1_A (c : Dev nD) (i : grid1.Coords) (arg2 : Memref sig .tc .vmem S1x2048x64 .f32) (harg2 : arg2.IsWhole) (arg3 : Memref sig .tc .vmem S1x64x512 .f32) (harg3 : arg3.IsWhole) (arg4 : Memref sig .tc .vmem S1x512x64 .bf16) (harg4 : arg4.IsWhole) (arg5 : Memref sig .tc .vmem S1x2048x64 .f32) (harg5 : arg5.IsWhole) (arg6 : Memref sig .tc .vmem S1x2048x1 .f32) (harg6 : arg6.IsWhole) (arg7 : Memref sig .tc .vmem S1x2048x1 .f32) (harg7 : arg7.IsWhole) (arg8 : Memref sig .tc .vmem S1x2048x64 .f32) (harg8 : arg8.IsWhole) (hc0 : cond1_0 i) (hc1 : ¬cond1_1 i)
    (x0 : Vec F S1x2048x64 .f32) (x1 : Vec F S1x64x512 .f32) (x2 : Vec F S1x512x64 .bf16) :
    Σ' (L3 : List (View.Piece (Elt F) S1x2048x64 .f32)) (LS0 : List (View.Piece (Elt F) S1x2048x1 .f32)) (LS1 : List (View.Piece (Elt F) S1x2048x1 .f32)), { LS2 : List (View.Piece (Elt F) S1x2048x64 .f32) //
      ∀ (xi3 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KiR1RunB.lean ====
/-
  The attention body run once, in the case of a middle key tile: the tile is folded into the carried scratch buffers, the output block is not touched.
  The run is a triple of the separation logic; the pieces each buffer ends with are found by running the body.
-/
import proofs.«142842_j2482491097827_2_alg».proof.Proof.KiR1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's triple in this case, with the lists of stored pieces (last store first) of the output block and of the three
    scratch buffers as its witness. -/
noncomputable def kernelRun1_B (c : Dev nD) (i : grid1.Coords) (arg2 : Memref sig .tc .vmem S1x2048x64 .f32) (harg2 : arg2.IsWhole) (arg3 : Memref sig .tc .vmem S1x64x512 .f32) (harg3 : arg3.IsWhole) (arg4 : Memref sig .tc .vmem S1x512x64 .bf16) (harg4 : arg4.IsWhole) (arg5 : Memref sig .tc .vmem S1x2048x64 .f32) (harg5 : arg5.IsWhole) (arg6 : Memref sig .tc .vmem S1x2048x1 .f32) (harg6 : arg6.IsWhole) (arg7 : Memref sig .tc .vmem S1x2048x1 .f32) (harg7 : arg7.IsWhole) (arg8 : Memref sig .tc .vmem S1x2048x64 .f32) (harg8 : arg8.IsWhole) (hc0 : ¬cond1_0 i) (hc1 : ¬cond1_1 i)
    (x0 : Vec F S1x2048x64 .f32) (x1 : Vec F S1x64x512 .f32) (x2 : Vec F S1x512x64 .bf16) (xs0 : Vec F S1x2048x1 .f32) (xs1 : Vec F S1x2048x1 .f32) (xs2 : Vec F S1x2048x64 .f32) :
    Σ' (L3 : List (View.Piece (Elt F) S1x2048x64 .f32)) (LS0 : List (View.Piece (Elt F) S1x2048x1 .f32)) (LS1 : List (View.Piece (Elt F) S1x2048x1 .f32)), { LS2 : List (View.Piece (Elt F) S1x2048x64 .f32) //
      ∀ (xi3 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KiR1RunC.lean ====
/-
  The attention body run once, in the case of the last key tile: the tile is folded into the carried scratch buffers and the quotient is stored into the output block.
  The run is a triple of the separation logic; the pieces each buffer ends with are found by running the body.
-/
import proofs.«142842_j2482491097827_2_alg».proof.Proof.KiR1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's triple in this case, with the lists of stored pieces (last store first) of the output block and of the three
    scratch buffers as its witness. -/
noncomputable def kernelRun1_C (c : Dev nD) (i : grid1.Coords) (arg2 : Memref sig .tc .vmem S1x2048x64 .f32) (harg2 : arg2.IsWhole) (arg3 : Memref sig .tc .vmem S1x64x512 .f32) (harg3 : arg3.IsWhole) (arg4 : Memref sig .tc .vmem S1x512x64 .bf16) (harg4 : arg4.IsWhole) (arg5 : Memref sig .tc .vmem S1x2048x64 .f32) (harg5 : arg5.IsWhole) (arg6 : Memref sig .tc .vmem S1x2048x1 .f32) (harg6 : arg6.IsWhole) (arg7 : Memref sig .tc .vmem S1x2048x1 .f32) (harg7 : arg7.IsWhole) (arg8 : Memref sig .tc .vmem S1x2048x64 .f32) (harg8 : arg8.IsWhole) (hc0 : ¬cond1_0 i) (hc1 : cond1_1 i)
    (x0 : Vec F S1x2048x64 .f32) (x1 : Vec F S1x64x512 .f32) (x2 : Vec F S1x512x64 .bf16) (xs0 : Vec F S1x2048x1 .f32) (xs1 : Vec F S1x2048x1 .f32) (xs2 : Vec F S1x2048x64 .f32) :
    Σ' (L3 : List (View.Piece (Elt F) S1x2048x64 .f32)) (LS0 : List (View.Piece (Elt F) S1x2048x1 .f32)) (LS1 : List (View.Piece (Elt F) S1x2048x1 .f32)), { LS2 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KiRegion1.lean ====
/-
  The attention region as a pipeline with proof data.

  What the three scratch buffers (running maxima, normalisers, weighted sums) and the output block hold after each grid
  point is defined by recursion on the point: the first tile of a batch entry starts from nothing, every later tile from
  what the point before left.  The region's invariant carries the scratch buffers at exactly those contents from one
  point to the next; the output block is handed back untouched except at a last tile, where it is stored whole.
-/
import proofs.«142842_j2482491097827_2_alg».proof.Proof.KiR1RunA
import proofs.«142842_j2482491097827_2_alg».proof.Proof.KiR1RunB
import proofs.«142842_j2482491097827_2_alg».proof.Proof.KiR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region

variable (V : (c : Dev nD) → (b : Ref sig .tc) → Buf (Elt F) ((c : Thread nD τ).loc b))

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output block and the three scratch buffers, in that order. -/
abbrev Tup : Type := (Vec F S1x2048x64 .f32 × Vec F S1x2048x1 .f32 × Vec F S1x2048x1 .f32 × Vec F S1x2048x64 .f32)

/-- What a first tile leaves: the scratch as reset and folded once; the output block's entry is a placeholder no one reads. -/
def stA (c : Dev nD) (t : Fin cfg1.N) (hA0 : cond1_0 (grid1.coords t)) (hA1 : ¬cond1_1 (grid1.coords t)) : Tup (F := F) :=
  (VO1_3.read (Elt F) (VO1_3.writes (Elt F) VO1_3.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.2.1))
/-- What a middle tile leaves, from what the point before left in the scratch. -/
def stB (c : Dev nD) (t : Fin cfg1.N) (hA0 : ¬cond1_0 (grid1.coords t)) (hA1 : ¬cond1_1 (grid1.coords t)) (p : Tup (F := F)) : Tup (F := F) :=
  (VO1_3.read (Elt F) (VO1_3.writes (Elt F) VO1_3.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).1),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).2.1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).2.2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).2.2.2.1))
/-- What a last tile leaves, the output block included. -/
def stC (c : Dev nD) (t : Fin cfg1.N) (hA0 : ¬cond1_0 (grid1.coords t)) (hA1 : cond1_1 (grid1.coords t)) (p : Tup (F := F)) : Tup (F := F) :=
  (VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) p.2.1 p.2.2.1 p.2.2.2).2.2.2.1))

/-! ## The stored pieces cover their buffers (every store is of a whole buffer) -/
theorem scover1_A_0 (c : Dev nD) (t : Fin cfg1.N) (hA0 : cond1_0 (grid1.coords t)) (hA1 : ¬cond1_1 (grid1.coords t)) (y : S1x2048x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.1 S1x2048x1.size (by sl_kernel_rfl) y
theorem scover1_A_1 (c : Dev nD) (t : Fin cfg1.N) (hA0 : cond1_0 (grid1.coords t)) (hA1 : ¬cond1_1 (grid1.coords t)) (y : S1x2048x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.1 S1x2048x1.size (by sl_kernel_rfl) y
theorem scover1_A_2 (c : Dev nD) (t : Fin cfg1.N) (hA0 : cond1_0 (grid1.coords t)) (hA1 : ¬cond1_1 (grid1.coords t)) (y : S1x2048x64.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.2.1 S1x2048x64.size (by sl_kernel_rfl) y
theorem scover1_B_0 (c : Dev nD) (t : Fin cfg1.N) (hA0 : ¬cond1_0 (grid1.coords t)) (hA1 : ¬cond1_1 (grid1.coords t)) (xs0 : Vec F S1x2048x1 .f32) (xs1 : Vec F S1x2048x1 .f32) (xs2 : Vec F S1x2048x64 .f32) (y : S1x2048x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.1 S1x2048x1.size (by sl_kernel_rfl) y
theorem scover1_B_1 (c : Dev nD) (t : Fin cfg1.N) (hA0 : ¬cond1_0 (grid1.coords t)) (hA1 : ¬cond1_1 (grid1.coords t)) (xs0 : Vec F S1x2048x1 .f32) (xs1 : Vec F S1x2048x1 .f32) (xs2 : Vec F S1x2048x64 .f32) (y : S1x2048x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.1 S1x2048x1.size (by sl_kernel_rfl) y
theorem scover1_B_2 (c : Dev nD) (t : Fin cfg1.N) (hA0 : ¬cond1_0 (grid1.coords t)) (hA1 : ¬cond1_1 (grid1.coords t)) (xs0 : Vec F S1x2048x1 .f32) (xs1 : Vec F S1x2048x1 .f32) (xs2 : Vec F S1x2048x64 .f32) (y : S1x2048x64.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.2.1 S1x2048x64.size (by sl_kernel_rfl) y
theorem scover1_C_0 (c : Dev nD) (t : Fin cfg1.N) (hA0 : ¬cond1_0 (grid1.coords t)) (hA1 : cond1_1 (grid1.coords t)) (xs0 : Vec F S1x2048x1 .f32) (xs1 : Vec F S1x2048x1 .f32) (xs2 : Vec F S1x2048x64 .f32) (y : S1x2048x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.1 S1x2048x1.size (by sl_kernel_rfl) y
theorem scover1_C_1 (c : Dev nD) (t : Fin cfg1.N) (hA0 : ¬cond1_0 (grid1.coords t)) (hA1 : cond1_1 (grid1.coords t)) (xs0 : Vec F S1x2048x1 .f32) (xs1 : Vec F S1x2048x1 .f32) (xs2 : Vec F S1x2048x64 .f32) (y : S1x2048x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.1 S1x2048x1.size (by sl_kernel_rfl) y
theorem scover1_C_2 (c : Dev nD) (t : Fin cfg1.N) (hA0 : ¬cond1_0 (grid1.coords t)) (hA1 : cond1_1 (grid1.coords t)) (xs0 : Vec F S1x2048x1 .f32) (xs1 : Vec F S1x2048x1 .f32) (xs2 : Vec F S1x2048x64 .f32) (y : S1x2048x64.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).2.2.2.1 S1x2048x64.size (by sl_kernel_rfl) y
theorem cover1_C_3 (c : Dev nD) (t : Fin cfg1.N) (hA0 : ¬cond1_0 (grid1.coords t)) (hA1 : cond1_1 (grid1.coords t)) (xs0 : Vec F S1x2048x1 .f32) (xs1 : Vec F S1x2048x1 .f32) (xs2 : Vec F S1x2048x64 .f32) (y : S1x2048x64.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) xs0 xs1 xs2).1 S1x2048x64.size (by sl_kernel_rfl) y

/-! ## Point by point -/

/-- What the output block and the scratch buffers hold after the body at position `n`. -/
def outsAt1 (c : Dev nD) : (n : ℕ) → n < cfg1.N → Tup (F := F)
  | 0, hn => stA V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 4 = 0 then
      if h1 : (n + 1) % 4 = 3 then False.elim (by omega)
      else stA V c ⟨n + 1, hn⟩ ((hcond1_0 ⟨n + 1, hn⟩).mpr h0) (fun h => h1 ((hcond1_1 ⟨n + 1, hn⟩).mp h))
    else
      if h1 : (n + 1) % 4 = 3 then
        stC V c ⟨n + 1, hn⟩ (fun h => h0 ((hcond1_0 ⟨n + 1, hn⟩).mp h)) ((hcond1_1 ⟨n + 1, hn⟩).mpr h1) (outsAt1 c n (Nat.lt_of_succ_lt hn))
      else
        stB V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 4 = 0) (h1 : ¬t.val % 4 = 3) :
    outsAt1 V c t.val t.isLt = stA V c t ((hcond1_0 t).mpr h0) (fun h => h1 ((hcond1_1 t).mp h)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = stB V c t (fun h => h0 ((hcond1_0 t).mp h)) (fun h => h1 ((hcond1_1 t).mp h))
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = stC V c t (fun h => h0 ((hcond1_0 t).mp h)) ((hcond1_1 t).mpr h1)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- A scoped buffer of the other launch, whole, at anything. -/
abbrev G (c : Dev nD) (b : Ref sig .tc) : sProp 𝕄 :=
  iprop(∃ f : Buf (Elt F) ((c : Thread nD τ).loc b), ((c : Thread nD τ).loc b) ↦{fullShare} f)

/-- Before the first point: whatever the launch hands over.  After point `n`: the scratch buffers at what that point left. -/
def PhiS (c : Dev nD) : (n : ℕ) → n ≤ cfg1.N → sProp 𝕄
  | 0, _ => Pipeline.ΦA spec1 c
  | n + 1, hn => iprop(iprop(G c cc0_stg0_0 ∗ G c cc0_stg0_1 ∗ G c cc0_stg1_0 ∗ G c cc0_stg2_0 ∗ G c cc0_stg2_1 ∗ G c cc0_stg3_0 ∗ G c cc0_stg3_1 ∗ G c cc0_stg4_0 ∗ G c cc0_stg4_1 ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(G c cc0_stg0_0 ∗ G c cc0_stg0_1 ∗ G c cc0_stg1_0 ∗ G c cc0_stg2_0 ∗ G c cc0_stg2_1 ∗ G c cc0_stg3_0 ∗ G c cc0_stg3_1 ∗ G c cc0_stg4_0 ∗ G c cc0_stg4_1 ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS_pos (c : Dev nD) (n : ℕ) (h : n ≤ cfg1.N) (hz : n ≠ 0) :
    PhiS V c n h = iprop(iprop(G c cc0_stg0_0 ∗ G c cc0_stg0_1 ∗ G c cc0_stg1_0 ∗ G c cc0_stg2_0 ∗ G c cc0_stg2_1 ∗ G c cc0_stg3_0 ∗ G c cc0_stg3_1 ∗ G c cc0_stg4_0 ∗ G c cc0_stg4_1 ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl
theorem PhiA1_eq' (c : Dev nD) :
    (Pipeline.ΦA spec1 c : sProp 𝕄)
      = iprop(iprop(G c cc0_stg0_0 ∗ G c cc0_stg0_1 ∗ G c cc0_stg1_0 ∗ G c cc0_stg2_0 ∗ G c cc0_stg2_1 ∗ G c cc0_stg3_0 ∗ G c cc0_stg3_1 ∗ G c cc0_stg4_0 ∗ G c cc0_stg4_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) :=
  PhiA1_eq c

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · by_cases h1 : t.val % 4 = 3
    · exfalso; omega
    · have hA0 : cond1_0 (grid1.coords t) := (hcond1_0 t).mpr h0
      have hA1 : ¬cond1_1 (grid1.coords t) := fun h => h1 ((hcond1_1 t).mp h)
      rw [Dat.leavesExact_idle (dat1 V c) 3 t (idleAt1_3_A t hA0 hA1) (noFlush1_3_A t hA0 hA1)]
      rw [outsAt1_A V c t h0 h1]
      unfold stA; (try dsimp only)
      by_cases hz : t.val = 0
      · rw [PhiS_castSucc V c t, PhiS_zero V c _ _ hz, PhiA1_eq']
        iintro ⟨⟨⟨G1, G2, G3, G4, G5, G6, G7, G8, G9, HS0, HS1, HS2⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [G1 G2 G3 G4 G5 G6 G7 G8 G9 HS0 HS1 HS2 Hg]
        · isplitr [Hg]
          swap; · iexact Hg
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [HS0]
          · unfold owns; iexists _; isplitr
            swap; · iexact HS0
            ipureintro; exact View.read_writes_of_cover _ _ _ _ _ (scover1_A_0 V c t hA0 hA1)
          isplitl [HS1]
          · unfold owns; iexists _; isplitr
            swap; · iexact HS1
            ipureintro; exact View.read_writes_of_cover _ _ _ _ _ (scover1_A_1 V c t hA0 hA1)
          unfold owns; iexists _; isplitr
          swap; · iexact HS2
          ipureintro; exact View.read_writes_of_cover _ _ _ _ _ (scover1_A_2 V c t hA0 hA1)
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨G1, G2, G3, G4, G5, G6, G7, G8, G9, HS0, HS1, HS2⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [G1 G2 G3 G4 G5 G6 G7 G8 G9 HS0 HS1 HS2 Hg]
        · isplitr [Hg]
          swap; · iexact Hg
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [HS0]
          · unfold owns; iexists _; isplitr
            swap; · iexact HS0
            ipureintro; exact View.read_writes_of_cover _ _ _ _ _ (scover1_A_0 V c t hA0 hA1)
          isplitl [HS1]
          · unfold owns; iexists _; isplitr
            swap; · iexact HS1
            ipureintro; exact View.read_writes_of_cover _ _ _ _ _ (scover1_A_1 V c t hA0 hA1)
          unfold owns; iexists _; isplitr
          swap; · iexact HS2
          ipureintro; exact View.read_writes_of_cover _ _ _ _ _ (scover1_A_2 V c t hA0 hA1)
        isplitl [Ho]; · iexact Ho
        isplitl [H0]; · iexact H0
        isplitl [H1]; · iexact H1
        isplitl [H2]; · iexact H2
        iexists _; iexact H3
  · by_cases h1 : t.val % 4 = 3
    · have hA0 : ¬cond1_0 (grid1.coords t) := fun h => h0 ((hcond1_0 t).mp h)
      have hA1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3_C t hA0 hA1], after1_3]
      rw [outsAt1_C V c t h0 h1]
      unfold stC; (try dsimp only)
      by_cases hz : t.val = 0
      · exfalso; omega
      · rw [PhiS_castSucc V c t, PhiS_pos V c _ _ hz]
        iintro ⟨⟨⟨G1, G2, G3, G4, G5, G6, G7, G8, G9, HS0, HS1, HS2⟩, Hg⟩, Ho, ⟨%d0, H0⟩, ⟨%d1, H1⟩, ⟨%d2, H2⟩, ⟨%d3, H3⟩⟩
        iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [G1 G2 G3 G4 G5 G6 G7 G8 G9 HS0 HS1 HS2 Hg]
        · isplitr [Hg]
          swap; · iexact Hg
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [HS0]
          · unfold owns; iexists _; isplitr
            swap; · iexact HS0
            ipureintro; exact View.read_writes_of_cover _ _ _ _ _ (scover1_C_0 V c t hA0 hA1 _ _ _)
          isplitl [HS1]
          · unfold owns; iexists _; isplitr
            swap; · iexact HS1
            ipureintro; exact View.read_writes_of_cover _ _ _ _ _ (scover1_C_1 V c t hA0 hA1 _ _ _)
          unfold owns; iexists _; isplitr
          swap; · iexact HS2
          ipureintro; exact View.read_writes_of_cover _ _ _ _ _ (scover1_C_2 V c t hA0 hA1 _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 V c t hA0 hA1 _ _ _)
    · have hA0 : ¬cond1_0 (grid1.coords t) := fun h => h0 ((hcond1_0 t).mp h)
      have hA1 : ¬cond1_1 (grid1.coords t) := fun h => h1 ((hcond1_1 t).mp h)
      rw [Dat.leavesExact_idle (dat1 V c) 3 t (idleAt1_3_B t hA0 hA1) (noFlush1_3_B t hA0 hA1)]
      rw [outsAt1_B V c t h0 h1]
      unfold stB; (try dsimp only)
      by_cases hz : t.val = 0
      · exfalso; omega
      · rw [PhiS_castSucc V c t, PhiS_pos V c _ _ hz]
        iintro ⟨⟨⟨G1, G2, G3, G4, G5, G6, G7, G8, G9, HS0, HS1, HS2⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hA0 hA1 (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [G1 G2 G3 G4 G5 G6 G7 G8 G9 HS0 HS1 HS2 Hg]
        · isplitr [Hg]
          swap; · iexact Hg
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [HS0]
          · unfold owns; iexists _; isplitr
            swap; · iexact HS0
            ipureintro; exact View.read_writes_of_cover _ _ _ _ _ (scover1_B_0 V c t hA0 hA1 _ _ _)
          isplitl [HS1]
          · unfold owns; iexists _; isplitr
            swap; · iexact HS1
            ipureintro; exact View.read_writes_of_cover _ _ _ _ _ (scover1_B_1 V c t hA0 hA1 _ _ _)
          unfold owns; iexists _; isplitr
          swap; · iexact HS2
          ipureintro; exact View.read_writes_of_cover _ _ _ _ _ (scover1_B_2 V c t hA0 hA1 _ _ _)
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the scratch buffers' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS V c (Fin.last cfg1.N).val (Nat.le_of_lt_succ (Fin.last cfg1.N).isLt) from rfl, PhiS_pos V c _ _ ht, PhiA1_eq']
  iintro ⟨⟨G1, G2, G3, G4, G5, G6, G7, G8, G9, HS0, HS1, HS2⟩, Hg⟩
  isplitr [Hg]
  swap; · iexact Hg
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [HS0]; · iexists _; iexact HS0
  isplitl [HS1]; · iexists _; iexact HS1
  iexists _; iexact HS2

end Region

end Cert.KernelIdeal.Hand

end
-- ==== Proof.KiTile.lean ====
/-
  One key tile folded into the carried state, as three pure functions of the point's input blocks and the scratch
  contents the point starts from: the new row maxima, the new normalisers, the new weighted sums.
-/
import proofs.«142842_j2482491097827_2_alg».proof.Proof.Gen.KernelIdeal.Skeleton

noncomputable section

namespace Cert.KernelIdeal.Hand

open Cert.KernelIdeal Cert.KernelIdeal.Gen Idealize.ShloMosaic

variable {F : FTy → Type} [FloatOps F] [Named F]

/-- The row maxima after the tile. -/
def tileM (i : grid1.Coords) (q : Vec F S1x2048x64 .f32) (kt : Vec F S1x64x512 .f32) (ms : Vec F S1x2048x1 .f32) : Vec F S1x2048x1 .f32 :=
  k1_pay3 (k1_pay11 i q kt ms)
/-- The normalisers after the tile. -/
def tileL (i : grid1.Coords) (q : Vec F S1x2048x64 .f32) (kt : Vec F S1x64x512 .f32) (ms ls : Vec F S1x2048x1 .f32) : Vec F S1x2048x1 .f32 :=
  k1_pay1 (k1_pay14 i q kt ms ls)
/-- The weighted sums after the tile. -/
def tileA (i : grid1.Coords) (q : Vec F S1x2048x64 .f32) (kt : Vec F S1x64x512 .f32) (vv : Vec F S1x512x64 .bf16) (ms : Vec F S1x2048x1 .f32)
    (accs : Vec F S1x2048x64 .f32) : Vec F S1x2048x64 .f32 :=
  k1_pay2 (k1_pay8 vv) (k1_pay12 i q kt ms) (k1_pay13 i q kt ms) accs

end Cert.KernelIdeal.Hand

end
-- ==== Proof.KiPieces.lean ====
/-
  What each control case of the attention body leaves, read off the stored pieces: every buffer is stored whole, and every
  load is of a whole buffer, so the contents after the body are the payload terms of the point's input blocks and of the
  scratch contents the point starts from — one key tile folded in (KiTile.lean).  A first tile starts from the reset
  values; a last tile also stores the quotient of the new sums by the new normalisers.
-/
import proofs.«142842_j2482491097827_2_alg».proof.Proof.KiRegion1
import proofs.«142842_j2482491097827_2_alg».proof.Proof.KiTile
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz3 : (![0, 0, 0] : Fin 3 → Nat) = fun _ => 0 := funext fun a => by fin_cases a <;> rfl

/-- A whole scratch buffer read back at what it was handed over at. -/
theorem rd0 (h : (scM1_0 : Memref sig .tc .vmem S1x2048x1 .f32).IsWhole) (x : Vec F S1x2048x1 .f32) :
    View.read (Elt F) (View.whole cc1_scratch0) (h.unread x) = x := h.read_unread x
theorem rd1 (h : (scM1_1 : Memref sig .tc .vmem S1x2048x1 .f32).IsWhole) (x : Vec F S1x2048x1 .f32) :
    View.read (Elt F) (View.whole cc1_scratch1) (h.unread x) = x := h.read_unread x
theorem rd2 (h : (scM1_2 : Memref sig .tc .vmem S1x2048x64 .f32).IsWhole) (x : Vec F S1x2048x64 .f32) :
    View.read (Elt F) (View.whole cc1_scratch2) (h.unread x) = x := h.read_unread x

/-! ## A middle tile -/

theorem stB_m (c : Dev nD) (t : Fin cfg1.N) (hA0 : ¬cond1_0 (grid1.coords t)) (hA1 : ¬cond1_1 (grid1.coords t)) (p : Tup (F := F)) :
    (stB V c t hA0 hA1 p).2.1 = tileM (grid1.coords t) (iblk1 V c 0 t) (iblk1 V c 1 t) p.2.1 := by
  unfold stB tileM; dsimp only
  rw [View.read_writes_eq_canon _ _ _ (scover1_B_0 V c t hA0 hA1 _ _ _)]
  unfold kernelRun1_B; dsimp only
  sl_unfold_words
  first | rw [View.canon_unit_zero hz3] | rw [View.canon_cons_unit_zero hz3]
  simp only [View.readAt_eq_ld, Memref.IsWhole.read_unread, View.ld_unit_zero (S := S1x2048x64) hz3, View.ld_unit_zero (S := S1x64x512) hz3,
    View.ld_unit_zero (S := S1x512x64) hz3, View.ld_unit_zero (S := S1x2048x1) hz3,
    View.readCov_unit_zero (Val := Elt F) (S := S1x2048x1) (e := .f32) scM1_0.view hz3, View.readCov_unit_zero (Val := Elt F) (S := S1x2048x1) (e := .f32) scM1_1.view hz3,
    View.readCov_unit_zero (Val := Elt F) (S := S1x2048x64) (e := .f32) scM1_2.view hz3, rd0, rd1, rd2]
  first | done | rfl
theorem stB_l (c : Dev nD) (t : Fin cfg1.N) (hA0 : ¬cond1_0 (grid1.coords t)) (hA1 : ¬cond1_1 (grid1.coords t)) (p : Tup (F := F)) :
    (stB V c t hA0 hA1 p).2.2.1 = tileL (grid1.coords t) (iblk1 V c 0 t) (iblk1 V c 1 t) p.2.1 p.2.2.1 := by
  unfold stB tileL; dsimp only
  rw [View.read_writes_eq_canon _ _ _ (scover1_B_1 V c t hA0 hA1 _ _ _)]
  unfold kernelRun1_B; dsimp only
  sl_unfold_words
  first | rw [View.canon_unit_zero hz3] | rw [View.canon_cons_unit_zero hz3]
  simp only [View.readAt_eq_ld, Memref.IsWhole.read_unread, View.ld_unit_zero (S := S1x2048x64) hz3, View.ld_unit_zero (S := S1x64x512) hz3,
    View.ld_unit_zero (S := S1x512x64) hz3, View.ld_unit_zero (S := S1x2048x1) hz3,
    View.readCov_unit_zero (Val := Elt F) (S := S1x2048x1) (e := .f32) scM1_0.view hz3, View.readCov_unit_zero (Val := Elt F) (S := S1x2048x1) (e := .f32) scM1_1.view hz3,
    View.readCov_unit_zero (Val := Elt F) (S := S1x2048x64) (e := .f32) scM1_2.view hz3, rd0, rd1, rd2]
  first | done | rfl
theorem stB_a (c : Dev nD) (t : Fin cfg1.N) (hA0 : ¬cond1_0 (grid1.coords t)) (hA1 : ¬cond1_1 (grid1.coords t)) (p : Tup (F := F)) :
    (stB V c t hA0 hA1 p).2.2.2 = tileA (grid1.coords t) (iblk1 V c 0 t) (iblk1 V c 1 t) (iblk1 V c 2 t) p.2.1 p.2.2.2 := by
  unfold stB tileA; dsimp only
  rw [View.read_writes_eq_canon _ _ _ (scover1_B_2 V c t hA0 hA1 _ _ _)]
  unfold kernelRun1_B; dsimp only
  sl_unfold_words
  first | rw [View.canon_unit_zero hz3] | rw [View.canon_cons_unit_zero hz3]
  simp only [View.readAt_eq_ld, Memref.IsWhole.read_unread, View.ld_unit_zero (S := S1x2048x64) hz3, View.ld_unit_zero (S := S1x64x512) hz3,
    View.ld_unit_zero (S := S1x512x64) hz3, View.ld_unit_zero (S := S1x2048x1) hz3,
    View.readCov_unit_zero (Val := Elt F) (S := S1x2048x1) (e := .f32) scM1_0.view hz3, View.readCov_unit_zero (Val := Elt F) (S := S1x2048x1) (e := .f32) scM1_1.view hz3,
    View.readCov_unit_zero (Val := Elt F) (S := S1x2048x64) (e := .f32) scM1_2.view hz3, rd0, rd1, rd2]
  first | done | rfl

/-! ## A last tile -/

theorem stC_m (c : Dev nD) (t : Fin cfg1.N) (hA0 : ¬cond1_0 (grid1.coords t)) (hA1 : cond1_1 (grid1.coords t)) (p : Tup (F := F)) :
    (stC V c t hA0 hA1 p).2.1 = tileM (grid1.coords t) (iblk1 V c 0 t) (iblk1 V c 1 t) p.2.1 := by
  unfold stC tileM; dsimp only
  rw [View.read_writes_eq_canon _ _ _ (scover1_C_0 V c t hA0 hA1 _ _ _)]
  unfold kernelRun1_C; dsimp only
  sl_unfold_words
  first | rw [View.canon_unit_zero hz3] | rw [View.canon_cons_unit_zero hz3]
  simp only [View.readAt_eq_ld, Memref.IsWhole.read_unread, View.ld_unit_zero (S := S1x2048x64) hz3, View.ld_unit_zero (S := S1x64x512) hz3,
    View.ld_unit_zero (S := S1x512x64) hz3, View.ld_unit_zero (S := S1x2048x1) hz3,
    View.readCov_unit_zero (Val := Elt F) (S := S1x2048x1) (e := .f32) scM1_0.view hz3, View.readCov_unit_zero (Val := Elt F) (S := S1x2048x1) (e := .f32) scM1_1.view hz3,
    View.readCov_unit_zero (Val := Elt F) (S := S1x2048x64) (e := .f32) scM1_2.view hz3, rd0, rd1, rd2]
  first | done | rfl
theorem stC_l (c : Dev nD) (t : Fin cfg1.N) (hA0 : ¬cond1_0 (grid1.coords t)) (hA1 : cond1_1 (grid1.coords t)) (p : Tup (F := F)) :
    (stC V c t hA0 hA1 p).2.2.1 = tileL (grid1.coords t) (iblk1 V c 0 t) (iblk1 V c 1 t) p.2.1 p.2.2.1 := by
  unfold stC tileL; dsimp only
  rw [View.read_writes_eq_canon _ _ _ (scover1_C_1 V c t hA0 hA1 _ _ _)]
  unfold kernelRun1_C; dsimp only
  sl_unfold_words
  first | rw [View.canon_unit_zero hz3] | rw [View.canon_cons_unit_zero hz3]
  simp only [View.readAt_eq_ld, Memref.IsWhole.read_unread, View.ld_unit_zero (S := S1x2048x64) hz3, View.ld_unit_zero (S := S1x64x512) hz3,
    View.ld_unit_zero (S := S1x512x64) hz3, View.ld_unit_zero (S := S1x2048x1) hz3,
    View.readCov_unit_zero (Val := Elt F) (S := S1x2048x1) (e := .f32) scM1_0.view hz3, View.readCov_unit_zero (Val := Elt F) (S := S1x2048x1) (e := .f32) scM1_1.view hz3,
    View.readCov_unit_zero (Val := Elt F) (S := S1x2048x64) (e := .f32) scM1_2.view hz3, rd0, rd1, rd2]
  first | done | rfl
theorem stC_a (c : Dev nD) (t : Fin cfg1.N) (hA0 : ¬cond1_0 (grid1.coords t)) (hA1 : cond1_1 (grid1.coords t)) (p : Tup (F := F)) :
    (stC V c t hA0 hA1 p).2.2.2 = tileA (grid1.coords t) (iblk1 V c 0 t) (iblk1 V c 1 t) (iblk1 V c 2 t) p.2.1 p.2.2.2 := by
  unfold stC tileA; dsimp only
  rw [View.read_writes_eq_canon _ _ _ (scover1_C_2 V c t hA0 hA1 _ _ _)]
  unfold kernelRun1_C; dsimp only
  sl_unfold_words
  first | rw [View.canon_unit_zero hz3] | rw [View.canon_cons_unit_zero hz3]
  simp only [View.readAt_eq_ld, Memref.IsWhole.read_unread, View.ld_unit_zero (S := S1x2048x64) hz3, View.ld_unit_zero (S := S1x64x512) hz3,
    View.ld_unit_zero (S := S1x512x64) hz3, View.ld_unit_zero (S := S1x2048x1) hz3,
    View.readCov_unit_zero (Val := Elt F) (S := S1x2048x1) (e := .f32) scM1_0.view hz3, View.readCov_unit_zero (Val := Elt F) (S := S1x2048x1) (e := .f32) scM1_1.view hz3,
    View.readCov_unit_zero (Val := Elt F) (S := S1x2048x64) (e := .f32) scM1_2.view hz3, rd0, rd1, rd2]
  first | done | rfl
/-- The output block of a last tile: the new sums over the new normalisers. -/
theorem stC_out (c : Dev nD) (t : Fin cfg1.N) (hA0 : ¬cond1_0 (grid1.coords t)) (hA1 : cond1_1 (grid1.coords t)) (p : Tup (F := F)) :
    (stC V c t hA0 hA1 p).1 = k1_pay4 (tileA (grid1.coords t) (iblk1 V c 0 t) (iblk1 V c 1 t) (iblk1 V c 2 t) p.2.1 p.2.2.2) (tileL (grid1.coords t) (iblk1 V c 0 t) (iblk1 V c 1 t) p.2.1 p.2.2.1) := by
  unfold stC tileA tileL; dsimp only
  rw [View.read_writes_eq_canon _ _ _ (cover1_C_3 V c t hA0 hA1 _ _ _)]
  unfold kernelRun1_C; dsimp only
  sl_unfold_words
  first | rw [View.canon_unit_zero hz3] | rw [View.canon_cons_unit_zero hz3]
  simp only [View.readAt_eq_ld, Memref.IsWhole.read_unread, View.ld_unit_zero (S := S1x2048x64) hz3, View.ld_unit_zero (S := S1x64x512) hz3,
    View.ld_unit_zero (S := S1x512x64) hz3, View.ld_unit_zero (S := S1x2048x1) hz3,
    View.readCov_unit_zero (Val := Elt F) (S := S1x2048x1) (e := .f32) scM1_0.view hz3, View.readCov_unit_zero (Val := Elt F) (S := S1x2048x1) (e := .f32) scM1_1.view hz3,
    View.readCov_unit_zero (Val := Elt F) (S := S1x2048x64) (e := .f32) scM1_2.view hz3, rd0, rd1, rd2]
  first | done | rfl

/-! ## A first tile: from the reset values -/

theorem stA_m (c : Dev nD) (t : Fin cfg1.N) (hA0 : cond1_0 (grid1.coords t)) (hA1 : ¬cond1_1 (grid1.coords t)) :
    (stA V c t hA0 hA1).2.1 = tileM (grid1.coords t) (iblk1 V c 0 t) (iblk1 V c 1 t) k1_pay5 := by
  unfold stA tileM; dsimp only
  rw [View.read_writes_eq_canon _ _ _ (scover1_A_0 V c t hA0 hA1)]
  unfold kernelRun1_A; dsimp only
  sl_unfold_words
  first | rw [View.canon_unit_zero hz3] | rw [View.canon_cons_unit_zero hz3]
  simp only [View.readAt_eq_ld, Memref.IsWhole.read_unread, View.ld_unit_zero (S := S1x2048x64) hz3, View.ld_unit_zero (S := S1x64x512) hz3,
    View.ld_unit_zero (S := S1x512x64) hz3, View.ld_unit_zero (S := S1x2048x1) hz3,
    View.readCov_unit_zero (Val := Elt F) (S := S1x2048x1) (e := .f32) scM1_0.view hz3, View.readCov_unit_zero (Val := Elt F) (S := S1x2048x1) (e := .f32) scM1_1.view hz3,
    View.readCov_unit_zero (Val := Elt F) (S := S1x2048x64) (e := .f32) scM1_2.view hz3, rd0, rd1, rd2]
  first | done | rfl
theorem stA_l (c : Dev nD) (t : Fin cfg1.N) (hA0 : cond1_0 (grid1.coords t)) (hA1 : ¬cond1_1 (grid1.coords t)) :
    (stA V c t hA0 hA1).2.2.1 = tileL (grid1.coords t) (iblk1 V c 0 t) (iblk1 V c 1 t) k1_pay5 k1_pay6 := by
  unfold stA tileL; dsimp only
  rw [View.read_writes_eq_canon _ _ _ (scover1_A_1 V c t hA0 hA1)]
  unfold kernelRun1_A; dsimp only
  sl_unfold_words
  first | rw [View.canon_unit_zero hz3] | rw [View.canon_cons_unit_zero hz3]
  simp only [View.readAt_eq_ld, Memref.IsWhole.read_unread, View.ld_unit_zero (S := S1x2048x64) hz3, View.ld_unit_zero (S := S1x64x512) hz3,
    View.ld_unit_zero (S := S1x512x64) hz3, View.ld_unit_zero (S := S1x2048x1) hz3,
    View.readCov_unit_zero (Val := Elt F) (S := S1x2048x1) (e := .f32) scM1_0.view hz3, View.readCov_unit_zero (Val := Elt F) (S := S1x2048x1) (e := .f32) scM1_1.view hz3,
    View.readCov_unit_zero (Val := Elt F) (S := S1x2048x64) (e := .f32) scM1_2.view hz3, rd0, rd1, rd2]
  first | done | rfl
theorem stA_a (c : Dev nD) (t : Fin cfg1.N) (hA0 : cond1_0 (grid1.coords t)) (hA1 : ¬cond1_1 (grid1.coords t)) :
    (stA V c t hA0 hA1).2.2.2 = tileA (grid1.coords t) (iblk1 V c 0 t) (iblk1 V c 1 t) (iblk1 V c 2 t) k1_pay5 k1_pay7 := by
  unfold stA tileA; dsimp only
  rw [View.read_writes_eq_canon _ _ _ (scover1_A_2 V c t hA0 hA1)]
  unfold kernelRun1_A; dsimp only
  sl_unfold_words
  first | rw [View.canon_unit_zero hz3] | rw [View.canon_cons_unit_zero hz3]
  simp only [View.readAt_eq_ld, Memref.IsWhole.read_unread, View.ld_unit_zero (S := S1x2048x64) hz3, View.ld_unit_zero (S := S1x64x512) hz3,
    View.ld_unit_zero (S := S1x512x64) hz3, View.ld_unit_zero (S := S1x2048x1) hz3,
    View.readCov_unit_zero (Val := Elt F) (S := S1x2048x1) (e := .f32) scM1_0.view hz3, View.readCov_unit_zero (Val := Elt F) (S := S1x2048x1) (e := .f32) scM1_1.view hz3,
    View.readCov_unit_zero (Val := Elt F) (S := S1x2048x64) (e := .f32) scM1_2.view hz3, rd0, rd1, rd2]
  first | done | rfl

end Cert.KernelIdeal.Hand

end
-- ==== Proof.LibRowMax.lean ====
/-
  The maximum of a matrix along its rows, read at an index at the ideal values: a `vector.multi_reduction <maximumf>`
  of an [a, b] matrix along axis 1 is, at row i, the fold of max from the accumulator's value over the entries (i, k).
-/
import Idealize.ShloMosaic.Lib.ValueIdx
import Idealize.ShloMosaic.PureOps.Ideal.Laws

noncomputable section

namespace Cert.LibRowMax

open Idealize.ShloMosaic Idealize.ShloMosaic.ValueIdx

/-- At the ideal values the maximum of an `[a, b]` matrix along its rows is, at `i`, the fold of `max` from the
    accumulator's value over the entries `(i, k)`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

end Cert.LibRowMax

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KiAttnPay.lean ====
import proofs.«142842_j2482491097827_2_alg».proof.Proof.Gen.KernelIdeal.Skeleton
import proofs.«142842_j2482491097827_2_alg».proof.Proof.LibRowMax
import proofs.«142842_j2482491097827_2_alg».proof.Proof.LibKeepdims
import proofs.«142842_j2482491097827_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-
  The attention kernel's payloads read at an index, at the ideal values, over variable vectors: one tile of keys
  updates a running maximum, a running normaliser and a running weighted sum. Each payload is read at explicit
  coordinates: the tile's masked scores (a 2048 × 64 by 64 × 512 product, masked where the key position
  512 k + j lies after the query row), the new maximum, the rescaling factor exp (m_old − m_new), the tile's weights
  exp (score − m_new), the new normaliser, the new weighted sum, the final quotient, and the initial values.
-/

noncomputable section

namespace Cert.KernelIdeal.Hand

open Cert.KernelIdeal Cert.KernelIdeal.Gen Idealize.ShloMosaic Idealize.ShloMosaic.ValueIdx
open scoped BigOperators

/-! ### Constants -/

/-- The word `0xFF800000` is `-∞`. -/
theorem negInf : Ideal.ofBits .f32 0xFF800000#32 = (⊥ : EReal) := by
  simp [Ideal.ofBits, Ideal.ieee]

/-- The named large negative constant is `-∞` at the ideal values. -/
theorem negBig : Named.named (F := Ideal) κ "neg_big" (φ := .f32) 0xFF333332#32 = (⊥ : EReal) :=
  IdealRules.named_const.ideal_named_scalar _ _ _ _ rfl

/-! ### Layout-only payloads -/

/-- A `[2048, 1]` column stored as `[1, 2048, 1]`. -/
theorem pay1_apply (v33 : FVec Ideal S2048x1 .f32) (r : Fin 2048) :
    k1_pay1 (F := Ideal) v33 (ix3 0 r 0) = v33 (ix2 r 0) := by
  unfold k1_pay1
  exact shapeCast_ab_1ab_apply v33 _ 0 r 0

theorem pay3_apply (v22 : FVec Ideal S2048x1 .f32) (r : Fin 2048) :
    k1_pay3 (F := Ideal) v22 (ix3 0 r 0) = v22 (ix2 r 0) := by
  unfold k1_pay3
  exact shapeCast_ab_1ab_apply v22 _ 0 r 0

/-- A `[1, 512, 64]` block read as `[512, 64]`. -/
theorem pay8_apply (vv : Vec Ideal S1x512x64 .bf16) (j : Fin 512) (h : Fin 64) :
    k1_pay8 (F := Ideal) vv (ix2 j h) = vv (ix3 0 j h) := by
  unfold k1_pay8
  exact shapeCast_1ab_ab_apply vv _ j h

/-- The initial running maximum is `-∞`. -/
theorem pay5_apply (r : Fin 2048) : k1_pay5 (F := Ideal) (ix3 0 r 0) = (⊥ : EReal) := by
  unfold k1_pay5
  rw [shapeCast_self]
  exact negInf

/-- The initial normaliser is `0`. -/
theorem pay6_apply (r : Fin 2048) : k1_pay6 (F := Ideal) (ix3 0 r 0) = (0 : EReal) := by
  unfold k1_pay6
  rw [shapeCast_self]
  exact Ideal.ofBits_zero_f32

/-- The initial weighted sum is `0`. -/
theorem pay7_apply (r : Fin 2048) (h : Fin 64) : k1_pay7 (F := Ideal) (ix3 0 r h) = (0 : EReal) := by
  unfold k1_pay7
  rw [shapeCast_self]
  exact Ideal.ofBits_zero_f32

/-- The final quotient: the weighted sum over the normaliser. -/
theorem pay4_apply (v53 : Vec Ideal S1x2048x64 .f32) (v55 : Vec Ideal S1x2048x1 .f32) (r : Fin 2048) (h : Fin 64) :
    k1_pay4 (F := Ideal) v53 v55 (ix3 0 r h) = Ideal.div (v53 (ix3 0 r h)) (v55 (ix3 0 r 0)) := by
  unfold k1_pay4
  refine (shapeCast_ab_1ab_apply _ _ 0 r h).trans ?_
  refine (divf_apply _ _ _).trans ?_
  refine congrArg₂ Ideal.div (shapeCast_1ab_ab_apply v53 _ r h) ?_
  refine (Cert.LibKeepdims.broadcastTo_a1_ab_apply _ _ r h).trans ?_
  exact shapeCast_1ab_ab_apply v55 _ r 0

/-- The weighted sum's update: the old sum rescaled, plus this tile's weights times its values. -/
theorem pay2_apply (v8 : FVec Ideal S512x64 .bf16) (v24 : FVec Ideal S2048x1 .f32) (v27 : FVec Ideal S2048x512 .f32) (accs : Vec Ideal S1x2048x64 .f32) (r : Fin 2048) (h : Fin 64) :
    k1_pay2 (F := Ideal) v8 v24 v27 accs (ix3 0 r h) = v24 (ix2 r 0) * accs (ix3 0 r h) + ∑ j : Fin 512, v27 (ix2 r j) * v8 (ix2 j h) := by
  unfold k1_pay2
  refine (shapeCast_ab_1ab_apply _ _ 0 r h).trans ?_
  refine (addf_apply _ _ _).trans ?_
  refine congrArg₂ (· + ·) ?_ ?_
  · refine (mulf_apply _ _ _).trans ?_
    exact congrArg₂ (· * ·) (Cert.LibKeepdims.broadcastTo_a1_ab_apply v24 _ r h) (shapeCast_1ab_ab_apply accs _ r h)
  · exact Idealize.ShloMosaic.PlainDot.matmul_zero_apply 2048 512 64 none _ v8 r h

/-! ### The causal comparison on a tile -/

private theorem toInt_small (a : Nat) (ha : a < 2 ^ 31) : (BitVec.ofNat 32 a).toInt = (a : Int) := by
  rw [BitVec.toInt_eq_toNat_cond, BitVec.toNat_ofNat]
  have h : a % 2 ^ 32 = a := Nat.mod_eq_of_lt (by omega)
  rw [h, if_pos (by omega)]

/-- The word `k · 512 + j` for a tile number below 4 and a column below 512. -/
private theorem tile_word (k j : Nat) (hk : k < 4) (hj : j < 512) :
    IntOp.addi (Scalar.muli (BitVec.ofNat 32 k) 512#32) (BitVec.ofNat 32 j) = BitVec.ofNat 32 (512 * k + j) := by
  apply BitVec.eq_of_toNat_eq
  show ((BitVec.ofNat 32 k * 512#32) + BitVec.ofNat 32 j).toNat = _
  simp only [BitVec.toNat_add, BitVec.toNat_mul, BitVec.toNat_ofNat]
  omega

/-- Signed `≥` of a row number below 2048 against `512 k + j` is `≥` on the numbers. -/
theorem sge_tile (k r j : Nat) (hk : k < 4) (hr : r < 2048) (hj : j < 512) :
    IntOp.cmpi .sge (BitVec.ofNat 32 r) (IntOp.addi (Scalar.muli (BitVec.ofNat 32 k) 512#32) (BitVec.ofNat 32 j))
      = if 512 * k + j ≤ r then 1#1 else 0#1 := by
  rw [tile_word k j hk hj]
  by_cases h : 512 * k + j ≤ r
  · rw [if_pos h]
    refine IntOp.cmpi_sge.mpr ?_
    rw [toInt_small r (by omega), toInt_small (512 * k + j) (by omega)]
    exact_mod_cast h
  · rw [if_neg h]
    refine eq_zero_of_ne_one fun e => h ?_
    have := IntOp.cmpi_sge.mp e
    rw [toInt_small r (by omega), toInt_small (512 * k + j) (by omega)] at this
    exact_mod_cast this

/-! ### The tile's masked scores -/

theorem pay9_apply (i : grid1.Coords) (q : Vec Ideal S1x2048x64 .f32) (kt : Vec Ideal S1x64x512 .f32) (r : Fin 2048) (j : Fin 512) :
    k1_pay9 (F := Ideal) i q kt (ix2 r j)
      = if 512 * (i 1).val + j.val ≤ r.val then ∑ h : Fin 64, q (ix3 0 r h) * kt (ix3 0 h j) else ⊥ := by
  unfold k1_pay9
  refine (select_apply _ _ _ _).trans ?_
  have hc : cmpi .sge (iota .tc S2048x512 32 [0] iota_S2048x512_d0_w32)
      (addi (broadcast S2048x512 (Scalar.muli (BitVec.ofNat 32 (i 1).val) 512#32)) (iota .tc S2048x512 32 [1] iota_S2048x512_d1_w32)) (ix2 r j)
      = if 512 * (i 1).val + j.val ≤ r.val then 1#1 else 0#1 := by
    show IntOp.cmpi .sge (iota .tc S2048x512 32 [0] iota_S2048x512_d0_w32 (ix2 r j))
      (IntOp.addi (Scalar.muli (BitVec.ofNat 32 (i 1).val) 512#32) (iota .tc S2048x512 32 [1] iota_S2048x512_d1_w32 (ix2 r j))) = _
    rw [iota_single_apply, iota_single_apply]
    exact sge_tile (i 1).val r.val j.val (i 1).isLt r.isLt j.isLt
  rw [hc]
  by_cases h : 512 * (i 1).val + j.val ≤ r.val
  · rw [if_pos h, if_pos h]
    refine (select_one _ _).trans ?_
    refine (Idealize.ShloMosaic.PlainDot.matmul_zero_apply 2048 64 512 none _ _ r j).trans ?_
    refine Finset.sum_congr rfl fun h _ => ?_
    exact congrArg₂ (· * ·) (shapeCast_1ab_ab_apply q _ r h) (shapeCast_1ab_ab_apply kt _ h j)
  · rw [if_neg h, if_neg h]
    refine (select_zero _ _).trans ?_
    exact negBig

/-! ### The running maximum, the rescaling factor, the tile's weights and the normaliser -/

theorem pay11_apply (i : grid1.Coords) (q : Vec Ideal S1x2048x64 .f32) (kt : Vec Ideal S1x64x512 .f32) (ms : Vec Ideal S1x2048x1 .f32) (r : Fin 2048) :
    k1_pay11 (F := Ideal) i q kt ms (ix2 r 0)
      = max (ms (ix3 0 r 0)) ((Finset.univ : Finset (Fin 512)).fold max ⊥ (fun j => k1_pay9 (F := Ideal) i q kt (ix2 r j))) := by
  unfold k1_pay11
  refine (maximumf_apply _ _ _).trans ?_
  refine congrArg₂ max ?_ ?_
  · unfold k1_pay10
    exact shapeCast_1ab_ab_apply ms _ r 0
  · refine (Cert.LibKeepdims.shapeCast_a_a1_apply _ _ r 0).trans ?_
    refine (Cert.LibRowMax.rowMax_apply (k1_pay9 (F := Ideal) i q kt) 0xFF800000#32 _ (.inl rfl) rfl r).trans ?_
    rw [negInf]

theorem pay12_apply (i : grid1.Coords) (q : Vec Ideal S1x2048x64 .f32) (kt : Vec Ideal S1x64x512 .f32) (ms : Vec Ideal S1x2048x1 .f32) (r : Fin 2048) :
    k1_pay12 (F := Ideal) i q kt ms (ix2 r 0)
      = Ideal.exp (ms (ix3 0 r 0) - k1_pay11 (F := Ideal) i q kt ms (ix2 r 0)) := by
  unfold k1_pay12
  show Ideal.exp (k1_pay10 (F := Ideal) ms (ix2 r 0) - k1_pay11 (F := Ideal) i q kt ms (ix2 r 0)) = _
  refine congrArg (fun x => Ideal.exp (x - k1_pay11 (F := Ideal) i q kt ms (ix2 r 0))) ?_
  unfold k1_pay10
  exact shapeCast_1ab_ab_apply ms _ r 0

theorem pay13_apply (i : grid1.Coords) (q : Vec Ideal S1x2048x64 .f32) (kt : Vec Ideal S1x64x512 .f32) (ms : Vec Ideal S1x2048x1 .f32) (r : Fin 2048) (j : Fin 512) :
    k1_pay13 (F := Ideal) i q kt ms (ix2 r j)
      = Ideal.exp (k1_pay9 (F := Ideal) i q kt (ix2 r j) - k1_pay11 (F := Ideal) i q kt ms (ix2 r 0)) := by
  unfold k1_pay13
  show Ideal.exp (k1_pay9 (F := Ideal) i q kt (ix2 r j) - broadcastTo S2048x512 (k1_pay11 (F := Ideal) i q kt ms) broadcasts_S2048x1_S2048x512 (ix2 r j)) = _
  refine congrArg (fun x => Ideal.exp (k1_pay9 (F := Ideal) i q kt (ix2 r j) - x)) ?_
  exact Cert.LibKeepdims.broadcastTo_a1_ab_apply _ _ r j

theorem pay14_apply (i : grid1.Coords) (q : Vec Ideal S1x2048x64 .f32) (kt : Vec Ideal S1x64x512 .f32) (ms ls : Vec Ideal S1x2048x1 .f32) (r : Fin 2048) :
    k1_pay14 (F := Ideal) i q kt ms ls (ix2 r 0)
      = k1_pay12 (F := Ideal) i q kt ms (ix2 r 0) * ls (ix3 0 r 0) + ∑ j : Fin 512, k1_pay13 (F := Ideal) i q kt ms (ix2 r j) := by
  unfold k1_pay14
  refine (addf_apply _ _ _).trans ?_
  refine congrArg₂ (· + ·) ?_ ?_
  · refine (mulf_apply _ _ _).trans ?_
    exact congrArg (k1_pay12 (F := Ideal) i q kt ms (ix2 r 0) * ·) (shapeCast_1ab_ab_apply ls _ r 0)
  · refine (Cert.LibKeepdims.shapeCast_a_a1_apply _ _ r 0).trans ?_
    exact Cert.LibKeepdims.rowSum_apply (k1_pay13 (F := Ideal) i q kt ms) 0x00000000#32 _ (.inl rfl) rfl r

end Cert.KernelIdeal.Hand

end
-- ==== Proof.Spec.lean ====
/-
  The two sides of the claim as plain functions on the extended reals, with no program in sight.

  Single-head causal attention over a sequence of 2048 positions and a head of width 64.  For one batch entry and one
  query row, `z s` is the (already masked) logit against key position `s` and `v s h` the value vector of position `s`.
  * The one-pass form (`softmaxOut`): shift by the row maximum, exponentiate, normalise by the row sum, then average
    the value vectors.
  * The streaming form (`flashOut`): the keys arrive in four tiles of 512; a running maximum `m`, a running normaliser `l`
    and a running weighted sum `a` are carried from tile to tile, the old normaliser and sum rescaled by
    `exp (m_old - m_new)` each time the maximum moves; the quotient `a / l` is taken once at the end.
  Both are stated with the extended reals' own operations (`Ideal.exp ⊥ = 0`, `Ideal.div`), so that a masked logit `⊥`
  contributes the weight `0` on either side.
-/
import Idealize.ShloMosaic.PureOps.Ideal

noncomputable section

namespace Cert.Spec

open Idealize.ShloMosaic
open scoped BigOperators

/-- The activations, `[batch, position, feature]`. -/
abbrev Act := Fin 4 → Fin 2048 → Fin 1024 → EReal
/-- A projection matrix, `[feature, head coordinate]`. -/
abbrev Mat := Fin 1024 → Fin 64 → EReal

/-- A projection of the activations: `(x W) b t h = ∑ d, x b t d · W d h`. -/
def proj (x : Act) (W : Mat) (b : Fin 4) (t : Fin 2048) (h : Fin 64) : EReal :=
  ∑ d : Fin 1024, x b t d * W d h

/-- The masked logit of query row `t` against key `s` with the factor `8 = √64` applied to the QUERY before the
    contraction (the streaming program's order). -/
def logitPre (x : Act) (Wq Wk : Mat) (b : Fin 4) (t s : Fin 2048) : EReal :=
  if s.val ≤ t.val then ∑ h : Fin 64, (proj x Wq b t h * 8) * proj x Wk b s h else ⊥

/-- The same with the factor applied to the contracted product (the one-pass program's order). -/
def logitPost (x : Act) (Wq Wk : Mat) (b : Fin 4) (t s : Fin 2048) : EReal :=
  if s.val ≤ t.val then (∑ h : Fin 64, proj x Wq b t h * proj x Wk b s h) * 8 else ⊥

/-- Key position `512 k + j`: column `j` of tile `k`. -/
def col (k : Fin 4) (j : Fin 512) : Fin 2048 := ⟨512 * k.val + j.val, by omega⟩

/-- The streaming state of one query row: running maximum, running normaliser, running weighted sum. -/
structure St where
  m : EReal
  l : EReal
  a : Fin 64 → EReal

/-- Before the first tile: maximum `-∞`, nothing accumulated. -/
def init : St := ⟨⊥, 0, fun _ => 0⟩

/-- The largest logit of tile `k`. -/
def tileMax (z : Fin 2048 → EReal) (k : Fin 4) : EReal :=
  (Finset.univ : Finset (Fin 512)).fold max ⊥ (fun j => z (col k j))

/-- One tile: the maximum moves to `m'`; normaliser and sum are rescaled by `exp (m - m')` and take the tile's
    contributions `exp (z - m')`. -/
def step (z : Fin 2048 → EReal) (v : Fin 2048 → Fin 64 → EReal) (k : Fin 4) (S : St) : St :=
  { m := max S.m (tileMax z k)
    l := Ideal.exp (S.m - max S.m (tileMax z k)) * S.l
          + ∑ j : Fin 512, Ideal.exp (z (col k j) - max S.m (tileMax z k))
    a := fun h => Ideal.exp (S.m - max S.m (tileMax z k)) * S.a h
          + ∑ j : Fin 512, Ideal.exp (z (col k j) - max S.m (tileMax z k)) * v (col k j) h }

/-- The state after tiles `0 … n-1`. -/
def stateAfter (z : Fin 2048 → EReal) (v : Fin 2048 → Fin 64 → EReal) : ℕ → St
  | 0 => init
  | n + 1 => if hn : n < 4 then step z v ⟨n, hn⟩ (stateAfter z v n) else stateAfter z v n

/-- The streaming result: the weighted sum over the normaliser, after all four tiles. -/
def flashOut (z : Fin 2048 → EReal) (v : Fin 2048 → Fin 64 → EReal) (h : Fin 64) : EReal :=
  Ideal.div ((stateAfter z v 4).a h) ((stateAfter z v 4).l)

/-- The row maximum of the one-pass form. -/
def rowMax (z : Fin 2048 → EReal) : EReal := (Finset.univ : Finset (Fin 2048)).fold max ⊥ z

/-- The one-pass result. -/
def softmaxOut (z : Fin 2048 → EReal) (v : Fin 2048 → Fin 64 → EReal) (h : Fin 64) : EReal :=
  ∑ s : Fin 2048, Ideal.div (Ideal.exp (z s - rowMax z)) (∑ s' : Fin 2048, Ideal.exp (z s' - rowMax z)) * v s h

/-- The whole result of the streaming program, as a function of the four argument arrays. -/
def outK (x : Act) (Wk Wq Wv : Mat) (b : Fin 4) (t : Fin 2048) (h : Fin 64) : EReal :=
  flashOut (logitPre x Wq Wk b t) (proj x Wv b) h

/-- The whole result of the one-pass program. -/
def outR (x : Act) (Wk Wq Wv : Mat) (b : Fin 4) (t : Fin 2048) (h : Fin 64) : EReal :=
  softmaxOut (logitPost x Wq Wk b t) (proj x Wv b) h

end Cert.Spec

end
-- ==== Proof.KiTileRow.lean ====
import proofs.«142842_j2482491097827_2_alg».proof.Proof.KiTile
import proofs.«142842_j2482491097827_2_alg».proof.Proof.KiAttnPay
import proofs.«142842_j2482491097827_2_alg».proof.Proof.Spec

/-
  One tile of keys at one query row, against the specification's streaming step: with the tile's masked scores the
  specification's logits `z` at the tile's columns, the tile's values the specification's `v` there, and the row's
  carried maximum, normaliser and weighted sum a state `S`, the kernel's three updates are the three fields of
  `step z v k S`, the final quotient is `a / l` of that state, and the initial values are the initial state.
-/

noncomputable section

namespace Cert.KernelIdeal.Hand

open Cert.KernelIdeal Cert.KernelIdeal.Gen Idealize.ShloMosaic Idealize.ShloMosaic.ValueIdx Cert.Spec
open scoped BigOperators

/-- The tile's masked score at column `j` of query row `r` is the specification's logit at key `512 k + j`. -/
theorem pay9_row (i : grid1.Coords) (k : Fin 4) (hk : (i 1).val = k.val) (q : Vec Ideal S1x2048x64 .f32) (kt : Vec Ideal S1x64x512 .f32)
    (r : Fin 2048) (z : Fin 2048 → EReal)
    (hz : ∀ j : Fin 512, z (Cert.Spec.col k j) = if (Cert.Spec.col k j).val ≤ r.val then ∑ h : Fin 64, q (ix3 0 r h) * kt (ix3 0 h j) else ⊥)
    (j : Fin 512) : k1_pay9 (F := Ideal) i q kt (ix2 r j) = z (Cert.Spec.col k j) := by
  rw [pay9_apply, hk, hz]
  rfl

/-- The new running maximum of the row. -/
theorem pay11_row (i : grid1.Coords) (k : Fin 4) (hk : (i 1).val = k.val) (q : Vec Ideal S1x2048x64 .f32) (kt : Vec Ideal S1x64x512 .f32)
    (ms : Vec Ideal S1x2048x1 .f32) (r : Fin 2048) (z : Fin 2048 → EReal) (S : Cert.Spec.St)
    (hz : ∀ j : Fin 512, z (Cert.Spec.col k j) = if (Cert.Spec.col k j).val ≤ r.val then ∑ h : Fin 64, q (ix3 0 r h) * kt (ix3 0 h j) else ⊥)
    (hm : ms (ix3 0 r 0) = S.m) :
    k1_pay11 (F := Ideal) i q kt ms (ix2 r 0) = max S.m (Cert.Spec.tileMax z k) := by
  rw [pay11_apply, hm]
  have hf : (fun j : Fin 512 => k1_pay9 (F := Ideal) i q kt (ix2 r j)) = fun j => z (Cert.Spec.col k j) :=
    funext fun j => pay9_row i k hk q kt r z hz j
  rw [hf]
  rfl

theorem tileM_row (i : grid1.Coords) (k : Fin 4) (hk : (i 1).val = k.val) (q : Vec Ideal S1x2048x64 .f32) (kt : Vec Ideal S1x64x512 .f32)
    (ms : Vec Ideal S1x2048x1 .f32) (r : Fin 2048) (z : Fin 2048 → EReal) (v : Fin 2048 → Fin 64 → EReal) (S : Cert.Spec.St)
    (hz : ∀ j : Fin 512, z (Cert.Spec.col k j) = if (Cert.Spec.col k j).val ≤ r.val then ∑ h : Fin 64, q (ix3 0 r h) * kt (ix3 0 h j) else ⊥)
    (hm : ms (ix3 0 r 0) = S.m) :
    tileM (F := Ideal) i q kt ms (ix3 0 r 0) = (Cert.Spec.step z v k S).m := by
  unfold tileM
  rw [pay3_apply, pay11_row i k hk q kt ms r z S hz hm]
  rfl

/-- The factor the old normaliser and weighted sum are rescaled by. -/
theorem pay12_row (i : grid1.Coords) (k : Fin 4) (hk : (i 1).val = k.val) (q : Vec Ideal S1x2048x64 .f32) (kt : Vec Ideal S1x64x512 .f32)
    (ms : Vec Ideal S1x2048x1 .f32) (r : Fin 2048) (z : Fin 2048 → EReal) (S : Cert.Spec.St)
    (hz : ∀ j : Fin 512, z (Cert.Spec.col k j) = if (Cert.Spec.col k j).val ≤ r.val then ∑ h : Fin 64, q (ix3 0 r h) * kt (ix3 0 h j) else ⊥)
    (hm : ms (ix3 0 r 0) = S.m) :
    k1_pay12 (F := Ideal) i q kt ms (ix2 r 0) = Ideal.exp (S.m - max S.m (Cert.Spec.tileMax z k)) := by
  rw [pay12_apply, pay11_row i k hk q kt ms r z S hz hm, hm]

/-- The tile's weight at column `j`. -/
theorem pay13_row (i : grid1.Coords) (k : Fin 4) (hk : (i 1).val = k.val) (q : Vec Ideal S1x2048x64 .f32) (kt : Vec Ideal S1x64x512 .f32)
    (ms : Vec Ideal S1x2048x1 .f32) (r : Fin 2048) (z : Fin 2048 → EReal) (S : Cert.Spec.St)
    (hz : ∀ j : Fin 512, z (Cert.Spec.col k j) = if (Cert.Spec.col k j).val ≤ r.val then ∑ h : Fin 64, q (ix3 0 r h) * kt (ix3 0 h j) else ⊥)
    (hm : ms (ix3 0 r 0) = S.m) (j : Fin 512) :
    k1_pay13 (F := Ideal) i q kt ms (ix2 r j) = Ideal.exp (z (Cert.Spec.col k j) - max S.m (Cert.Spec.tileMax z k)) := by
  rw [pay13_apply, pay11_row i k hk q kt ms r z S hz hm, pay9_row i k hk q kt r z hz j]

theorem tileL_row (i : grid1.Coords) (k : Fin 4) (hk : (i 1).val = k.val) (q : Vec Ideal S1x2048x64 .f32) (kt : Vec Ideal S1x64x512 .f32)
    (ms ls : Vec Ideal S1x2048x1 .f32) (r : Fin 2048) (z : Fin 2048 → EReal) (v : Fin 2048 → Fin 64 → EReal) (S : Cert.Spec.St)
    (hz : ∀ j : Fin 512, z (Cert.Spec.col k j) = if (Cert.Spec.col k j).val ≤ r.val then ∑ h : Fin 64, q (ix3 0 r h) * kt (ix3 0 h j) else ⊥)
    (hm : ms (ix3 0 r 0) = S.m) (hl : ls (ix3 0 r 0) = S.l) :
    tileL (F := Ideal) i q kt ms ls (ix3 0 r 0) = (Cert.Spec.step z v k S).l := by
  unfold tileL
  rw [pay1_apply, pay14_apply, pay12_row i k hk q kt ms r z S hz hm, hl]
  refine congrArg (Ideal.exp (S.m - max S.m (Cert.Spec.tileMax z k)) * S.l + ·) ?_
  exact Finset.sum_congr rfl fun j _ => pay13_row i k hk q kt ms r z S hz hm j

theorem tileA_row (i : grid1.Coords) (k : Fin 4) (hk : (i 1).val = k.val) (q : Vec Ideal S1x2048x64 .f32) (kt : Vec Ideal S1x64x512 .f32)
    (vv : Vec Ideal S1x512x64 .bf16) (ms : Vec Ideal S1x2048x1 .f32) (accs : Vec Ideal S1x2048x64 .f32) (r : Fin 2048)
    (z : Fin 2048 → EReal) (v : Fin 2048 → Fin 64 → EReal) (S : Cert.Spec.St)
    (hz : ∀ j : Fin 512, z (Cert.Spec.col k j) = if (Cert.Spec.col k j).val ≤ r.val then ∑ h : Fin 64, q (ix3 0 r h) * kt (ix3 0 h j) else ⊥)
    (hv : ∀ (j : Fin 512) (h : Fin 64), vv (ix3 0 j h) = v (Cert.Spec.col k j) h)
    (hm : ms (ix3 0 r 0) = S.m) (ha : ∀ h : Fin 64, accs (ix3 0 r h) = S.a h) (h : Fin 64) :
    tileA (F := Ideal) i q kt vv ms accs (ix3 0 r h) = (Cert.Spec.step z v k S).a h := by
  unfold tileA
  rw [pay2_apply, pay12_row i k hk q kt ms r z S hz hm, ha h]
  refine congrArg (Ideal.exp (S.m - max S.m (Cert.Spec.tileMax z k)) * S.a h + ·) ?_
  refine Finset.sum_congr rfl fun j _ => ?_
  rw [pay13_row i k hk q kt ms r z S hz hm j, pay8_apply, hv]

theorem out_row (i : grid1.Coords) (k : Fin 4) (hk : (i 1).val = k.val) (q : Vec Ideal S1x2048x64 .f32) (kt : Vec Ideal S1x64x512 .f32)
    (vv : Vec Ideal S1x512x64 .bf16) (ms ls : Vec Ideal S1x2048x1 .f32) (accs : Vec Ideal S1x2048x64 .f32) (r : Fin 2048)
    (z : Fin 2048 → EReal) (v : Fin 2048 → Fin 64 → EReal) (S : Cert.Spec.St)
    (hz : ∀ j : Fin 512, z (Cert.Spec.col k j) = if (Cert.Spec.col k j).val ≤ r.val then ∑ h : Fin 64, q (ix3 0 r h) * kt (ix3 0 h j) else ⊥)
    (hv : ∀ (j : Fin 512) (h : Fin 64), vv (ix3 0 j h) = v (Cert.Spec.col k j) h)
    (hm : ms (ix3 0 r 0) = S.m) (hl : ls (ix3 0 r 0) = S.l) (ha : ∀ h : Fin 64, accs (ix3 0 r h) = S.a h) (h : Fin 64) :
    k1_pay4 (F := Ideal) (tileA (F := Ideal) i q kt vv ms accs) (tileL (F := Ideal) i q kt ms ls) (ix3 0 r h)
      = Ideal.div ((Cert.Spec.step z v k S).a h) ((Cert.Spec.step z v k S).l) := by
  rw [pay4_apply, tileA_row i k hk q kt vv ms accs r z v S hz hv hm ha h, tileL_row i k hk q kt ms ls r z v S hz hm hl]

/-- The values the first tile starts from are the specification's initial state. -/
theorem init_row (r : Fin 2048) (h : Fin 64) :
    k1_pay5 (F := Ideal) (ix3 0 r 0) = Cert.Spec.init.m ∧ k1_pay6 (F := Ideal) (ix3 0 r 0) = Cert.Spec.init.l
      ∧ k1_pay7 (F := Ideal) (ix3 0 r h) = Cert.Spec.init.a h :=
  ⟨pay5_apply r, pay6_apply r, pay7_apply r h⟩

end Cert.KernelIdeal.Hand

end
-- ==== Proof.KiAttnBlocks.lean ====
/-
  The attention region's blocks and its output array, by coordinates.

  The grid is (batch b, key tile k) with k innermost, so point t has b = t / 4 and k = t % 4.  The block of the scaled
  queries at point t is batch entry b of the query array; the block of the transposed keys is its columns
  512 k … 512 k + 511; the block of the values is its rows 512 k … 512 k + 511.  The output block is batch entry b of
  the output array and is written back at the last tile (k = 3) only; the four write-backs tile the output array, so an
  entry (b, r, h) of the array after the region is entry (r, h) of what point 4 b + 3 left in the output block.
-/
import proofs.«142842_j2482491097827_2_alg».proof.Proof.KiRegion1
import proofs.«142842_j2482491097827_2_alg».proof.Proof.Spec
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The grid's coordinates and the windows' block indices at point t, decided over the sixteen points -/

/-- The batch coordinate of point t. -/
theorem coord_b : ∀ t : Fin cfg1.N, (grid1.coords t 0).val = t.val / 4 :=
  (by decide +kernel : ∀ t : Fin grid1.N, (grid1.coords t 0).val = t.val / 4)
/-- The key-tile coordinate of point t. -/
theorem coord_k : ∀ t : Fin cfg1.N, (grid1.coords t 1).val = t.val % 4 :=
  (by decide +kernel : ∀ t : Fin grid1.N, (grid1.coords t 1).val = t.val % 4)

/-- Queries: block (b, 0, 0). -/
theorem idx1_0 : ∀ t : Fin cfg1.N, win1_0.index t (0 : Fin 3) = t.val / 4 ∧ win1_0.index t (1 : Fin 3) = 0 ∧ win1_0.index t (2 : Fin 3) = 0 :=
  (by decide +kernel : ∀ t : Fin grid1.N, _)
/-- Transposed keys: block (b, 0, k). -/
theorem idx1_1 : ∀ t : Fin cfg1.N, win1_1.index t (0 : Fin 3) = t.val / 4 ∧ win1_1.index t (1 : Fin 3) = 0 ∧ win1_1.index t (2 : Fin 3) = t.val % 4 :=
  (by decide +kernel : ∀ t : Fin grid1.N, _)
/-- Values: block (b, k, 0). -/
theorem idx1_2 : ∀ t : Fin cfg1.N, win1_2.index t (0 : Fin 3) = t.val / 4 ∧ win1_2.index t (1 : Fin 3) = t.val % 4 ∧ win1_2.index t (2 : Fin 3) = 0 :=
  (by decide +kernel : ∀ t : Fin grid1.N, _)
/-- Output: block (b, 0, 0). -/
theorem idx1_3 : ∀ t : Fin cfg1.N, win1_3.index t (0 : Fin 3) = t.val / 4 ∧ win1_3.index t (1 : Fin 3) = 0 ∧ win1_3.index t (2 : Fin 3) = 0 :=
  (by decide +kernel : ∀ t : Fin grid1.N, _)

/-- There are sixteen points, so t / 4 is a batch index. -/
theorem div4_lt (t : Fin cfg1.N) : t.val / 4 < 4 := by
  have h1 : cfg1.N = 16 := N_1
  have h2 := t.isLt
  omega

theorem mod4_lt (t : Fin cfg1.N) : t.val % 4 < 4 := Nat.mod_lt _ (by decide)

section Blocks

variable (V : (c : Dev nD) → (b : Ref sig .tc) → Buf (Elt Ideal) ((c : Thread nD τ).loc b))

/-! ## The three input blocks as entries of their arrays -/

/-- The query block at point t is batch entry t / 4 of the query array. -/
theorem blk_q (c : Dev nD) (t : Fin cfg1.N) (r : Fin 2048) (h : Fin 64) :
    iblk1 (F := Ideal) V c 0 t (ix3 0 r h) = V c main_v1_0 (ix3 (⟨t.val / 4, div4_lt t⟩ : Fin 4) r h) := by
  obtain ⟨e0, e1, e2⟩ := idx1_0 t
  unfold iblk1
  rw [View.read_apply]
  show V c main_v1_0 _ = V c main_v1_0 _
  congr 1
  funext a
  apply Fin.ext
  match a with
  | ⟨0, _⟩ => show win1_0.index t (0 : Fin 3) * 1 + 1 * 0 = t.val / 4; omega
  | ⟨1, _⟩ => show win1_0.index t (1 : Fin 3) * 2048 + 1 * r.val = r.val; omega
  | ⟨2, _⟩ => show win1_0.index t (2 : Fin 3) * 64 + 1 * h.val = h.val; omega

/-- The transposed-key block at point t is columns 512 (t % 4) … of batch entry t / 4. -/
theorem blk_kt (c : Dev nD) (t : Fin cfg1.N) (h : Fin 64) (j : Fin 512) :
    iblk1 (F := Ideal) V c 1 t (ix3 0 h j)
      = V c main_v1_1 (ix3 (⟨t.val / 4, div4_lt t⟩ : Fin 4) h (Cert.Spec.col ⟨t.val % 4, mod4_lt t⟩ j)) := by
  obtain ⟨e0, e1, e2⟩ := idx1_1 t
  unfold iblk1
  rw [View.read_apply]
  show V c main_v1_1 _ = V c main_v1_1 _
  congr 1
  funext a
  apply Fin.ext
  match a with
  | ⟨0, _⟩ => show win1_1.index t (0 : Fin 3) * 1 + 1 * 0 = t.val / 4; omega
  | ⟨1, _⟩ => show win1_1.index t (1 : Fin 3) * 64 + 1 * h.val = h.val; omega
  | ⟨2, _⟩ => show win1_1.index t (2 : Fin 3) * 512 + 1 * j.val = 512 * (t.val % 4) + j.val; omega

/-- The value block at point t is rows 512 (t % 4) … of batch entry t / 4. -/
theorem blk_v (c : Dev nD) (t : Fin cfg1.N) (j : Fin 512) (h : Fin 64) :
    iblk1 (F := Ideal) V c 2 t (ix3 0 j h)
      = V c main_v1_2 (ix3 (⟨t.val / 4, div4_lt t⟩ : Fin 4) (Cert.Spec.col ⟨t.val % 4, mod4_lt t⟩ j) h) := by
  obtain ⟨e0, e1, e2⟩ := idx1_2 t
  unfold iblk1
  rw [View.read_apply]
  show V c main_v1_2 _ = V c main_v1_2 _
  congr 1
  funext a
  apply Fin.ext
  match a with
  | ⟨0, _⟩ => show win1_2.index t (0 : Fin 3) * 1 + 1 * 0 = t.val / 4; omega
  | ⟨1, _⟩ => show win1_2.index t (1 : Fin 3) * 512 + 1 * j.val = 512 * (t.val % 4) + j.val; omega
  | ⟨2, _⟩ => show win1_2.index t (2 : Fin 3) * 64 + 1 * h.val = h.val; omega

/-! ## The output array after the region -/

/-- An index of the output array is in point t's block iff each coordinate is in the block's range on its axis. -/
theorem mem_blk_out (t : Fin cfg1.N) (i : S4x2048x64.Idx) :
    i ∈ ((cfg1.win 3).blk t).view.set ↔ ∀ a : Fin 3, win1_3.index t a * S1x2048x64.size a ≤ (i a).val ∧ (i a).val < win1_3.index t a * S1x2048x64.size a + S1x2048x64.size a := by
  show i ∈ ((View.whole main_v2).slice (win1_3.rect t)).set ↔ _
  rw [View.set_slice_whole, Rect.mem_set_unit]
  exact Iff.rfl

/-- If what every last-tile point leaves in the output block is batch entry t / 4 of one function G of the
    coordinates, the output array after the region is G: the point that covers (b, r, h) is 4 b + 3. -/
theorem arr_out (c : Dev nD) (G : Fin 4 → Fin 2048 → Fin 64 → EReal)
    (hG : ∀ (t : Fin cfg1.N), t.val % 4 = 3 → ∀ (r : Fin 2048) (h : Fin 64),
      (outsAt1 (F := Ideal) V c t.val t.isLt).1 (ix3 0 r h) = G ⟨t.val / 4, div4_lt t⟩ r h)
    (b : Fin 4) (r : Fin 2048) (h : Fin 64) :
    (dat1 (F := Ideal) V c).arrAt 3 cfg1.N (ix3 b r h) = G b r h := by
  have hN : cfg1.N = 16 := N_1
  have key : (dat1 (F := Ideal) V c).arrAt 3 cfg1.N = (fun i : S4x2048x64.Idx => G (i 0) (i 1) (i 2)) := by
    refine (dat1 (F := Ideal) V c).arrAt_eq_of_cover 3 (fun i : S4x2048x64.Idx => G (i 0) (i 1) (i 2)) (fun t hf => ?_) (fun i => ?_)
    · -- what a last-tile point writes back
      have h3 : t.val % 4 = 3 := (flush1_3 t).mp hf
      obtain ⟨e0, e1, e2⟩ := idx1_3 t
      show (cfg1.win 3).cut (grid1.coords t) ((dat1 (F := Ideal) V c).after 3 t) = _
      rw [after1_3]
      refine funext (fun (y : S1x2048x64.Idx) => ?_)
      rw [View.read_apply]
      show (outsAt1 (F := Ideal) V c t.val t.isLt).1 y = G ((((cfg1.win 3).blk t).view.emb y) 0) ((((cfg1.win 3).blk t).view.emb y) 1) ((((cfg1.win 3).blk t).view.emb y) 2)
      have y0' : (y 0).val < 1 := (y 0).isLt
      have y0 : (y 0).val = 0 := by omega
      have hy : y = ix3 (0 : Fin 1) (y 1) (y 2) := by
        funext a
        match a with
        | ⟨0, _⟩ => exact Fin.ext y0
        | ⟨1, _⟩ => rfl
        | ⟨2, _⟩ => rfl
      have y1 : (y 1).val < 2048 := (y 1).isLt
      have y2 : (y 2).val < 64 := (y 2).isLt
      have q0 : (((cfg1.win 3).blk t).view.emb y) 0 = (⟨t.val / 4, div4_lt t⟩ : Fin 4) :=
        Fin.ext (show win1_3.index t (0 : Fin 3) * 1 + 1 * (y 0).val = t.val / 4 by omega)
      have q1 : (((cfg1.win 3).blk t).view.emb y) 1 = (y 1 : Fin 2048) :=
        Fin.ext (show win1_3.index t (1 : Fin 3) * 2048 + 1 * (y 1).val = (y 1).val by omega)
      have q2 : (((cfg1.win 3).blk t).view.emb y) 2 = (y 2 : Fin 64) :=
        Fin.ext (show win1_3.index t (2 : Fin 3) * 64 + 1 * (y 2).val = (y 2).val by omega)
      rw [q0, q1, q2]
      exact (congrArg (outsAt1 (F := Ideal) V c t.val t.isLt).1 hy).trans (hG t h3 (y 1) (y 2))
    · -- the cover
      have i0 : (i 0).val < 4 := (i 0).isLt
      have i1 : (i 1).val < 2048 := (i 1).isLt
      have i2 : (i 2).val < 64 := (i 2).isLt
      let t : Fin cfg1.N := ⟨4 * (i 0).val + 3, by omega⟩
      have ht : t.val = 4 * (i 0).val + 3 := rfl
      obtain ⟨e0, e1, e2⟩ := idx1_3 t
      refine ⟨t, (flush1_3 t).mpr (by omega), ?_⟩
      rw [mem_blk_out]
      intro a
      match a with
      | ⟨0, _⟩ => show win1_3.index t (0 : Fin 3) * 1 ≤ (i 0).val ∧ (i 0).val < win1_3.index t (0 : Fin 3) * 1 + 1; omega
      | ⟨1, _⟩ => show win1_3.index t (1 : Fin 3) * 2048 ≤ (i 1).val ∧ (i 1).val < win1_3.index t (1 : Fin 3) * 2048 + 2048; omega
      | ⟨2, _⟩ => show win1_3.index t (2 : Fin 3) * 64 ≤ (i 2).val ∧ (i 2).val < win1_3.index t (2 : Fin 3) * 64 + 64; omega
  rw [key]

end Blocks

end Cert.KernelIdeal.Hand

end
-- ==== Proof.KiInvariant.lean ====
/-
  The attention region's value: after the point of batch entry `b` and key tile `k`, row `r` of the three scratch
  buffers holds the streaming state (Spec.lean's `stateAfter`) of that row after tiles `0 … k`, for the row's masked
  logits and the batch entry's value vectors read off the region's input arrays; and the block written back at the
  last tile holds the streaming result.  By induction over the tiles: a first tile starts from the reset values, every
  later tile from what the point before left.
-/
import proofs.«142842_j2482491097827_2_alg».proof.Proof.KiPieces
import proofs.«142842_j2482491097827_2_alg».proof.Proof.KiTileRow
import proofs.«142842_j2482491097827_2_alg».proof.Proof.KiAttnBlocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec

variable (V : (c : Dev nD) → (b : Ref sig .tc) → Buf (Elt Ideal) ((c : Thread nD τ).loc b)) (c : Dev nD)

/-- The scaled-queries array, the transposed-keys array and the values array as the region finds them. -/
def Qa : (⟨3, ![4, 2048, 64]⟩ : Shape).Idx → EReal := V c main_v1_0
def KTa : (⟨3, ![4, 64, 2048]⟩ : Shape).Idx → EReal := V c main_v1_1
def VVa : (⟨3, ![4, 2048, 64]⟩ : Shape).Idx → EReal := V c main_v1_2
/-- The three input blocks of a point. -/
def qb (t : Fin cfg1.N) : Vec Ideal S1x2048x64 .f32 := iblk1 (F := Ideal) V c 0 t
def ktb (t : Fin cfg1.N) : Vec Ideal S1x64x512 .f32 := iblk1 (F := Ideal) V c 1 t
def vb (t : Fin cfg1.N) : Vec Ideal S1x512x64 .bf16 := iblk1 (F := Ideal) V c 2 t

theorem blk_q' (t : Fin cfg1.N) (r : Fin 2048) (h : Fin 64) :
    qb V c t (ix3 0 r h) = Qa V c (ix3 (⟨t.val / 4, div4_lt t⟩ : Fin 4) r h) := blk_q V c t r h
theorem blk_kt' (t : Fin cfg1.N) (h : Fin 64) (j : Fin 512) :
    ktb V c t (ix3 0 h j) = KTa V c (ix3 (⟨t.val / 4, div4_lt t⟩ : Fin 4) h (col ⟨t.val % 4, mod4_lt t⟩ j)) := blk_kt V c t h j
theorem blk_v' (t : Fin cfg1.N) (j : Fin 512) (h : Fin 64) :
    vb V c t (ix3 0 j h) = VVa V c (ix3 (⟨t.val / 4, div4_lt t⟩ : Fin 4) (col ⟨t.val % 4, mod4_lt t⟩ j) h) := blk_v V c t j h

/-- The masked logits of query row `r` of batch entry `b`, from the scaled-queries and transposed-keys arrays. -/
def zrow (b : Fin 4) (r : Fin 2048) : Fin 2048 → EReal := fun s =>
  if s.val ≤ r.val then ∑ h : Fin 64, Qa V c (ix3 b r h) * KTa V c (ix3 b h s) else ⊥
/-- The value vectors of batch entry `b`. -/
def vrow (b : Fin 4) : Fin 2048 → Fin 64 → EReal := fun s h => VVa V c (ix3 b s h)

theorem stateAfter_succ (z : Fin 2048 → EReal) (v : Fin 2048 → Fin 64 → EReal) (k : ℕ) (hk : k < 4) :
    stateAfter z v (k + 1) = step z v ⟨k, hk⟩ (stateAfter z v k) := by
  show (if hn : k < 4 then step z v ⟨k, hn⟩ (stateAfter z v k) else stateAfter z v k) = _
  rw [dif_pos hk]

theorem outsAt1_congr {n n' : ℕ} (e : n = n') (hn : n < cfg1.N) (hn' : n' < cfg1.N) :
    outsAt1 (F := Ideal) V c n hn = outsAt1 (F := Ideal) V c n' hn' := by subst e; rfl

/-- The point of batch entry `b` and tile `k`. -/
theorem pt_lt (b : Fin 4) (k : ℕ) (hk : k < 4) : 4 * b.val + k < cfg1.N := by
  have : cfg1.N = 16 := N_1
  have := b.isLt; omega

section Point
variable (b : Fin 4) (k : ℕ) (hk : k < 4)

/-- The logits the tile sees are the row's logits at the tile's columns. -/
theorem hz_pt (r : Fin 2048) (j : Fin 512) :
    zrow V c b r (col ⟨k, hk⟩ j) = if (col ⟨k, hk⟩ j).val ≤ r.val then
      ∑ h : Fin 64, qb V c ⟨4 * b.val + k, pt_lt b k hk⟩ (ix3 0 r h) * ktb V c ⟨4 * b.val + k, pt_lt b k hk⟩ (ix3 0 h j) else ⊥ := by
  have eb : (⟨(4 * b.val + k) / 4, div4_lt ⟨4 * b.val + k, pt_lt b k hk⟩⟩ : Fin 4) = b := Fin.ext (by show (4 * b.val + k) / 4 = b.val; omega)
  have ek : (⟨(4 * b.val + k) % 4, mod4_lt ⟨4 * b.val + k, pt_lt b k hk⟩⟩ : Fin 4) = ⟨k, hk⟩ := Fin.ext (by show (4 * b.val + k) % 4 = k; omega)
  simp only [zrow, blk_q', blk_kt', eb, ek]
  first | done | rfl
theorem hv_pt (j : Fin 512) (h : Fin 64) :
    vb V c ⟨4 * b.val + k, pt_lt b k hk⟩ (ix3 0 j h) = vrow V c b (col ⟨k, hk⟩ j) h := by
  have eb : (⟨(4 * b.val + k) / 4, div4_lt ⟨4 * b.val + k, pt_lt b k hk⟩⟩ : Fin 4) = b := Fin.ext (by show (4 * b.val + k) / 4 = b.val; omega)
  have ek : (⟨(4 * b.val + k) % 4, mod4_lt ⟨4 * b.val + k, pt_lt b k hk⟩⟩ : Fin 4) = ⟨k, hk⟩ := Fin.ext (by show (4 * b.val + k) % 4 = k; omega)
  simp only [vrow, blk_v', eb, ek]
  first | done | rfl
theorem hk_pt : (grid1.coords (⟨4 * b.val + k, pt_lt b k hk⟩ : Fin cfg1.N) 1).val = (⟨k, hk⟩ : Fin 4).val := by
  rw [coord_k]; show (4 * b.val + k) % 4 = k; omega

end Point

/-- THE INVARIANT. -/
theorem inv (b : Fin 4) : ∀ (k : ℕ) (hk : k < 4) (r : Fin 2048),
    (outsAt1 (F := Ideal) V c (4 * b.val + k) (pt_lt b k hk)).2.1 (ix3 0 r 0) = (stateAfter (zrow V c b r) (vrow V c b) (k + 1)).m
    ∧ (outsAt1 (F := Ideal) V c (4 * b.val + k) (pt_lt b k hk)).2.2.1 (ix3 0 r 0) = (stateAfter (zrow V c b r) (vrow V c b) (k + 1)).l
    ∧ ∀ h : Fin 64, (outsAt1 (F := Ideal) V c (4 * b.val + k) (pt_lt b k hk)).2.2.2 (ix3 0 r h) = (stateAfter (zrow V c b r) (vrow V c b) (k + 1)).a h
  | 0, hk, r => by
    have h0 : (⟨4 * b.val + 0, pt_lt b 0 hk⟩ : Fin cfg1.N).val % 4 = 0 := by show (4 * b.val + 0) % 4 = 0; omega
    have h1 : ¬(⟨4 * b.val + 0, pt_lt b 0 hk⟩ : Fin cfg1.N).val % 4 = 3 := by show ¬(4 * b.val + 0) % 4 = 3; omega
    have e := outsAt1_A (F := Ideal) V c ⟨4 * b.val + 0, pt_lt b 0 hk⟩ h0 h1
    rw [show outsAt1 (F := Ideal) V c (4 * b.val + 0) (pt_lt b 0 hk) = _ from e, stateAfter_succ _ _ 0 hk]
    have hi := init_row r 0
    refine ⟨?_, ?_, fun h => ?_⟩
    · rw [stA_m]
      exact tileM_row _ ⟨0, hk⟩ (hk_pt b 0 hk) _ _ _ r (zrow V c b r) (vrow V c b) init (hz_pt V c b 0 hk r) hi.1
    · rw [stA_l]
      exact tileL_row _ ⟨0, hk⟩ (hk_pt b 0 hk) _ _ _ _ r (zrow V c b r) (vrow V c b) init (hz_pt V c b 0 hk r) hi.1 hi.2.1
    · rw [stA_a]
      exact tileA_row _ ⟨0, hk⟩ (hk_pt b 0 hk) _ _ _ _ _ r (zrow V c b r) (vrow V c b) init (hz_pt V c b 0 hk r) (hv_pt V c b 0 hk) hi.1 (fun h' => (init_row r h').2.2) h
  | k + 1, hk, r => by
    have hk' : k < 4 := by omega
    obtain ⟨im, il, ia⟩ := inv b k hk' r
    have h0 : ¬(⟨4 * b.val + (k + 1), pt_lt b (k + 1) hk⟩ : Fin cfg1.N).val % 4 = 0 := by show ¬(4 * b.val + (k + 1)) % 4 = 0; omega
    have ep : outsAt1 (F := Ideal) V c ((⟨4 * b.val + (k + 1), pt_lt b (k + 1) hk⟩ : Fin cfg1.N).val - 1) (Nat.lt_of_le_of_lt (Nat.sub_le _ _) (pt_lt b (k + 1) hk))
        = outsAt1 (F := Ideal) V c (4 * b.val + k) (pt_lt b k hk') := outsAt1_congr V c (by show 4 * b.val + (k + 1) - 1 = 4 * b.val + k; omega) _ _
    rw [stateAfter_succ _ _ (k + 1) hk]
    by_cases h1 : (⟨4 * b.val + (k + 1), pt_lt b (k + 1) hk⟩ : Fin cfg1.N).val % 4 = 3
    · have e := outsAt1_C (F := Ideal) V c ⟨4 * b.val + (k + 1), pt_lt b (k + 1) hk⟩ h0 h1
      rw [show outsAt1 (F := Ideal) V c (4 * b.val + (k + 1)) (pt_lt b (k + 1) hk) = _ from e, ep]
      refine ⟨?_, ?_, fun h => ?_⟩
      · rw [stC_m]
        exact tileM_row _ ⟨k + 1, hk⟩ (hk_pt b (k + 1) hk) _ _ _ r (zrow V c b r) (vrow V c b) _ (hz_pt V c b (k + 1) hk r) im
      · rw [stC_l]
        exact tileL_row _ ⟨k + 1, hk⟩ (hk_pt b (k + 1) hk) _ _ _ _ r (zrow V c b r) (vrow V c b) _ (hz_pt V c b (k + 1) hk r) im il
      · rw [stC_a]
        exact tileA_row _ ⟨k + 1, hk⟩ (hk_pt b (k + 1) hk) _ _ _ _ _ r (zrow V c b r) (vrow V c b) _ (hz_pt V c b (k + 1) hk r) (hv_pt V c b (k + 1) hk) im ia h
    · have e := outsAt1_B (F := Ideal) V c ⟨4 * b.val + (k + 1), pt_lt b (k + 1) hk⟩ h0 h1
      rw [show outsAt1 (F := Ideal) V c (4 * b.val + (k + 1)) (pt_lt b (k + 1) hk) = _ from e, ep]
      refine ⟨?_, ?_, fun h => ?_⟩
      · rw [stB_m]
        exact tileM_row _ ⟨k + 1, hk⟩ (hk_pt b (k + 1) hk) _ _ _ r (zrow V c b r) (vrow V c b) _ (hz_pt V c b (k + 1) hk r) im
      · rw [stB_l]
        exact tileL_row _ ⟨k + 1, hk⟩ (hk_pt b (k + 1) hk) _ _ _ _ r (zrow V c b r) (vrow V c b) _ (hz_pt V c b (k + 1) hk r) im il
      · rw [stB_a]
        exact tileA_row _ ⟨k + 1, hk⟩ (hk_pt b (k + 1) hk) _ _ _ _ _ r (zrow V c b r) (vrow V c b) _ (hz_pt V c b (k + 1) hk r) (hv_pt V c b (k + 1) hk) im ia h

/-- The block written back at a last tile holds the streaming result. -/
theorem out_last (b : Fin 4) (r : Fin 2048) (h : Fin 64) :
    (outsAt1 (F := Ideal) V c (4 * b.val + 3) (pt_lt b 3 (by decide))).1 (ix3 0 r h) = flashOut (zrow V c b r) (vrow V c b) h := by
  obtain ⟨im, il, ia⟩ := inv V c b 2 (by decide) r
  have h0 : ¬(⟨4 * b.val + 3, pt_lt b 3 (by decide)⟩ : Fin cfg1.N).val % 4 = 0 := by show ¬(4 * b.val + 3) % 4 = 0; omega
  have h1 : (⟨4 * b.val + 3, pt_lt b 3 (by decide)⟩ : Fin cfg1.N).val % 4 = 3 := by show (4 * b.val + 3) % 4 = 3; omega
  have ep : outsAt1 (F := Ideal) V c ((⟨4 * b.val + 3, pt_lt b 3 (by decide)⟩ : Fin cfg1.N).val - 1) (Nat.lt_of_le_of_lt (Nat.sub_le _ _) (pt_lt b 3 (by decide)))
      = outsAt1 (F := Ideal) V c (4 * b.val + 2) (pt_lt b 2 (by decide)) := outsAt1_congr V c (by show 4 * b.val + 3 - 1 = 4 * b.val + 2; omega) _ _
  have e := outsAt1_C (F := Ideal) V c ⟨4 * b.val + 3, pt_lt b 3 (by decide)⟩ h0 h1
  rw [show outsAt1 (F := Ideal) V c (4 * b.val + 3) (pt_lt b 3 (by decide)) = _ from e, ep, stC_out]
  unfold flashOut
  rw [stateAfter_succ _ _ 3 (by decide)]
  exact out_row _ ⟨3, by decide⟩ (hk_pt b 3 (by decide)) _ _ _ _ _ _ r (zrow V c b r) (vrow V c b) _ (hz_pt V c b 3 (by decide) r) (hv_pt V c b 3 (by decide)) im il ia h

/-- THE REGION'S VALUE: the result array after the attention region, entry by entry. -/
theorem attn_value (b : Fin 4) (r : Fin 2048) (h : Fin 64) :
    (dat1 (F := Ideal) V c).arrAt 3 cfg1.N (ix3 b r h) = flashOut (zrow V c b r) (vrow V c b) h :=
  arr_out V c (fun b r h => flashOut (zrow V c b r) (vrow V c b) h) (fun t ht r h => by
    have eb : t.val = 4 * (t.val / 4) + 3 := by omega
    have hb : t.val / 4 < 4 := by have : cfg1.N = 16 := N_1; have := t.isLt; omega
    have := out_last V c ⟨t.val / 4, hb⟩ r h
    rw [← this]
    exact congrFun (congrArg (fun x => x.1) (outsAt1_congr V c eb _ _)) _) b r h

end Cert.KernelIdeal.Hand

end
-- ==== Proof.KiRegion0.lean ====
/-
  The projection region (the first kernel launch), as a pipeline with proof data.

  At grid point (b, tt) the body reads a [1, 512, 1024] block of the activations and the whole [1024, 192] matrix of the
  three projection weights laid side by side, forms the [512, 192] product once, and writes three blocks: columns 0–63
  times 8 (the scaled queries), columns 64–127 transposed to [64, 512] (the keys, position along the last axis), and
  columns 128–191 (the values).  Each output block is stored whole by one store, so what a staging buffer holds after
  the body is one function of the two input blocks; the inputs are left as they were.  Nothing is kept between points.
-/
import proofs.«142842_j2482491097827_2_alg».proof.Proof.Gen.KernelIdeal.Launch
import proofs.«142842_j2482491097827_2_alg».proof.Proof.Gen.KernelIdeal.Skeleton
import proofs.«142842_j2482491097827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region

variable (V : (c : Dev nD) → (b : Ref sig .tc) → Buf (Elt F) ((c : Thread nD τ).loc b))

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix whenever the body runs (it is fetched once; its block never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S1x512x1024 := Rect.unit (s := S1x512x1024) ![0, 0, 0] S1x512x1024.size inb_S1x512x1024_S1x512x1024_0_0_0
abbrev rW : Rect S1024x192 := Rect.unit (s := S1024x192) ![0, 0] S1024x192.size inb_S1024x192_S1024x192_0_0
abbrev rQ : Rect S1x512x64 := Rect.unit (s := S1x512x64) ![0, 0, 0] S1x512x64.size inb_S1x512x64_S1x512x64_0_0_0
abbrev rK : Rect S1x64x512 := Rect.unit (s := S1x64x512) ![0, 0, 0] S1x64x512.size inb_S1x64x512_S1x64x512_0_0_0

/-- The scaled-query block after the body. -/
def out0_2 (x0 : Vec F S1x512x1024 .f32) (x1 : Vec F S1024x192 .f32) : Vec F S1x512x64 .f32 :=
  View.canon [⟨rQ, k0_pay2 (View.ld x0 rX) (View.ld x1 rW)⟩]
/-- The transposed-key block after the body. -/
def out0_3 (x0 : Vec F S1x512x1024 .f32) (x1 : Vec F S1024x192 .f32) : Vec F S1x64x512 .f32 :=
  View.canon [⟨rK, k0_pay3 (View.ld x0 rX) (View.ld x1 rW)⟩]
/-- The value block after the body. -/
def out0_4 (x0 : Vec F S1x512x1024 .f32) (x1 : Vec F S1024x192 .f32) : Vec F S1x512x64 .bf16 :=
  View.canon [⟨rQ, k0_pay4 (View.ld x0 rX) (View.ld x1 rW)⟩]

theorem cover0_2 (p0 : Vec F S1x512x64 .f32) (y : S1x512x64.Idx) :
    ∃ pc ∈ ([⟨rQ, p0⟩] : List (View.Piece (Elt F) S1x512x64 .f32)), y ∈ pc.1.set :=
  View.cover_of_tiled [⟨rQ, p0⟩] S1x512x64.size (by rfl) y
theorem cover0_3 (p0 : Vec F S1x64x512 .f32) (y : S1x64x512.Idx) :
    ∃ pc ∈ ([⟨rK, p0⟩] : List (View.Piece (Elt F) S1x64x512 .f32)), y ∈ pc.1.set :=
  View.cover_of_tiled [⟨rK, p0⟩] S1x64x512.size (by rfl) y
theorem cover0_4 (p0 : Vec F S1x512x64 .bf16) (y : S1x512x64.Idx) :
    ∃ pc ∈ ([⟨rQ, p0⟩] : List (View.Piece (Elt F) S1x512x64 .bf16)), y ∈ pc.1.set :=
  View.cover_of_tiled [⟨rQ, p0⟩] S1x512x64.size (by rfl) y

set_option maxHeartbeats 4000000 in
/-- The body on whole staging memrefs: from the inputs at `x0`, `x1` and the outputs at anything, it ends with the inputs
    as they were and each output at its function of the inputs. -/
theorem sound_kernel0 (c : Dev nD) (E : Set ℕ) (i : grid0.Coords)
    (arg2 : Memref sig .tc .vmem S1x512x1024 .f32) (harg2 : arg2.IsWhole) (arg3 : Memref sig .tc .vmem S1024x192 .f32) (harg3 : arg3.IsWhole)
    (arg4 : Memref sig .tc .vmem S1x512x64 .f32) (harg4 : arg4.IsWhole) (arg5 : Memref sig .tc .vmem S1x64x512 .f32) (harg5 : arg5.IsWhole)
    (arg6 : Memref sig .tc .vmem S1x512x64 .bf16) (harg6 : arg6.IsWhole)
    (x0 : Vec F S1x512x1024 .f32) (x1 : Vec F S1024x192 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data -/

/-- The arrays as the region finds them; after the body each input's buffer at its block, each output's at its function
    of the two input blocks; nothing kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KiProjValueA.lean ====
/-
  The projection kernel's three stored blocks read at an index, at the ideal values.

  The body forms the [512, 192] product of its [1, 512, 1024] block of activations (seen as a matrix) and the
  [1024, 192] weights once. Entry (p, q) of the product is the sum over the 1024 shared coordinates. The first stored
  block is columns 0–63 times 8, the second columns 64–127 transposed, the third columns 128–191 (the narrowing of
  the format is the identity on the extended reals); each is stored with a leading unit axis.
-/
import proofs.«142842_j2482491097827_2_alg».proof.Proof.Gen.KernelIdeal.Skeleton
import proofs.«142842_j2482491097827_2_alg».proof.Proof.LibPlainDot
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe
open Idealize.SL Idealize.SL.Sem
open Idealize.ShloMosaic.ValueIdx

/-- The word `0x41000000` is 8. -/
theorem projEight : Ideal.ofBits .f32 0x41000000#32 = (8 : EReal) := by
  have h : Ideal.ofBits .f32 0x41000000#32 = ((8 : ℝ) : EReal) := by
    simp [Ideal.ofBits, Ideal.ieee, -EReal.coe_mul]; norm_num
  rw [h]
  rfl

/-- Entry (p, q) of the product: the sum over the shared coordinate. -/
theorem projPay1_apply (x0 : Vec Ideal S1x512x1024 .f32) (x1 : Vec Ideal S1024x192 .f32) (p : Fin 512) (q : Fin 192) :
    k0_pay1 (F := Ideal) x0 x1 (ix2 p q) = ∑ d : Fin 1024, x0 (ix3 (0 : Fin 1) p d) * x1 (ix2 d q) := by
  refine (PlainDot.matmul_zero_apply 512 1024 192 none (shapeCast S512x1024 x0 shapeCasts_S1x512x1024_S512x1024)
    (shapeCast S1024x192 x1 shapeCasts_S1024x192_S1024x192) p q).trans ?_
  refine Finset.sum_congr rfl fun d _ => ?_
  rw [shapeCast_self]
  refine congrArg (· * x1 (ix2 d q)) ?_
  refine (shapeCast_dropUnit_apply ![512, 1024] x0 shapeCasts_S1x512x1024_S512x1024 (ix2 p d)).trans ?_
  refine congrArg x0 (funext fun a => ?_)
  match a with
  | ⟨0, _⟩ => rfl
  | ⟨1, _⟩ => rfl
  | ⟨2, _⟩ => rfl

/-- A [512, 64] matrix times a splat constant, stored with a leading unit axis, read at an index. -/
theorem projScaled_apply (v : FVec Ideal S512x64 .f32) (k : Ideal .f32) (u : Fin 1) (p : Fin 512) (h : Fin 64) :
    shapeCast S1x512x64 (mulf v (broadcast S512x64 k)) shapeCasts_S512x64_S1x512x64 (ix3 u p h)
      = v (fun a => ix3 u p h a.succ) * k :=
  shapeCast_addUnit_apply ![512, 64] (mulf v (broadcast S512x64 k)) shapeCasts_S512x64_S1x512x64 (ix3 u p h)

/-- The first stored block: columns 0–63 of the product, times 8. -/
theorem projPay2_apply (x0 : Vec Ideal S1x512x1024 .f32) (x1 : Vec Ideal S1024x192 .f32) (u : Fin 1) (p : Fin 512) (h : Fin 64) :
    k0_pay2 (F := Ideal) x0 x1 (ix3 u p h)
      = (∑ d : Fin 1024, x0 (ix3 (0 : Fin 1) p d) * x1 (ix2 d (⟨h.val, by omega⟩ : Fin 192))) * 8 := by
  have e1 : extractStridedSlice S512x64 ![0, 0] (k0_pay1 x0 x1) slices_S512x192_o0_0_S512x64 (fun a => ix3 u p h a.succ)
      = ∑ d : Fin 1024, x0 (ix3 (0 : Fin 1) p d) * x1 (ix2 d (⟨h.val, by omega⟩ : Fin 192)) := by
    have A := extractStridedSlice_apply ![0, 0] (k0_pay1 x0 x1) slices_S512x192_o0_0_S512x64 (fun a => ix3 u p h a.succ)
      (ix2 p (⟨h.val, by omega⟩ : Fin 192)) (fun a => by
        match a with
        | ⟨0, _⟩ => show p.val = 0 + p.val; omega
        | ⟨1, _⟩ => show h.val = 0 + h.val; omega)
    exact A.trans (projPay1_apply x0 x1 p _)
  have E : k0_pay2 (F := Ideal) x0 x1
      = shapeCast S1x512x64 (mulf (extractStridedSlice S512x64 ![0, 0] (k0_pay1 x0 x1) slices_S512x192_o0_0_S512x64)
          (broadcast S512x64 (FloatOps.ofBits (F := Ideal) .f32 0x41000000#32))) shapeCasts_S512x64_S1x512x64 := rfl
  rw [E, projScaled_apply, e1, Ideal.ofBits_def, projEight]

/-- The second stored block: columns 64–127 of the product, transposed. -/
theorem projPay3_apply (x0 : Vec Ideal S1x512x1024 .f32) (x1 : Vec Ideal S1024x192 .f32) (u : Fin 1) (h : Fin 64) (s : Fin 512) :
    k0_pay3 (F := Ideal) x0 x1 (ix3 u h s)
      = ∑ d : Fin 1024, x0 (ix3 (0 : Fin 1) s d) * x1 (ix2 d (⟨64 + h.val, by omega⟩ : Fin 192)) := by
  show shapeCast S1x64x512 (transpose S64x512 [1, 0] (extractStridedSlice S512x64 ![0, 64] (k0_pay1 x0 x1) slices_S512x192_o0_64_S512x64)
    transposes_S512x64_p1_0_S64x512) shapeCasts_S64x512_S1x64x512 (ix3 u h s) = _
  refine (shapeCast_addUnit_apply ![64, 512] _ shapeCasts_S64x512_S1x64x512 (ix3 u h s)).trans ?_
  refine (transpose_apply [1, 0] _ transposes_S512x64_p1_0_S64x512 _ (ix2 s h) (fun b => ?_)).trans ?_
  · match b with
    | ⟨0, _⟩ => rfl
    | ⟨1, _⟩ => rfl
  refine (extractStridedSlice_apply ![0, 64] (k0_pay1 x0 x1) slices_S512x192_o0_64_S512x64 (ix2 s h)
    (ix2 s (⟨64 + h.val, by omega⟩ : Fin 192)) (fun a => ?_)).trans (projPay1_apply x0 x1 s _)
  match a with
  | ⟨0, _⟩ => show s.val = 0 + s.val; omega
  | ⟨1, _⟩ => show 64 + h.val = 64 + h.val; rfl

/-- The third stored block: columns 128–191 of the product (the narrowing of the format is the identity). -/
theorem projPay4_apply (x0 : Vec Ideal S1x512x1024 .f32) (x1 : Vec Ideal S1024x192 .f32) (u : Fin 1) (p : Fin 512) (h : Fin 64) :
    k0_pay4 (F := Ideal) x0 x1 (ix3 u p h)
      = ∑ d : Fin 1024, x0 (ix3 (0 : Fin 1) p d) * x1 (ix2 d (⟨128 + h.val, by omega⟩ : Fin 192)) := by
  show shapeCast S1x512x64 (truncf .bf16 (extractStridedSlice S512x64 ![0, 128] (k0_pay1 x0 x1) slices_S512x192_o0_128_S512x64) bitsLt_bf16_f32)
    shapeCasts_S512x64_S1x512x64 (ix3 u p h) = _
  refine (shapeCast_addUnit_apply ![512, 64] _ shapeCasts_S512x64_S1x512x64 (ix3 u p h)).trans ?_
  show extractStridedSlice S512x64 ![0, 128] (k0_pay1 x0 x1) slices_S512x192_o0_128_S512x64 (fun a => ix3 u p h a.succ) = _
  refine (extractStridedSlice_apply ![0, 128] (k0_pay1 x0 x1) slices_S512x192_o0_128_S512x64 _
    (ix2 p (⟨128 + h.val, by omega⟩ : Fin 192)) (fun a => ?_)).trans (projPay1_apply x0 x1 p _)
  match a with
  | ⟨0, _⟩ => show p.val = 0 + p.val; omega
  | ⟨1, _⟩ => show 128 + h.val = 128 + h.val; rfl

end Cert.KernelIdeal.Hand

end
-- ==== Proof.KiProjValue.lean ====
/-
  The projection kernel's three output blocks after the body, read at an index, at the ideal values.

  Each output buffer is stored whole by one store over the two loaded input blocks, so what it holds after the body is
  the stored payload of the two blocks themselves: for the scaled queries the block's rows against columns 0–63 of the
  weights times 8, for the transposed keys against columns 64–127 with the two axes exchanged, for the values against
  columns 128–191.
-/
import proofs.«142842_j2482491097827_2_alg».proof.Proof.KiRegion0
import proofs.«142842_j2482491097827_2_alg».proof.Proof.KiProjValueA
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

private theorem projHz3 : (![0, 0, 0] : Fin 3 → Nat) = fun _ => 0 := funext fun a => by fin_cases a <;> rfl
private theorem projHz2 : (![0, 0] : Fin 2 → Nat) = fun _ => 0 := funext fun a => by fin_cases a <;> rfl

/-- The scaled-query block after the body is the stored payload of the two input blocks. -/
theorem out0_2_eq (x0 : Vec Ideal S1x512x1024 .f32) (x1 : Vec Ideal S1024x192 .f32) : out0_2 (F := Ideal) x0 x1 = k0_pay2 x0 x1 := by
  unfold out0_2
  rw [View.canon_unit_zero projHz3]
  simp only [View.ld_unit_zero (S := S1x512x1024) projHz3, View.ld_unit_zero (S := S1024x192) projHz2]

/-- The transposed-key block after the body is the stored payload of the two input blocks. -/
theorem out0_3_eq (x0 : Vec Ideal S1x512x1024 .f32) (x1 : Vec Ideal S1024x192 .f32) : out0_3 (F := Ideal) x0 x1 = k0_pay3 x0 x1 := by
  unfold out0_3
  rw [View.canon_unit_zero projHz3]
  simp only [View.ld_unit_zero (S := S1x512x1024) projHz3, View.ld_unit_zero (S := S1024x192) projHz2]

/-- The value block after the body is the stored payload of the two input blocks. -/
theorem out0_4_eq (x0 : Vec Ideal S1x512x1024 .f32) (x1 : Vec Ideal S1024x192 .f32) : out0_4 (F := Ideal) x0 x1 = k0_pay4 x0 x1 := by
  unfold out0_4
  rw [View.canon_unit_zero projHz3]
  simp only [View.ld_unit_zero (S := S1x512x1024) projHz3, View.ld_unit_zero (S := S1024x192) projHz2]

/-- Entry (p, h) of the scaled-query block: row p of the activations' block against column h of the weights, times 8. -/
theorem out0_2_apply (x0 : Vec Ideal S1x512x1024 .f32) (x1 : Vec Ideal S1024x192 .f32) (p : Fin 512) (h : Fin 64) :
    out0_2 (F := Ideal) x0 x1 (ix3 0 p h)
      = (∑ d : Fin 1024, x0 (ix3 0 p d) * x1 (ix2 d (⟨h.val, by omega⟩ : Fin 192))) * 8 := by
  rw [out0_2_eq]
  exact projPay2_apply x0 x1 0 p h

/-- Entry (h, j) of the transposed-key block: row j of the activations' block against column 64 + h of the weights. -/
theorem out0_3_apply (x0 : Vec Ideal S1x512x1024 .f32) (x1 : Vec Ideal S1024x192 .f32) (h : Fin 64) (j : Fin 512) :
    out0_3 (F := Ideal) x0 x1 (ix3 0 h j)
      = ∑ d : Fin 1024, x0 (ix3 0 j d) * x1 (ix2 d (⟨64 + h.val, by omega⟩ : Fin 192)) := by
  rw [out0_3_eq]
  exact projPay3_apply x0 x1 0 h j

/-- Entry (p, h) of the value block: row p of the activations' block against column 128 + h of the weights. -/
theorem out0_4_apply (x0 : Vec Ideal S1x512x1024 .f32) (x1 : Vec Ideal S1024x192 .f32) (p : Fin 512) (h : Fin 64) :
    out0_4 (F := Ideal) x0 x1 (ix3 0 p h)
      = ∑ d : Fin 1024, x0 (ix3 0 p d) * x1 (ix2 d (⟨128 + h.val, by omega⟩ : Fin 192)) := by
  rw [out0_4_eq]
  exact projPay4_apply x0 x1 0 p h

end Cert.KernelIdeal.Hand

end
-- ==== Proof.LibNary3.lean ====
/-
  A host operation over a literal family of three operands (a concatenation of three arrays): its result with each
  operand's contents at its own reference, so that the contents of the three operands can be read one by one.
-/
import Idealize.ShloMosaic.Lib.StableHlo.Run

noncomputable section

namespace Idealize.ShloMosaic.StableHlo

open Idealize.SL.Sem

variable {τ : Topo} {sig : RefSig} {Val : EltTy → Type} {x a b y : Ref sig .tc}

/-- The result of an operation over the three references `![x, a, b]` is its function of the three contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, for a rewriting pass that matches the result reference up to unfolding. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KiProjValueW.lean ====
/-
  The concatenated projection weights read at an index: the one host operation before the first launch lays the three
  [1024, 64] weight matrices side by side along the columns (queries' first, then keys', then values'), so column
  h of the [1024, 192] matrix is column h of the queries' weights, column 64 + h of the keys', column 128 + h of the values'.
-/
import proofs.«142842_j2482491097827_2_alg».proof.Proof.Gen.KernelIdeal.Launch
import proofs.«142842_j2482491097827_2_alg».proof.Proof.LibNary3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

/-- Three [1024, 64] matrices laid side by side along the columns, read at a column of the first. -/
theorem cat3_apply0 (u0 u1 u2 : S1024x64.Idx → EReal) (d : Fin 1024) (h : Fin 64) (q : Fin 192) (hq : q.val = h.val) :
    concatenate S1024x192 1 [⟨S1024x64, u0⟩, ⟨S1024x64, u1⟩, ⟨S1024x64, u2⟩] concatenates_S1024x64_S1024x64_S1024x64_S1024x192_d1 (ix2 d q)
      = u0 (ix2 d h) := by
  refine concatenate_apply_piece (1 : Fin 2) [⟨S1024x64, u0⟩, ⟨S1024x64, u1⟩, ⟨S1024x64, u2⟩] _ (ix2 d q) 0 (by show 0 < 3; omega) S1024x64 u0 rfl rfl 0 rfl (ix2 d h) (fun b => ?_) ?_
  · match b with
    | ⟨0, _⟩ => exact fun _ => rfl
    | ⟨1, _⟩ => exact fun hb => absurd rfl hb
  · show 0 + h.val = q.val
    omega

/-- … at a column of the second. -/
theorem cat3_apply1 (u0 u1 u2 : S1024x64.Idx → EReal) (d : Fin 1024) (h : Fin 64) (q : Fin 192) (hq : q.val = 64 + h.val) :
    concatenate S1024x192 1 [⟨S1024x64, u0⟩, ⟨S1024x64, u1⟩, ⟨S1024x64, u2⟩] concatenates_S1024x64_S1024x64_S1024x64_S1024x192_d1 (ix2 d q)
      = u1 (ix2 d h) := by
  refine concatenate_apply_piece (1 : Fin 2) [⟨S1024x64, u0⟩, ⟨S1024x64, u1⟩, ⟨S1024x64, u2⟩] _ (ix2 d q) 1 (by show 1 < 3; omega) S1024x64 u1 rfl rfl 64 rfl (ix2 d h) (fun b => ?_) ?_
  · match b with
    | ⟨0, _⟩ => exact fun _ => rfl
    | ⟨1, _⟩ => exact fun hb => absurd rfl hb
  · show 64 + h.val = q.val
    omega

/-- … at a column of the third. -/
theorem cat3_apply2 (u0 u1 u2 : S1024x64.Idx → EReal) (d : Fin 1024) (h : Fin 64) (q : Fin 192) (hq : q.val = 128 + h.val) :
    concatenate S1024x192 1 [⟨S1024x64, u0⟩, ⟨S1024x64, u1⟩, ⟨S1024x64, u2⟩] concatenates_S1024x64_S1024x64_S1024x64_S1024x192_d1 (ix2 d q)
      = u2 (ix2 d h) := by
  refine concatenate_apply_piece (1 : Fin 2) [⟨S1024x64, u0⟩, ⟨S1024x64, u1⟩, ⟨S1024x64, u2⟩] _ (ix2 d q) 2 (by show 2 < 3; omega) S1024x64 u2 rfl rfl 128 rfl (ix2 d h) (fun b => ?_) ?_
  · match b with
    | ⟨0, _⟩ => exact fun _ => rfl
    | ⟨1, _⟩ => exact fun hb => absurd rfl hb
  · show 128 + h.val = q.val
    omega

/-- Columns 0–63 of the concatenated weights are the queries' weights. -/
theorem wcat_q (m : (ℓ : Loc nD τ sig) → Buf (Elt Ideal) ℓ) (c : Dev nD) (d : Fin 1024) (h : Fin 64) :
    StableHlo.after (hostOps0 (F := Ideal)) (fun b => m (c, b)) (Proc.devRef .tc main_v0) (ix2 d (⟨h.val, by omega⟩ : Fin 192))
      = m ((c : Thread nD τ).loc main_arg2) (ix2 d h) := by
  simp only [hostOps0, StableHlo.after_cons, StableHlo.after_nil]
  rw [StableHlo.nary3_result]
  exact cat3_apply0 _ _ _ d h _ rfl

/-- Columns 64–127 are the keys' weights. -/
theorem wcat_k (m : (ℓ : Loc nD τ sig) → Buf (Elt Ideal) ℓ) (c : Dev nD) (d : Fin 1024) (h : Fin 64) :
    StableHlo.after (hostOps0 (F := Ideal)) (fun b => m (c, b)) (Proc.devRef .tc main_v0) (ix2 d (⟨64 + h.val, by omega⟩ : Fin 192))
      = m ((c : Thread nD τ).loc main_arg1) (ix2 d h) := by
  simp only [hostOps0, StableHlo.after_cons, StableHlo.after_nil]
  rw [StableHlo.nary3_result]
  exact cat3_apply1 _ _ _ d h _ rfl

/-- Columns 128–191 are the values' weights. -/
theorem wcat_v (m : (ℓ : Loc nD τ sig) → Buf (Elt Ideal) ℓ) (c : Dev nD) (d : Fin 1024) (h : Fin 64) :
    StableHlo.after (hostOps0 (F := Ideal)) (fun b => m (c, b)) (Proc.devRef .tc main_v0) (ix2 d (⟨128 + h.val, by omega⟩ : Fin 192))
      = m ((c : Thread nD τ).loc main_arg3) (ix2 d h) := by
  simp only [hostOps0, StableHlo.after_cons, StableHlo.after_nil]
  rw [StableHlo.nary3_result]
  exact cat3_apply2 _ _ _ d h _ rfl

end Cert.KernelIdeal.Hand

end
-- ==== Proof.KiProjBlocks.lean ====
/-
  The projection region's blocks and its three output arrays, by coordinates.

  The grid is (batch b, row tile k) with k innermost, so point t has b = t / 4 and k = t % 4.  The activation block at
  point t is rows 512 k … 512 k + 511 of batch entry b; the weight block is the whole weight matrix at every point.
  The query and value blocks are rows 512 k … of batch entry b of their arrays, the transposed-key block is columns
  512 k … of batch entry b.  Every output block is written back at every point and the sixteen blocks tile each
  array, so an entry of an array after the region is the entry of the block of the one point that covers it.
-/
import proofs.«142842_j2482491097827_2_alg».proof.Proof.KiRegion0
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The windows' block indices at point t, decided over the sixteen points -/

/-- Activations: block (b, k, 0). -/
theorem idx0_0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
/-- Weights: block (0, 0). -/
theorem idx0_1 : ∀ t : Fin cfg0.N, win0_1.index t (0 : Fin 2) = 0 ∧ win0_1.index t (1 : Fin 2) = 0 :=
  (by decide +kernel : ∀ t : Fin grid0.N, _)
/-- Queries: block (b, k, 0). -/
theorem idx0_2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)
/-- Transposed keys: block (b, 0, k). -/
theorem idx0_3 : ∀ t : Fin cfg0.N, win0_3.index t (0 : Fin 3) = t.val / 4 ∧ win0_3.index t (1 : Fin 3) = 0 ∧ win0_3.index t (2 : Fin 3) = t.val % 4 :=
  (by decide +kernel : ∀ t : Fin grid0.N, _)
/-- Values: block (b, k, 0). -/
theorem idx0_4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)

/-- There are sixteen points, so t / 4 is a batch index. -/
theorem div4_lt0 (t : Fin cfg0.N) : t.val / 4 < 4 := by
  have h1 : cfg0.N = 16 := N_0
  have h2 := t.isLt
  omega

/-- Position p of tile t % 4 is position 512 (t % 4) + p of the sequence. -/
theorem tile_lt0 (t : Fin cfg0.N) (p : Fin 512) : 512 * (t.val % 4) + p.val < 2048 := by
  have h2 := p.isLt
  omega

section Blocks

variable (V : (c : Dev nD) → (b : Ref sig .tc) → Buf (Elt Ideal) ((c : Thread nD τ).loc b))

/-! ## The two input blocks as entries of their arrays -/

/-- The activation block at point t is rows 512 (t % 4) … of batch entry t / 4. -/
theorem blk0_x (c : Dev nD) (t : Fin cfg0.N) (p : Fin 512) (d : Fin 1024) :
    iblk0 (F := Ideal) V c 0 t (ix3 0 p d)
      = V c main_arg0 (ix3 (⟨t.val / 4, div4_lt0 t⟩ : Fin 4) (⟨512 * (t.val % 4) + p.val, tile_lt0 t p⟩ : Fin 2048) d) := by
  obtain ⟨e0, e1, e2⟩ := idx0_0 t
  unfold iblk0
  rw [View.read_apply]
  show V c main_arg0 _ = V c main_arg0 _
  congr 1
  funext a
  apply Fin.ext
  match a with
  | ⟨0, _⟩ => show win0_0.index t (0 : Fin 3) * 1 + 1 * 0 = t.val / 4; omega
  | ⟨1, _⟩ => show win0_0.index t (1 : Fin 3) * 512 + 1 * p.val = 512 * (t.val % 4) + p.val; omega
  | ⟨2, _⟩ => show win0_0.index t (2 : Fin 3) * 1024 + 1 * d.val = d.val; omega

/-- The weight block is the weight matrix. -/
theorem blk0_w (c : Dev nD) (t : Fin cfg0.N) (d : Fin 1024) (j : Fin 192) :
    iblk0 (F := Ideal) V c 1 t (ix2 d j) = V c main_v0 (ix2 d j) := by
  obtain ⟨e0, e1⟩ := idx0_1 t
  unfold iblk0
  rw [View.read_apply]
  show V c main_v0 _ = V c main_v0 _
  congr 1
  funext a
  apply Fin.ext
  match a with
  | ⟨0, _⟩ => show win0_1.index t (0 : Fin 2) * 1024 + 1 * d.val = d.val; omega
  | ⟨1, _⟩ => show win0_1.index t (1 : Fin 2) * 192 + 1 * j.val = j.val; omega

/-! ## The three output arrays after the region

If what every point leaves in an output block is the block at (b, k) of one function G of the coordinates, the
array after the region is G: the point that covers row (or column) r of batch entry b is 4 b + r / 512. -/

/-- An index of window 2's array is in point t's block iff each coordinate is in the block's range on its axis. -/
theorem mem_blk0_2 (t : Fin cfg0.N) (i : S4x2048x64.Idx) :
    i ∈ ((cfg0.win 2).blk t).view.set ↔ ∀ a : Fin 3, win0_2.index t a * S1x512x64.size a ≤ (i a).val ∧ (i a).val < win0_2.index t a * S1x512x64.size a + S1x512x64.size a := by
  show i ∈ ((View.whole main_v1_0).slice (win0_2.rect t)).set ↔ _
  rw [View.set_slice_whole, Rect.mem_set_unit]
  exact Iff.rfl

theorem arr0_2 (c : Dev nD) (G : Fin 4 → Fin 2048 → Fin 64 → EReal)
    (hG : ∀ (t : Fin cfg0.N) (p : Fin 512) (h : Fin 64),
      out0_2 (F := Ideal) (iblk0 V c 0 t) (iblk0 V c 1 t) (ix3 0 p h) = G ⟨t.val / 4, div4_lt0 t⟩ ⟨512 * (t.val % 4) + p.val, tile_lt0 t p⟩ h)
    (b : Fin 4) (r : Fin 2048) (h : Fin 64) :
    (dat0 (F := Ideal) V c).arrAt 2 cfg0.N (ix3 b r h) = G b r h := by
  have hN : cfg0.N = 16 := N_0
  have key : (dat0 (F := Ideal) V c).arrAt 2 cfg0.N = (fun i : S4x2048x64.Idx => G (i 0) (i 1) (i 2)) := by
    refine (dat0 (F := Ideal) V c).arrAt_eq_of_cover 2 (fun i : S4x2048x64.Idx => G (i 0) (i 1) (i 2)) (fun t hf => ?_) (fun i => ?_)
    · -- what point t writes back
      obtain ⟨e0, e1, e2⟩ := idx0_2 t
      show (cfg0.win 2).cut (grid0.coords t) ((dat0 (F := Ideal) V c).after 2 t) = _
      rw [after0_2]
      refine funext (fun (y : S1x512x64.Idx) => ?_)
      rw [View.read_apply]
      show out0_2 (F := Ideal) (iblk0 V c 0 t) (iblk0 V c 1 t) y = G ((((cfg0.win 2).blk t).view.emb y) 0) ((((cfg0.win 2).blk t).view.emb y) 1) ((((cfg0.win 2).blk t).view.emb y) 2)
      have y0' : (y 0).val < 1 := (y 0).isLt
      have y0 : (y 0).val = 0 := by omega
      have hy : y = ix3 (0 : Fin 1) (y 1) (y 2) := by
        funext a
        match a with
        | ⟨0, _⟩ => exact Fin.ext y0
        | ⟨1, _⟩ => rfl
        | ⟨2, _⟩ => rfl
      have y1 : (y 1).val < 512 := (y 1).isLt
      have y2 : (y 2).val < 64 := (y 2).isLt
      have q0 : (((cfg0.win 2).blk t).view.emb y) 0 = (⟨t.val / 4, div4_lt0 t⟩ : Fin 4) :=
        Fin.ext (show win0_2.index t (0 : Fin 3) * 1 + 1 * (y 0).val = t.val / 4 by omega)
      have q1 : (((cfg0.win 2).blk t).view.emb y) 1 = (⟨512 * (t.val % 4) + (y 1).val, tile_lt0 t (y 1)⟩ : Fin 2048) :=
        Fin.ext (show win0_2.index t (1 : Fin 3) * 512 + 1 * (y 1).val = 512 * (t.val % 4) + (y 1).val by omega)
      have q2 : (((cfg0.win 2).blk t).view.emb y) 2 = (y 2 : Fin 64) :=
        Fin.ext (show win0_2.index t (2 : Fin 3) * 64 + 1 * (y 2).val = (y 2).val by omega)
      rw [q0, q1, q2]
      exact (congrArg (out0_2 (F := Ideal) (iblk0 V c 0 t) (iblk0 V c 1 t)) hy).trans (hG t (y 1) (y 2))
    · -- the cover
      have i0 : (i 0).val < 4 := (i 0).isLt
      have i1 : (i 1).val < 2048 := (i 1).isLt
      have i2 : (i 2).val < 64 := (i 2).isLt
      let t : Fin cfg0.N := ⟨4 * (i 0).val + (i 1).val / 512, by omega⟩
      have ht : t.val = 4 * (i 0).val + (i 1).val / 512 := rfl
      obtain ⟨e0, e1, e2⟩ := idx0_2 t
      refine ⟨t, flush0_2 t, ?_⟩
      rw [mem_blk0_2]
      intro a
      match a with
      | ⟨0, _⟩ => show win0_2.index t (0 : Fin 3) * 1 ≤ (i 0).val ∧ (i 0).val < win0_2.index t (0 : Fin 3) * 1 + 1; omega
      | ⟨1, _⟩ => show win0_2.index t (1 : Fin 3) * 512 ≤ (i 1).val ∧ (i 1).val < win0_2.index t (1 : Fin 3) * 512 + 512; omega
      | ⟨2, _⟩ => show win0_2.index t (2 : Fin 3) * 64 ≤ (i 2).val ∧ (i 2).val < win0_2.index t (2 : Fin 3) * 64 + 64; omega
  rw [key]

/-- An index of window 3's array is in point t's block iff each coordinate is in the block's range on its axis. -/
theorem mem_blk0_3 (t : Fin cfg0.N) (i : S4x64x2048.Idx) :
    i ∈ ((cfg0.win 3).blk t).view.set ↔ ∀ a : Fin 3, win0_3.index t a * S1x64x512.size a ≤ (i a).val ∧ (i a).val < win0_3.index t a * S1x64x512.size a + S1x64x512.size a := by
  show i ∈ ((View.whole main_v1_1).slice (win0_3.rect t)).set ↔ _
  rw [View.set_slice_whole, Rect.mem_set_unit]
  exact Iff.rfl

theorem arr0_3 (c : Dev nD) (G : Fin 4 → Fin 64 → Fin 2048 → EReal)
    (hG : ∀ (t : Fin cfg0.N) (h : Fin 64) (j : Fin 512),
      out0_3 (F := Ideal) (iblk0 V c 0 t) (iblk0 V c 1 t) (ix3 0 h j) = G ⟨t.val / 4, div4_lt0 t⟩ h ⟨512 * (t.val % 4) + j.val, tile_lt0 t j⟩)
    (b : Fin 4) (h : Fin 64) (s : Fin 2048) :
    (dat0 (F := Ideal) V c).arrAt 3 cfg0.N (ix3 b h s) = G b h s := by
  have hN : cfg0.N = 16 := N_0
  have key : (dat0 (F := Ideal) V c).arrAt 3 cfg0.N = (fun i : S4x64x2048.Idx => G (i 0) (i 1) (i 2)) := by
    refine (dat0 (F := Ideal) V c).arrAt_eq_of_cover 3 (fun i : S4x64x2048.Idx => G (i 0) (i 1) (i 2)) (fun t hf => ?_) (fun i => ?_)
    · -- what point t writes back
      obtain ⟨e0, e1, e2⟩ := idx0_3 t
      show (cfg0.win 3).cut (grid0.coords t) ((dat0 (F := Ideal) V c).after 3 t) = _
      rw [after0_3]
      refine funext (fun (y : S1x64x512.Idx) => ?_)
      rw [View.read_apply]
      show out0_3 (F := Ideal) (iblk0 V c 0 t) (iblk0 V c 1 t) y = G ((((cfg0.win 3).blk t).view.emb y) 0) ((((cfg0.win 3).blk t).view.emb y) 1) ((((cfg0.win 3).blk t).view.emb y) 2)
      have y0' : (y 0).val < 1 := (y 0).isLt
      have y0 : (y 0).val = 0 := by omega
      have hy : y = ix3 (0 : Fin 1) (y 1) (y 2) := by
        funext a
        match a with
        | ⟨0, _⟩ => exact Fin.ext y0
        | ⟨1, _⟩ => rfl
        | ⟨2, _⟩ => rfl
      have y1 : (y 1).val < 64 := (y 1).isLt
      have y2 : (y 2).val < 512 := (y 2).isLt
      have q0 : (((cfg0.win 3).blk t).view.emb y) 0 = (⟨t.val / 4, div4_lt0 t⟩ : Fin 4) :=
        Fin.ext (show win0_3.index t (0 : Fin 3) * 1 + 1 * (y 0).val = t.val / 4 by omega)
      have q1 : (((cfg0.win 3).blk t).view.emb y) 1 = (y 1 : Fin 64) :=
        Fin.ext (show win0_3.index t (1 : Fin 3) * 64 + 1 * (y 1).val = (y 1).val by omega)
      have q2 : (((cfg0.win 3).blk t).view.emb y) 2 = (⟨512 * (t.val % 4) + (y 2).val, tile_lt0 t (y 2)⟩ : Fin 2048) :=
        Fin.ext (show win0_3.index t (2 : Fin 3) * 512 + 1 * (y 2).val = 512 * (t.val % 4) + (y 2).val by omega)
      rw [q0, q1, q2]
      exact (congrArg (out0_3 (F := Ideal) (iblk0 V c 0 t) (iblk0 V c 1 t)) hy).trans (hG t (y 1) (y 2))
    · -- the cover
      have i0 : (i 0).val < 4 := (i 0).isLt
      have i1 : (i 1).val < 64 := (i 1).isLt
      have i2 : (i 2).val < 2048 := (i 2).isLt
      let t : Fin cfg0.N := ⟨4 * (i 0).val + (i 2).val / 512, by omega⟩
      have ht : t.val = 4 * (i 0).val + (i 2).val / 512 := rfl
      obtain ⟨e0, e1, e2⟩ := idx0_3 t
      refine ⟨t, flush0_3 t, ?_⟩
      rw [mem_blk0_3]
      intro a
      match a with
      | ⟨0, _⟩ => show win0_3.index t (0 : Fin 3) * 1 ≤ (i 0).val ∧ (i 0).val < win0_3.index t (0 : Fin 3) * 1 + 1; omega
      | ⟨1, _⟩ => show win0_3.index t (1 : Fin 3) * 64 ≤ (i 1).val ∧ (i 1).val < win0_3.index t (1 : Fin 3) * 64 + 64; omega
      | ⟨2, _⟩ => show win0_3.index t (2 : Fin 3) * 512 ≤ (i 2).val ∧ (i 2).val < win0_3.index t (2 : Fin 3) * 512 + 512; omega
  rw [key]

/-- An index of window 4's array is in point t's block iff each coordinate is in the block's range on its axis. -/
theorem mem_blk0_4 (t : Fin cfg0.N) (i : S4x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v1_2).slice (win0_4.rect t)).set ↔ _
  rw [View.set_slice_whole, Rect.mem_set_unit]
  exact Iff.rfl

theorem arr0_4 (c : Dev nD) (G : Fin 4 → Fin 2048 → Fin 64 → EReal)
    (hG : ∀ (t : Fin cfg0.N) (p : Fin 512) (h : Fin 64),
      out0_4 (F := Ideal) (iblk0 V c 0 t) (iblk0 V c 1 t) (ix3 0 p h) = G ⟨t.val / 4, div4_lt0 t⟩ ⟨512 * (t.val % 4) + p.val, tile_lt0 t p⟩ h)
    (b : Fin 4) (r : Fin 2048) (h : Fin 64) :
    (dat0 (F := Ideal) V c).arrAt 4 cfg0.N (ix3 b r h) = G b r h := by
  have hN : cfg0.N = 16 := N_0
  have key : (dat0 (F := Ideal) V c).arrAt 4 cfg0.N = (fun i : S4x2048x64.Idx => G (i 0) (i 1) (i 2)) := by
    refine (dat0 (F := Ideal) V c).arrAt_eq_of_cover 4 (fun i : S4x2048x64.Idx => G (i 0) (i 1) (i 2)) (fun t hf => ?_) (fun i => ?_)
    · -- what point t writes back
      obtain ⟨e0, e1, e2⟩ := idx0_4 t
      show (cfg0.win 4).cut (grid0.coords t) ((dat0 (F := Ideal) V c).after 4 t) = _
      rw [after0_4]
      refine funext (fun (y : S1x512x64.Idx) => ?_)
      rw [View.read_apply]
      show out0_4 (F := Ideal) (iblk0 V c 0 t) (iblk0 V c 1 t) y = G ((((cfg0.win 4).blk t).view.emb y) 0) ((((cfg0.win 4).blk t).view.emb y) 1) ((((cfg0.win 4).blk t).view.emb y) 2)
      have y0' : (y 0).val < 1 := (y 0).isLt
      have y0 : (y 0).val = 0 := by omega
      have hy : y = ix3 (0 : Fin 1) (y 1) (y 2) := by
        funext a
        match a with
        | ⟨0, _⟩ => exact Fin.ext y0
        | ⟨1, _⟩ => rfl
        | ⟨2, _⟩ => rfl
      have y1 : (y 1).val < 512 := (y 1).isLt
      have y2 : (y 2).val < 64 := (y 2).isLt
      have q0 : (((cfg0.win 4).blk t).view.emb y) 0 = (⟨t.val / 4, div4_lt0 t⟩ : Fin 4) :=
        Fin.ext (show win0_4.index t (0 : Fin 3) * 1 + 1 * (y 0).val = t.val / 4 by omega)
      have q1 : (((cfg0.win 4).blk t).view.emb y) 1 = (⟨512 * (t.val % 4) + (y 1).val, tile_lt0 t (y 1)⟩ : Fin 2048) :=
        Fin.ext (show win0_4.index t (1 : Fin 3) * 512 + 1 * (y 1).val = 512 * (t.val % 4) + (y 1).val by omega)
      have q2 : (((cfg0.win 4).blk t).view.emb y) 2 = (y 2 : Fin 64) :=
        Fin.ext (show win0_4.index t (2 : Fin 3) * 64 + 1 * (y 2).val = (y 2).val by omega)
      rw [q0, q1, q2]
      exact (congrArg (out0_4 (F := Ideal) (iblk0 V c 0 t) (iblk0 V c 1 t)) hy).trans (hG t (y 1) (y 2))
    · -- the cover
      have i0 : (i 0).val < 4 := (i 0).isLt
      have i1 : (i 1).val < 2048 := (i 1).isLt
      have i2 : (i 2).val < 64 := (i 2).isLt
      let t : Fin cfg0.N := ⟨4 * (i 0).val + (i 1).val / 512, by omega⟩
      have ht : t.val = 4 * (i 0).val + (i 1).val / 512 := rfl
      obtain ⟨e0, e1, e2⟩ := idx0_4 t
      refine ⟨t, flush0_4 t, ?_⟩
      rw [mem_blk0_4]
      intro a
      match a with
      | ⟨0, _⟩ => show win0_4.index t (0 : Fin 3) * 1 ≤ (i 0).val ∧ (i 0).val < win0_4.index t (0 : Fin 3) * 1 + 1; omega
      | ⟨1, _⟩ => show win0_4.index t (1 : Fin 3) * 512 ≤ (i 1).val ∧ (i 1).val < win0_4.index t (1 : Fin 3) * 512 + 512; omega
      | ⟨2, _⟩ => show win0_4.index t (2 : Fin 3) * 64 ≤ (i 2).val ∧ (i 2).val < win0_4.index t (2 : Fin 3) * 64 + 64; omega
  rw [key]

end Blocks

end Cert.KernelIdeal.Hand

end
-- ==== Proof.KiRun.lean ====
/-
  The whole program as three segments — the host stretch that lays the three weight matrices side by side, the
  projection region, the attention region — and its run: every weakly fair execution ends, nothing faults, the four
  argument arrays end as launched, and the result array ends at what the attention region's write-backs leave.

  Between segments a core holds every unscoped buffer whole at contents that are folded from the launch memory: after the
  host stretch, the concatenated weights; after a region, its output arrays at the fold of its write-backs and every
  other buffer as it was.
-/
import proofs.«142842_j2482491097827_2_alg».proof.Proof.KiRegion0
import proofs.«142842_j2482491097827_2_alg».proof.Proof.KiRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at the segment boundaries -/

/-- At launch. -/
abbrev W0 : Dev nD → Valuation τ sig (Elt F) := fun c b => m (c, b)
/-- After the host stretch. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No segment writes an argument -/

/-- The host stretch writes only the concatenated-weights buffer. -/
theorem W1_keeps (c : Dev nD) (b : Ref sig .tc) (hb : b ≠ main_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_keeps m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_keeps m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_keeps m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_keeps m c main_arg3 (by decide)
    _ = m ((c : Thread nD τ).loc main_arg3) := rfl
/-- The result array ends at the fold of the attention region's write-backs. -/
theorem W3_main_v2 (c : Dev nD) : W3 m c (Proc.devRef .tc main_v2) = (dat1 (V2 m) c).arrAt 3 cfg1.N :=
  W3_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region over the thread state: entered with every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered with every unscoped buffer at `W2`, left at `W3`.  Its
    invariant starts as whatever the launch hands over and ends with the scratch buffers' contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS (V2 m) c 0 (Nat.zero_le _) from rfl, PhiS_zero (V2 m) c 0 _ rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program ends, nothing faulting, with
    the result array at the fold of the attention region's write-backs and the four argument arrays as launched. -/
theorem run_main : θ_run defs (onTc (τ := τ) (main (F := F))) ⟨m, fun _ => 0, ρ⟩ (fun r => ∀ c : Dev nD,
      r.2.mem ((c.tc : Thread nD τ).loc main_v2) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_main_v2 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

end Cert.KernelIdeal.Hand

end
-- ==== Proof.SpecIdx.lean ====
/-
  The argument arrays of the programs, read by coordinates: an array of shape [4, 2048, 1024] (or [1024, 64]) as the
  function of its three (two) coordinates that the specification (Spec.lean) is stated over.
-/
import proofs.«142842_j2482491097827_2_alg».proof.Proof.Spec
import Idealize.ShloMosaic.Lib.ValueIdx

noncomputable section

namespace Cert.Spec

open Idealize.ShloMosaic Idealize.ShloMosaic.ValueIdx

/-- The activations array by coordinates. -/
def act (a : (⟨3, ![4, 2048, 1024]⟩ : Shape).Idx → EReal) : Act := fun b t d => a (ix3 b t d)
/-- A projection matrix by coordinates. -/
def mat (a : (⟨2, ![1024, 64]⟩ : Shape).Idx → EReal) : Mat := fun d h => a (ix2 d h)

end Cert.Spec

end
-- ==== Proof.KiValue.lean ====
/-
  The idealized program's result, entry by entry: the attention region's streaming result over the three arrays the
  projection region leaves — the activations times the query weights times 8, times the key weights, times the value
  weights, the weights read out of their side-by-side layout — is the specification's `outK` of the four arguments.
-/
import proofs.«142842_j2482491097827_2_alg».proof.Proof.KiInvariant
import proofs.«142842_j2482491097827_2_alg».proof.Proof.KiProjValue
import proofs.«142842_j2482491097827_2_alg».proof.Proof.KiProjValueW
import proofs.«142842_j2482491097827_2_alg».proof.Proof.KiProjBlocks
import proofs.«142842_j2482491097827_2_alg».proof.Proof.KiRun
import proofs.«142842_j2482491097827_2_alg».proof.Proof.SpecIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec

variable (m : (ℓ : Loc nD τ sig) → Buf (Elt Ideal) ℓ) (c : Dev nD)

/-- The activations as the projection region finds them are the launch contents. -/
theorem V1_x : V1 (F := Ideal) m c main_arg0 = m ((c : Thread nD τ).loc main_arg0) := W1_keeps m c main_arg0 (by decide)

/-- The scaled queries. -/
theorem v2_q (b : Fin 4) (r : Fin 2048) (h : Fin 64) :
    V2 (F := Ideal) m c main_v1_0 (ix3 b r h)
      = proj (act (m ((c : Thread nD τ).loc main_arg0))) (mat (m ((c : Thread nD τ).loc main_arg2))) b r h * 8 := by
  show W2 (F := Ideal) m c (Proc.devRef .tc (Pipeline.arrRef spec0 2)) (ix3 b r h) = _
  rw [W2_arr]
  refine arr0_2 (V1 m) c (fun b r h => proj (act (m ((c : Thread nD τ).loc main_arg0))) (mat (m ((c : Thread nD τ).loc main_arg2))) b r h * 8)
    (fun t p h => ?_) b r h
  rw [out0_2_apply]
  unfold proj act mat
  refine congrArg (· * 8) (Finset.sum_congr rfl fun d _ => ?_)
  rw [blk0_x, blk0_w, V1_x]
  exact congrArg _ (wcat_q m c d h)
/-- The keys, position along the last axis. -/
theorem v2_kt (b : Fin 4) (h : Fin 64) (s : Fin 2048) :
    V2 (F := Ideal) m c main_v1_1 (ix3 b h s)
      = proj (act (m ((c : Thread nD τ).loc main_arg0))) (mat (m ((c : Thread nD τ).loc main_arg1))) b s h := by
  show W2 (F := Ideal) m c (Proc.devRef .tc (Pipeline.arrRef spec0 3)) (ix3 b h s) = _
  rw [W2_arr]
  refine arr0_3 (V1 m) c (fun b h s => proj (act (m ((c : Thread nD τ).loc main_arg0))) (mat (m ((c : Thread nD τ).loc main_arg1))) b s h)
    (fun t h j => ?_) b h s
  rw [out0_3_apply]
  unfold proj act mat
  refine Finset.sum_congr rfl fun d _ => ?_
  rw [blk0_x, blk0_w, V1_x]
  exact congrArg _ (wcat_k m c d h)
/-- The values. -/
theorem v2_v (b : Fin 4) (s : Fin 2048) (h : Fin 64) :
    V2 (F := Ideal) m c main_v1_2 (ix3 b s h)
      = proj (act (m ((c : Thread nD τ).loc main_arg0))) (mat (m ((c : Thread nD τ).loc main_arg3))) b s h := by
  show W2 (F := Ideal) m c (Proc.devRef .tc (Pipeline.arrRef spec0 4)) (ix3 b s h) = _
  rw [W2_arr]
  refine arr0_4 (V1 m) c (fun b s h => proj (act (m ((c : Thread nD τ).loc main_arg0))) (mat (m ((c : Thread nD τ).loc main_arg3))) b s h)
    (fun t p h => ?_) b s h
  rw [out0_4_apply]
  unfold proj act mat
  refine Finset.sum_congr rfl fun d _ => ?_
  rw [blk0_x, blk0_w, V1_x]
  exact congrArg _ (wcat_v m c d h)

/-- THE KERNEL'S VALUE. -/
theorem kernel_value (b : Fin 4) (r : Fin 2048) (h : Fin 64) :
    (dat1 (F := Ideal) (V2 m) c).arrAt 3 cfg1.N (ix3 b r h)
      = outK (act (m ((c : Thread nD τ).loc main_arg0))) (mat (m ((c : Thread nD τ).loc main_arg1)))
          (mat (m ((c : Thread nD τ).loc main_arg2))) (mat (m ((c : Thread nD τ).loc main_arg3))) b r h := by
  rw [attn_value]
  unfold outK
  have ez : zrow (V2 m) c b r = logitPre (act (m ((c : Thread nD τ).loc main_arg0))) (mat (m ((c : Thread nD τ).loc main_arg2))) (mat (m ((c : Thread nD τ).loc main_arg1))) b r := by
    funext s
    have eq1 : ∀ h : Fin 64, Qa (V2 m) c (ix3 b r h)
        = proj (act (m ((c : Thread nD τ).loc main_arg0))) (mat (m ((c : Thread nD τ).loc main_arg2))) b r h * 8 := fun h => v2_q m c b r h
    have eq2 : ∀ h : Fin 64, KTa (V2 m) c (ix3 b h s)
        = proj (act (m ((c : Thread nD τ).loc main_arg0))) (mat (m ((c : Thread nD τ).loc main_arg1))) b s h := fun h => v2_kt m c b h s
    unfold zrow logitPre
    simp only [eq1, eq2]
  have ev : vrow (V2 m) c b = proj (act (m ((c : Thread nD τ).loc main_arg0))) (mat (m ((c : Thread nD τ).loc main_arg3))) b := by
    funext s h
    exact v2_v m c b s h
  rw [ez, ev]

end Cert.KernelIdeal.Hand

end
-- ==== Proof.RefReadA.lean ====
import proofs.«142842_j2482491097827_2_alg».proof.Proof.Gen.ReferenceIdeal.Read
import proofs.«142842_j2482491097827_2_alg».proof.Proof.SpecIdx

/-
  The reference program read at an index, first half: its three constants, the comparison behind the causal mask, the
  three projections, the scaled scores and the masked logits — each stage at explicit coordinates, as the
  specification's term.
-/

noncomputable section

namespace Cert.RefSide

open Idealize.ShloMosaic Idealize.ShloMosaic.ValueIdx Cert.ReferenceIdeal Cert.ReferenceIdeal.Read
open scoped BigOperators

/-! ### The three constants -/

/-- The word `0xFF800000` is `-∞`. -/
theorem negInf : Ideal.ofBits .f32 0xFF800000#32 = (⊥ : EReal) := by
  simp [Ideal.ofBits, Ideal.ieee]

/-- The word `0x42800000` is `64`. -/
theorem sixtyFour : Ideal.ofBits .f32 0x42800000#32 = ((64 : ℝ) : EReal) := by
  simp [Ideal.ofBits, Ideal.ieee]
  rw [← EReal.coe_mul]
  exact congrArg _ (by norm_num)

/-- `√64 = 8`. -/
theorem sqrt64 : Ideal.sqrt (Ideal.ofBits .f32 0x42800000#32) = (8 : EReal) := by
  rw [sixtyFour, Ideal.sqrt_coe, if_neg (by norm_num)]
  have h8 : Real.sqrt 64 = 8 := by
    rw [show (64 : ℝ) = 8 ^ 2 by norm_num]
    exact Real.sqrt_sq (by norm_num)
  rw [h8]
  rfl

/-! ### The comparison of two small words -/

private theorem toInt_small (a : Nat) (ha : a < 2048) : (BitVec.ofNat 32 a).toInt = (a : Int) := by
  rw [BitVec.toInt_eq_toNat_cond, BitVec.toNat_ofNat]
  have h : a % 2 ^ 32 = a := Nat.mod_eq_of_lt (by omega)
  rw [h, if_pos (by omega)]

/-- Signed `≥` on two words below 2048 (the first with the zero word added) is `≥` on the numbers. -/
theorem sge_small (a b : Nat) (ha : a < 2048) (hb : b < 2048) :
    IntOp.cmpi .sge (IntOp.addi (BitVec.ofNat 32 a) 0#32) (BitVec.ofNat 32 b) = if b ≤ a then 1#1 else 0#1 := by
  have h0 : IntOp.addi (BitVec.ofNat 32 a) 0#32 = BitVec.ofNat 32 a := by
    unfold IntOp.addi; exact BitVec.add_zero _
  rw [h0]
  by_cases h : b ≤ a
  · rw [if_pos h]
    refine IntOp.cmpi_sge.mpr ?_
    rw [toInt_small a ha, toInt_small b hb]
    exact_mod_cast h
  · rw [if_neg h]
    refine eq_zero_of_ne_one fun e => h ?_
    have := IntOp.cmpi_sge.mp e
    rw [toInt_small a ha, toInt_small b hb] at this
    exact_mod_cast this

/-! ### The three projections and the logits -/

section Stages

variable (x0 : (⟨S4x2048x1024, .f32⟩ : BufTy).Contents (Elt Ideal)) (x1 x2 x3 : (⟨S1024x64, .f32⟩ : BufTy).Contents (Elt Ideal))

private theorem lidx0 (b : Fin 4) (t : Fin 2048) (h : Fin 64) (d : Fin 1024) :
    lidx_main_v0 (ix3 b t h) d = ix3 b t d := by
  funext a; match a with | ⟨0, _⟩ => rfl | ⟨1, _⟩ => rfl | ⟨2, _⟩ => rfl

private theorem ridx0 (b : Fin 4) (t : Fin 2048) (h : Fin 64) (d : Fin 1024) :
    ridx_main_v0 (ix3 b t h) d = ix2 d h := by
  funext a; match a with | ⟨0, _⟩ => rfl | ⟨1, _⟩ => rfl

/-- A projection `x · W` at `(b, t, h)`. -/
theorem v0_eq (w : (⟨S1024x64, .f32⟩ : BufTy).Contents (Elt Ideal)) (b : Fin 4) (t : Fin 2048) (h : Fin 64) :
    val_main_v0 (F := Ideal) x0 w (ix3 b t h) = Cert.Spec.proj (Cert.Spec.act x0) (Cert.Spec.mat w) b t h := by
  rw [val_main_v0_apply]
  unfold Cert.Spec.proj Cert.Spec.act Cert.Spec.mat
  refine Finset.sum_congr rfl fun d _ => ?_
  rw [lidx0, ridx0]

theorem v1_eq (w : (⟨S1024x64, .f32⟩ : BufTy).Contents (Elt Ideal)) (b : Fin 4) (t : Fin 2048) (h : Fin 64) :
    val_main_v1 (F := Ideal) x0 w (ix3 b t h) = Cert.Spec.proj (Cert.Spec.act x0) (Cert.Spec.mat w) b t h :=
  v0_eq x0 w b t h

theorem v2_eq (w : (⟨S1024x64, .f32⟩ : BufTy).Contents (Elt Ideal)) (b : Fin 4) (t : Fin 2048) (h : Fin 64) :
    val_main_v2 (F := Ideal) x0 w (ix3 b t h) = Cert.Spec.proj (Cert.Spec.act x0) (Cert.Spec.mat w) b t h :=
  v0_eq x0 w b t h

private theorem lidx3 (b : Fin 4) (t s : Fin 2048) (h : Fin 64) :
    lidx_main_v3 (ix3 b t s) h = ix3 b t h := by
  funext a; match a with | ⟨0, _⟩ => rfl | ⟨1, _⟩ => rfl | ⟨2, _⟩ => rfl

private theorem ridx3 (b : Fin 4) (t s : Fin 2048) (h : Fin 64) :
    ridx_main_v3 (ix3 b t s) h = ix3 b s h := by
  funext a; match a with | ⟨0, _⟩ => rfl | ⟨1, _⟩ => rfl | ⟨2, _⟩ => rfl

/-- The raw scores: query row `t` against key row `s`. -/
theorem v3_eq (b : Fin 4) (t s : Fin 2048) :
    val_main_v3 (F := Ideal) x0 x1 x2 (ix3 b t s)
      = ∑ h : Fin 64, Cert.Spec.proj (Cert.Spec.act x0) (Cert.Spec.mat x2) b t h * Cert.Spec.proj (Cert.Spec.act x0) (Cert.Spec.mat x1) b s h := by
  rw [val_main_v3_apply]
  refine Finset.sum_congr rfl fun h _ => ?_
  rw [lidx3, ridx3, v1_eq, v0_eq]

/-- The broadcast factor is `8`. -/
theorem v5_eq (i : S4x2048x2048.Idx) : val_main_v5 (F := Ideal) i = (8 : EReal) := by
  rw [val_main_v5_apply, val_main_v4_apply, val_main_cst_apply]
  exact sqrt64

/-- The scaled scores. -/
theorem v6_eq (b : Fin 4) (t s : Fin 2048) :
    val_main_v6 (F := Ideal) x0 x1 x2 (ix3 b t s)
      = (∑ h : Fin 64, Cert.Spec.proj (Cert.Spec.act x0) (Cert.Spec.mat x2) b t h * Cert.Spec.proj (Cert.Spec.act x0) (Cert.Spec.mat x1) b s h) * 8 := by
  rw [val_main_v6_apply, v3_eq, v5_eq]
  rfl

/-- The causal mask: key `s` is visible from query `t` when `s ≤ t`. -/
theorem mask_eq (b : Fin 4) (t s : Fin 2048) :
    val_main_call1_v1 (F := Ideal) (ix3 b t s) = if s.val ≤ t.val then 1#1 else 0#1 := by
  rw [val_main_call1_v1_apply, val_main_v9_apply, val_main_v8_apply, val_main_call0_v4_apply, val_main_call0_v2_apply,
    val_main_call0_v0_apply, val_main_call0_v1_apply, val_main_call0_c_apply, val_main_call0_v3_apply, val_main_v7_apply,
    val_main_c_apply, val_main_call0_v5_apply, val_main_call0_c_0_apply]
  show Scalar.select (IntOp.cmpi .sge (IntOp.addi (BitVec.ofNat 32 t.val) 0#32) (BitVec.ofNat 32 s.val)) 1#1 0#1 = _
  rw [sge_small t.val s.val t.isLt s.isLt]
  by_cases h : s.val ≤ t.val
  · rw [if_pos h]; exact select_one _ _
  · rw [if_neg h]; exact select_zero _ _

/-- The masked logits are the specification's. -/
theorem v10_eq (b : Fin 4) (t s : Fin 2048) :
    val_main_v10 (F := Ideal) x0 x1 x2 (ix3 b t s)
      = Cert.Spec.logitPost (Cert.Spec.act x0) (Cert.Spec.mat x2) (Cert.Spec.mat x1) b t s := by
  rw [val_main_v10_apply, mask_eq, v6_eq, val_main_call1_v2_apply, val_main_call1_v0_apply, val_main_cst_0_apply]
  unfold Cert.Spec.logitPost
  by_cases h : s.val ≤ t.val
  · rw [if_pos h, if_pos h]; exact select_one _ _
  · rw [if_neg h, if_neg h]; exact (select_zero _ _).trans negInf

end Stages

end Cert.RefSide

end
-- ==== Proof.RefRead.lean ====
import proofs.«142842_j2482491097827_2_alg».proof.Proof.Gen.ReferenceIdeal.Read
import proofs.«142842_j2482491097827_2_alg».proof.Proof.SpecIdx
import proofs.«142842_j2482491097827_2_alg».proof.Proof.RefReadA

/-
  The reference program read at an index, second half: the row maximum (the max-reduce over the key axis, read as a
  fold), the shifted exponentials, the normaliser, the attention weights and the final contraction with the values;
  then the whole result as the specification's one-pass attention.
-/

noncomputable section

namespace Cert.RefSide

open Idealize.ShloMosaic Idealize.ShloMosaic.ValueIdx Cert.ReferenceIdeal Cert.ReferenceIdeal.Read
open scoped BigOperators

/-! ### The row maximum, the normaliser and the weighted sum -/

section Rows

variable (x0 : (⟨S4x2048x1024, .f32⟩ : BufTy).Contents (Elt Ideal)) (x1 x2 x3 : (⟨S1024x64, .f32⟩ : BufTy).Contents (Elt Ideal))

/-- The masked logits of batch entry `b` and query row `t`, as a function of the key position. -/
abbrev row (b : Fin 4) (t : Fin 2048) : Fin 2048 → EReal :=
  Cert.Spec.logitPost (Cert.Spec.act x0) (Cert.Spec.mat x2) (Cert.Spec.mat x1) b t

/-- Dropping the last axis of `[4, 2048, 2048]` leaves `[4, 2048]`. -/
private theorem red : S4x2048x2048.Reduces [2] S4x2048 := by decide

/-- `(b, t)` with the key position `k` put back on the last axis is `(b, t, k)`. -/
private theorem lift_eq (b : Fin 4) (t : Fin 2048) (k : Fin (S4x2048x2048.size 2)) :
    red.lift (ix2 b t) k = ix3 b t (⟨k.val, k.isLt⟩ : Fin 2048) := by
  funext c; apply Fin.ext
  fin_cases c <;> rfl

/-- The max-reduce over the key axis, from `-∞`, is the row maximum. -/
theorem v11_eq (b : Fin 4) (t : Fin 2048) :
    val_main_v11 (F := Ideal) x0 x1 x2 (ix2 b t) = Cert.Spec.rowMax (row x0 x1 x2 b t) := by
  unfold val_main_v11
  refine (Host.reduce_eq_fold_single FloatOps.maximumf _ _ _ red _ (ix2 b t)).trans ?_
  have hf : (val_main_v10 (F := Ideal) x0 x1 x2 ∘ red.lift (ix2 b t)) = fun k : Fin 2048 => row x0 x1 x2 b t k :=
    funext fun k => by
      show val_main_v10 (F := Ideal) x0 x1 x2 (red.lift (ix2 b t) k) = _
      rw [lift_eq]
      exact v10_eq x0 x1 x2 b t _
  rw [hf, val_main_cst_1_apply]
  show Finset.fold max (Ideal.ofBits .f32 0xFF800000#32) _ _ = _
  rw [negInf]
  rfl

/-- The maximum with `-∞` changes nothing. -/
theorem v13_eq (b : Fin 4) (t : Fin 2048) :
    val_main_v13 (F := Ideal) x0 x1 x2 (ix2 b t) = Cert.Spec.rowMax (row x0 x1 x2 b t) := by
  rw [val_main_v13_apply, val_main_v12_apply, val_main_cst_2_apply, v11_eq]
  show max (Ideal.ofBits .f32 0xFF800000#32) _ = _
  rw [negInf]
  exact max_eq_right bot_le

private theorem idx15 (b : Fin 4) (t s : Fin 2048) : idx_main_v14 (idx_main_v15 (ix3 b t s)) = ix2 b t := by
  funext a; match a with | ⟨0, _⟩ => rfl | ⟨1, _⟩ => rfl

/-- The row maximum broadcast along the key axis. -/
theorem v15_eq (b : Fin 4) (t s : Fin 2048) :
    val_main_v15 (F := Ideal) x0 x1 x2 (ix3 b t s) = Cert.Spec.rowMax (row x0 x1 x2 b t) := by
  rw [val_main_v15_apply, val_main_v14_apply, idx15, v13_eq]

/-- The shifted exponentials. -/
theorem v17_eq (b : Fin 4) (t s : Fin 2048) :
    val_main_v17 (F := Ideal) x0 x1 x2 (ix3 b t s)
      = Ideal.exp (row x0 x1 x2 b t s - Cert.Spec.rowMax (row x0 x1 x2 b t)) := by
  rw [val_main_v17_apply, val_main_v16_apply, v10_eq, v15_eq]
  rfl

private theorem idx18 (b : Fin 4) (t k : Fin 2048) : idx_main_v18 (ix2 b t) k = ix3 b t k := by
  funext a; match a with | ⟨0, _⟩ => rfl | ⟨1, _⟩ => rfl | ⟨2, _⟩ => rfl

/-- The normaliser: the sum of the shifted exponentials over the key axis. -/
theorem v18_eq (b : Fin 4) (t : Fin 2048) :
    val_main_v18 (F := Ideal) x0 x1 x2 (ix2 b t)
      = ∑ s : Fin 2048, Ideal.exp (row x0 x1 x2 b t s - Cert.Spec.rowMax (row x0 x1 x2 b t)) := by
  rw [val_main_v18_apply, val_main_cst_3_apply]
  show Ideal.ofBits .f32 0x00000000#32 + _ = _
  rw [Ideal.ofBits_zero_f32, zero_add]
  refine Finset.sum_congr rfl fun s _ => ?_
  rw [idx18, v17_eq]

private theorem idx20 (b : Fin 4) (t s : Fin 2048) : idx_main_v19 (idx_main_v20 (ix3 b t s)) = ix2 b t := by
  funext a; match a with | ⟨0, _⟩ => rfl | ⟨1, _⟩ => rfl

/-- The normaliser broadcast along the key axis. -/
theorem v20_eq (b : Fin 4) (t s : Fin 2048) :
    val_main_v20 (F := Ideal) x0 x1 x2 (ix3 b t s)
      = ∑ s' : Fin 2048, Ideal.exp (row x0 x1 x2 b t s' - Cert.Spec.rowMax (row x0 x1 x2 b t)) := by
  rw [val_main_v20_apply, val_main_v19_apply, idx20, v18_eq]

/-- The attention weights. -/
theorem v21_eq (b : Fin 4) (t s : Fin 2048) :
    val_main_v21 (F := Ideal) x0 x1 x2 (ix3 b t s)
      = Ideal.div (Ideal.exp (row x0 x1 x2 b t s - Cert.Spec.rowMax (row x0 x1 x2 b t)))
          (∑ s' : Fin 2048, Ideal.exp (row x0 x1 x2 b t s' - Cert.Spec.rowMax (row x0 x1 x2 b t))) := by
  rw [val_main_v21_apply, v17_eq, v20_eq]
  rfl

private theorem lidx22 (b : Fin 4) (t : Fin 2048) (h : Fin 64) (s : Fin 2048) :
    lidx_main_v22 (ix3 b t h) s = ix3 b t s := by
  funext a; match a with | ⟨0, _⟩ => rfl | ⟨1, _⟩ => rfl | ⟨2, _⟩ => rfl

private theorem ridx22 (b : Fin 4) (t : Fin 2048) (h : Fin 64) (s : Fin 2048) :
    ridx_main_v22 (ix3 b t h) s = ix3 b s h := by
  funext a; match a with | ⟨0, _⟩ => rfl | ⟨1, _⟩ => rfl | ⟨2, _⟩ => rfl

/-- The result at `(b, t, h)` is the specification's one-pass attention. -/
theorem v22_eq (b : Fin 4) (t : Fin 2048) (h : Fin 64) :
    val_main_v22 (F := Ideal) x0 x1 x2 x3 (ix3 b t h)
      = Cert.Spec.outR (Cert.Spec.act x0) (Cert.Spec.mat x1) (Cert.Spec.mat x2) (Cert.Spec.mat x3) b t h := by
  rw [val_main_v22_apply]
  unfold Cert.Spec.outR Cert.Spec.softmaxOut
  refine Finset.sum_congr rfl fun s _ => ?_
  rw [lidx22, ridx22, v21_eq, v2_eq]

end Rows

/-- The reference's result, index by index, is the specification's one-pass attention of the four argument arrays. -/
theorem ref_value (x0 : (⟨S4x2048x1024, .f32⟩ : BufTy).Contents (Elt Ideal)) (x1 x2 x3 : (⟨S1024x64, .f32⟩ : BufTy).Contents (Elt Ideal)) (i : S4x2048x64.Idx) :
    Cert.ReferenceIdeal.Read.val_main_v22 (F := Ideal) x0 x1 x2 x3 i
      = Cert.Spec.outR (Cert.Spec.act x0) (Cert.Spec.mat x1) (Cert.Spec.mat x2) (Cert.Spec.mat x3) (i 0) (i 1) (i 2) := by
  obtain ⟨b, t, h, rfl⟩ : ∃ (b : Fin 4) (t : Fin 2048) (h : Fin 64), i = ix3 b t h := ⟨i 0, i 1, i 2, eq_ix3 i⟩
  exact v22_eq x0 x1 x2 x3 b t h

end Cert.RefSide

end
-- ==== Proof.Finite.lean ====
import proofs.«142842_j2482491097827_2_alg».proof.Defs
import Idealize.ShloMosaic.Lib.ReduceAll

/-
  From the finiteness precondition to "every entry of the four argument arrays is a real number": the printed
  predicate is the conjunction of four `all (|x| < +∞)`, one per array.
-/

noncomputable section

namespace Cert.RefSide

open Idealize.ShloMosaic

/-- A rank-0 shape has one index. -/
private instance subsingleton_scalarIdx : Subsingleton Cert.Pre_finite_inputs.S_.Idx := ⟨fun a b => funext fun d => d.elim0⟩

/-- The word `0x7F800000` is `+∞`. -/
theorem posInf : Ideal.ofBits .f32 0x7F800000#32 = (⊤ : EReal) := by
  simp [Ideal.ofBits, Ideal.ieee]

/-- An extended real whose absolute value is below `+∞` is a real number. -/
theorem real_of_abs_lt_top (x : EReal)
    (h : Ideal.cmp .olt (max x (-x)) (Ideal.ofBits .f32 0x7F800000#32) = 1#1) : ∃ r : ℝ, x = (r : EReal) := by
  rw [posInf] at h
  induction x using EReal.rec with
  | bot => simp [Ideal.cmp] at h
  | coe r => exact ⟨r, rfl⟩
  | top => simp [Ideal.cmp] at h

theorem finite_of_pre [Cert.Pre_finite_inputs.Facts] (a0 : (⟨Cert.Pre_finite_inputs.S4x2048x1024, .f32⟩ : BufTy).Contents (Elt Ideal)) (a1 a2 a3 : (⟨Cert.Pre_finite_inputs.S1024x64, .f32⟩ : BufTy).Contents (Elt Ideal))
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h (fun a => a.elim0)
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt_top _ (Host.reduce_andi_all _ _ _ _ _ e0 i),
    fun i => real_of_abs_lt_top _ (Host.reduce_andi_all _ _ _ _ _ e1 i),
    fun i => real_of_abs_lt_top _ (Host.reduce_andi_all _ _ _ _ _ e2 i),
    fun i => real_of_abs_lt_top _ (Host.reduce_andi_all _ _ _ _ _ e3 i)⟩

end Cert.RefSide

end
-- ==== Proof.ClaimRef.lean ====
import proofs.«142842_j2482491097827_2_alg».proof.Defs
import proofs.«142842_j2482491097827_2_alg».proof.Proof.Gen.Kernel
import proofs.«142842_j2482491097827_2_alg».proof.Proof.Gen.KernelIdeal
import proofs.«142842_j2482491097827_2_alg».proof.Proof.Gen.ReferenceIdeal
import proofs.«142842_j2482491097827_2_alg».proof.Proof.Gen.Pre_finite_inputs
import proofs.«142842_j2482491097827_2_alg».proof.Proof.RefRead
import proofs.«142842_j2482491097827_2_alg».proof.Proof.Finite
import Idealize.ShloMosaic.PureOps.IdealRules

/-
  The reference's half of the claims: the reference runs and leaves its arguments unchanged; the one named constant of
  the idealized kernel is `-∞` by the table; the reference's result is the specification's one-pass attention of the
  argument arrays, index by index; and under the finiteness precondition every entry of the four arguments is a real.
-/

noncomputable section

namespace Cert.Proof.Hand

open Idealize.ShloMosaic Idealize.SL.Sem

/-- The reference terminates without fault and its argument arrays end unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The table gives the named large negative constant the value `-∞`. -/
theorem preserves : Cert.preserves_Kernel_KernelIdeal :=
  IdealRules.named_const.statement Cert.KernelIdeal.κ "neg_big" .f32 0xFF333332#32 ⊥ rfl

/-- The reference's run with its result stated as the specification's one-pass attention of the argument arrays. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v22)
        = (fun i => Cert.Spec.outR (Cert.Spec.act (m' ((c.tc : Thread Cert.ReferenceIdeal.nD Cert.ReferenceIdeal.τ).loc Cert.ReferenceIdeal.main_arg0))) (Cert.Spec.mat (m' ((c.tc : Thread Cert.ReferenceIdeal.nD Cert.ReferenceIdeal.τ).loc Cert.ReferenceIdeal.main_arg1))) (Cert.Spec.mat (m' ((c.tc : Thread Cert.ReferenceIdeal.nD Cert.ReferenceIdeal.τ).loc Cert.ReferenceIdeal.main_arg2))) (Cert.Spec.mat (m' ((c.tc : Thread Cert.ReferenceIdeal.nD Cert.ReferenceIdeal.τ).loc Cert.ReferenceIdeal.main_arg3))) (i 0) (i 1) (i 2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans ((Cert.ReferenceIdeal.Read.val_main_v22_eq m' c).trans (funext fun i => Cert.RefSide.ref_value _ _ _ _ i)), (h c).2⟩)
    (Cert.ReferenceIdeal.Value.run (F := Ideal) m' ρ')

/-- Under the finiteness precondition every entry of the kernel's four argument arrays is a real number. -/
theorem pre_real (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal)) ∧ (∀ i, ∃ r : ℝ, m ((c.tc : Thread Cert.KernelIdeal.nD Cert.KernelIdeal.τ).loc Cert.KernelIdeal.main_arg3) i = (r : EReal)) :=
  Cert.RefSide.finite_of_pre _ _ _ _ (h c)

end Cert.Proof.Hand

end
-- ==== Proof.FlashMathA.lean ====
/-
  One attention row: the streaming form (four tiles of 512 keys with a running maximum, normaliser and weighted sum)
  equals the one-pass form, for a logit row whose entries are real or -∞ with a real first entry, and real values.

  All arithmetic is carried out in ℝ.  For a logit x (real or -∞) and a real shift M put
  ew x M = exp (x - M), read as 0 at x = -∞.  Changing the shift rescales every weight by one factor:
  ew x M' = exp (M - M') · ew x M.  After n ≥ 1 tiles the state is (M, ∑ ew (z s) M, ∑ ew (z s) M · v s) with the sums
  over the first n tiles and M real; the quotient of the last two does not depend on M, so it agrees with the
  one-pass quotient taken at the row maximum.
-/
import proofs.«142842_j2482491097827_2_alg».proof.Proof.Spec

noncomputable section

namespace Cert.Spec

open Idealize.ShloMosaic
open scoped BigOperators

/-- The cast of a finite real sum is the sum of the casts. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- An extended real that is a real number or -∞. -/
def RB (x : EReal) : Prop := x = ⊥ ∨ ∃ r : ℝ, x = (r : EReal)

theorem RB.max {a b : EReal} (ha : RB a) (hb : RB b) : RB (max a b) := by
  rcases max_choice a b with h | h <;> rw [h] <;> assumption

/-- A maximum (started at -∞) of entries that are real or -∞ is real or -∞. -/
theorem RB_fold {ι : Type*} (s : Finset ι) (f : ι → EReal) (hf : ∀ i, RB (f i)) : RB (s.fold max ⊥ f) := by
  classical
  induction s using Finset.induction_on with
  | empty => rw [Finset.fold_empty]; exact Or.inl rfl
  | insert a s ha ih => rw [Finset.fold_insert ha]; exact (hf a).max ih

theorem real_of_RB_of_le {a : EReal} {r : ℝ} (ha : RB a) (h : (r : EReal) ≤ a) : ∃ r' : ℝ, a = (r' : EReal) := by
  rcases ha with h0 | h0
  · rw [h0] at h; exact absurd h (not_le.mpr (EReal.bot_lt_coe r))
  · exact h0

/-- … and it is real as soon as one entry is. -/
theorem fold_real {ι : Type*} (s : Finset ι) (f : ι → EReal) (hf : ∀ i, RB (f i)) (i : ι) (hi : i ∈ s) (r : ℝ)
    (hr : f i = (r : EReal)) : ∃ r' : ℝ, s.fold max ⊥ f = (r' : EReal) := by
  apply real_of_RB_of_le (RB_fold s f hf) (r := r)
  rw [Finset.le_fold_max]
  exact Or.inr ⟨i, hi, hr ▸ le_refl _⟩

/-- The real weight exp (x - M) of a logit x that is real or -∞ (weight 0 at -∞). -/
def ew (x : EReal) (M : ℝ) : ℝ := if x = ⊥ then 0 else Real.exp (x.toReal - M)

theorem ew_bot (M : ℝ) : ew ⊥ M = 0 := if_pos rfl

theorem ew_coe (r M : ℝ) : ew (r : EReal) M = Real.exp (r - M) := by
  rw [ew, if_neg (EReal.coe_ne_bot r), EReal.toReal_coe]

theorem exp_sub_coe {x : EReal} (hx : RB x) (M : ℝ) : Ideal.exp (x - (M : EReal)) = ((ew x M : ℝ) : EReal) := by
  rcases hx with h | ⟨r, h⟩
  · rw [h, EReal.bot_sub, Ideal.exp_bot, ew_bot, EReal.coe_zero]
  · rw [h, ← EReal.coe_sub, Ideal.exp_coe, ew_coe]

/-- Moving the shift from M to M' multiplies every weight by exp (M - M'). -/
theorem ew_rescale (x : EReal) (M M' : ℝ) : ew x M' = Real.exp (M - M') * ew x M := by
  unfold ew
  split_ifs
  · rw [mul_zero]
  · rw [← Real.exp_add]; congr 1; ring

theorem ew_nonneg (x : EReal) (M : ℝ) : 0 ≤ ew x M := by
  unfold ew; split_ifs; exacts [le_refl _, (Real.exp_pos _).le]

theorem ew_pos_coe (r M : ℝ) : 0 < ew (r : EReal) M := by rw [ew_coe]; exact Real.exp_pos _

/-- The sum of f over tile k. -/
def tsum (f : Fin 2048 → ℝ) (k : Fin 4) : ℝ := ∑ j : Fin 512, f (col k j)

/-- The sum of f over the first n tiles. -/
def psum (f : Fin 2048 → ℝ) (n : ℕ) : ℝ := ∑ k : Fin 4, if k.val < n then tsum f k else 0

theorem tsum_mul (c : ℝ) (f : Fin 2048 → ℝ) (k : Fin 4) : tsum (fun s => c * f s) k = c * tsum f k := by
  unfold tsum; rw [Finset.mul_sum]

theorem psum_mul (c : ℝ) (f : Fin 2048 → ℝ) (n : ℕ) : psum (fun s => c * f s) n = c * psum f n := by
  unfold psum
  rw [Finset.mul_sum]
  refine Finset.sum_congr rfl (fun k _ => ?_)
  split_ifs
  · exact tsum_mul c f k
  · rw [mul_zero]

theorem psum_zero (f : Fin 2048 → ℝ) : psum f 0 = 0 := by
  unfold psum; simp

theorem psum_succ (f : Fin 2048 → ℝ) (n : ℕ) (hn : n < 4) : psum f (n + 1) = psum f n + tsum f ⟨n, hn⟩ := by
  unfold psum
  have key : ∀ k : Fin 4, (if k.val < n + 1 then tsum f k else 0)
      = (if k.val < n then tsum f k else 0) + (if k = ⟨n, hn⟩ then tsum f k else 0) := by
    intro k
    by_cases h1 : k.val < n
    · have h2 : k ≠ ⟨n, hn⟩ := by intro h; rw [h] at h1; exact lt_irrefl _ h1
      rw [if_pos (by omega), if_pos h1, if_neg h2, add_zero]
    · by_cases h2 : k = ⟨n, hn⟩
      · rw [if_neg h1, if_pos h2, if_pos (by rw [h2]; exact Nat.lt_succ_self n), zero_add]
      · have h3 : ¬ k.val < n + 1 := by
          intro h; apply h2; apply Fin.ext; show k.val = n; omega
        rw [if_neg h3, if_neg h1, if_neg h2, add_zero]
  rw [Finset.sum_congr rfl (fun k _ => key k), Finset.sum_add_distrib, Finset.sum_ite_eq']
  rw [if_pos (Finset.mem_univ _)]

theorem psum_four (f : Fin 2048 → ℝ) : psum f 4 = ∑ k : Fin 4, tsum f k := by
  unfold psum
  exact Finset.sum_congr rfl (fun k _ => if_pos k.isLt)

/-- (tile, column) ↦ key position is a bijection of 4 × 512 onto 2048. -/
theorem col_bijective : Function.Bijective (fun p : Fin 4 × Fin 512 => col p.1 p.2) := by
  rw [Fintype.bijective_iff_injective_and_card]
  constructor
  · rintro ⟨k, j⟩ ⟨k', j'⟩ h
    have h' : 512 * k.val + j.val = 512 * k'.val + j'.val := congrArg Fin.val h
    have hj := j.isLt
    have hj' := j'.isLt
    exact Prod.ext (Fin.ext (show k.val = k'.val by omega)) (Fin.ext (show j.val = j'.val by omega))
  · simp

/-- A sum over all 2048 keys is the sum of the four tile sums. -/
theorem sum_col (f : Fin 2048 → ℝ) : ∑ s, f s = ∑ k : Fin 4, tsum f k := by
  unfold tsum
  calc ∑ s, f s = ∑ p : Fin 4 × Fin 512, f (col p.1 p.2) :=
        (Fintype.sum_bijective _ col_bijective _ _ (fun _ => rfl)).symm
    _ = ∑ k : Fin 4, ∑ j : Fin 512, f (col k j) := Fintype.sum_prod_type' (fun k j => f (col k j))

end Cert.Spec

end
-- ==== Proof.FlashMathB.lean ====
/-
  The streaming state after n ≥ 1 tiles, in closed form, and the equality of the streaming and the one-pass row.
-/
import proofs.«142842_j2482491097827_2_alg».proof.Proof.FlashMathA

noncomputable section

namespace Cert.Spec

open Idealize.ShloMosaic
open scoped BigOperators

section Core

variable (z : Fin 2048 → EReal) (vr : Fin 2048 → Fin 64 → ℝ)

/-- The tile's contribution to the normaliser, at a real shift. -/
theorem tile_l (hz : ∀ s, RB (z s)) (k : Fin 4) (M' : ℝ) :
    ∑ j : Fin 512, Ideal.exp (z (col k j) - (M' : EReal)) = ((tsum (fun s => ew (z s) M') k : ℝ) : EReal) := by
  unfold tsum
  rw [← coe_sum]
  exact Finset.sum_congr rfl (fun j _ => exp_sub_coe (hz _) M')

/-- The tile's contribution to the weighted sum, at a real shift. -/
theorem tile_a (hz : ∀ s, RB (z s)) (k : Fin 4) (M' : ℝ) (h : Fin 64) :
    ∑ j : Fin 512, Ideal.exp (z (col k j) - (M' : EReal)) * ((vr (col k j) h : ℝ) : EReal)
      = ((tsum (fun s => ew (z s) M' * vr s h) k : ℝ) : EReal) := by
  unfold tsum
  rw [← coe_sum]
  exact Finset.sum_congr rfl (fun j _ => by rw [exp_sub_coe (hz _) M', EReal.coe_mul])

/-- One tile, from a state whose maximum is real or -∞ and whose sums are real, when the new maximum M' is real. -/
theorem step_real (hz : ∀ s, RB (z s)) (k : Fin 4) (S : St) (hm : RB S.m) (L : ℝ) (hl : S.l = (L : EReal))
    (A : Fin 64 → ℝ) (ha : ∀ h, S.a h = (A h : EReal)) (M' : ℝ) (hM' : max S.m (tileMax z k) = (M' : EReal)) :
    (step z (fun s h => (vr s h : EReal)) k S).m = (M' : EReal) ∧
    (step z (fun s h => (vr s h : EReal)) k S).l
      = ((ew S.m M' * L + tsum (fun s => ew (z s) M') k : ℝ) : EReal) ∧
    ∀ h, (step z (fun s h => (vr s h : EReal)) k S).a h
      = ((ew S.m M' * A h + tsum (fun s => ew (z s) M' * vr s h) k : ℝ) : EReal) := by
  refine ⟨hM', ?_, fun h => ?_⟩
  · show Ideal.exp (S.m - max S.m (tileMax z k)) * S.l
        + ∑ j : Fin 512, Ideal.exp (z (col k j) - max S.m (tileMax z k)) = _
    rw [hM', exp_sub_coe hm, hl, tile_l z hz, EReal.coe_add, EReal.coe_mul]
  · show Ideal.exp (S.m - max S.m (tileMax z k)) * S.a h
        + ∑ j : Fin 512, Ideal.exp (z (col k j) - max S.m (tileMax z k)) * ((vr (col k j) h : ℝ) : EReal) = _
    rw [hM', exp_sub_coe hm, ha, tile_a z vr hz, EReal.coe_add, EReal.coe_mul]

/-- The closed form of the state after n tiles: a real maximum M and the two sums over the first n tiles at shift M. -/
def Inv (n : ℕ) (S : St) : Prop :=
  ∃ M : ℝ, S.m = (M : EReal) ∧ S.l = ((psum (fun s => ew (z s) M) n : ℝ) : EReal) ∧
    ∀ h, S.a h = ((psum (fun s => ew (z s) M * vr s h) n : ℝ) : EReal)

theorem stateAfter_succ (v : Fin 2048 → Fin 64 → EReal) (n : ℕ) (hn : n < 4) :
    stateAfter z v (n + 1) = step z v ⟨n, hn⟩ (stateAfter z v n) := by
  rw [stateAfter, dif_pos hn]

theorem tileMax_RB (hz : ∀ s, RB (z s)) (k : Fin 4) : RB (tileMax z k) :=
  RB_fold _ _ (fun _ => hz _)

/-- After the first tile (it holds the real entry z 0). -/
theorem inv_one (hz : ∀ s, RB (z s)) (r0 : ℝ) (h0 : z 0 = (r0 : EReal)) :
    Inv z vr 1 (stateAfter z (fun s h => (vr s h : EReal)) 1) := by
  have h04 : (0 : ℕ) < 4 := by norm_num
  rw [stateAfter_succ z _ 0 h04]
  have hc0 : col ⟨0, h04⟩ 0 = 0 := by apply Fin.ext; simp [col]
  obtain ⟨M', hM'⟩ := fold_real (Finset.univ : Finset (Fin 512)) (fun j => z (col ⟨0, h04⟩ j)) (fun j => hz _) 0
    (Finset.mem_univ _) r0 (by show z (col ⟨0, h04⟩ 0) = _; rw [hc0]; exact h0)
  have hmax : max (stateAfter z (fun s h => (vr s h : EReal)) 0).m (tileMax z ⟨0, h04⟩) = (M' : EReal) := by
    show max ⊥ (tileMax z ⟨0, h04⟩) = _
    rw [max_bot_left]
    exact hM'
  obtain ⟨h1, h2, h3⟩ := step_real z vr hz ⟨0, h04⟩ (stateAfter z (fun s h => (vr s h : EReal)) 0) (Or.inl rfl) 0
    EReal.coe_zero.symm (fun _ => 0) (fun _ => EReal.coe_zero.symm) M' hmax
  refine ⟨M', h1, ?_, fun h => ?_⟩
  · rw [h2, psum_succ _ 0 h04, psum_zero, mul_zero]
  · rw [h3 h, psum_succ _ 0 h04, psum_zero, mul_zero]

/-- One more tile keeps the closed form: the old sums are rescaled to the new shift. -/
theorem inv_succ (hz : ∀ s, RB (z s)) (n : ℕ) (hn : n < 4) (S : St) (hS : Inv z vr n S) :
    Inv z vr (n + 1) (step z (fun s h => (vr s h : EReal)) ⟨n, hn⟩ S) := by
  obtain ⟨M, hm, hl, ha⟩ := hS
  have hRB : RB (max S.m (tileMax z ⟨n, hn⟩)) := RB.max (Or.inr ⟨M, hm⟩) (tileMax_RB z hz _)
  obtain ⟨M', hM'⟩ := real_of_RB_of_le hRB (r := M) (by rw [← hm]; exact le_max_left _ _)
  obtain ⟨h1, h2, h3⟩ := step_real z vr hz ⟨n, hn⟩ S (Or.inr ⟨M, hm⟩) _ hl
    (fun h => psum (fun s => ew (z s) M * vr s h) n) ha M' hM'
  have hc : ew S.m M' = Real.exp (M - M') := by rw [hm, ew_coe]
  have e1 : psum (fun s => ew (z s) M') n = Real.exp (M - M') * psum (fun s => ew (z s) M) n := by
    rw [← psum_mul]; congr 1; funext s; exact ew_rescale _ _ _
  have e2 : ∀ h, psum (fun s => ew (z s) M' * vr s h) n
      = Real.exp (M - M') * psum (fun s => ew (z s) M * vr s h) n := by
    intro h; rw [← psum_mul]; congr 1; funext s; rw [ew_rescale (z s) M M', mul_assoc]
  refine ⟨M', h1, ?_, fun h => ?_⟩
  · rw [h2, psum_succ _ n hn, hc, e1]
  · rw [h3 h, psum_succ _ n hn, hc, e2 h]

theorem inv_all (hz : ∀ s, RB (z s)) (r0 : ℝ) (h0 : z 0 = (r0 : EReal)) (n : ℕ) (h1 : 1 ≤ n) :
    n ≤ 4 → Inv z vr n (stateAfter z (fun s h => (vr s h : EReal)) n) := by
  induction n, h1 using Nat.le_induction with
  | base => intro _; exact inv_one z vr hz r0 h0
  | succ n hn ih =>
    intro h4
    rw [stateAfter_succ z _ n (by omega)]
    exact inv_succ z vr hz n (by omega) _ (ih (by omega))

/-- The normaliser is positive at every shift: all weights are ≥ 0 and the one of z 0 is > 0. -/
theorem norm_pos (r0 : ℝ) (h0 : z 0 = (r0 : EReal)) (N : ℝ) : 0 < ∑ s, ew (z s) N := by
  have h2 := Finset.single_le_sum (f := fun s => ew (z s) N) (fun s _ => ew_nonneg (z s) N)
    (Finset.mem_univ (0 : Fin 2048))
  have h1 : 0 < ew (z 0) N := by rw [h0]; exact ew_pos_coe r0 N
  exact lt_of_lt_of_le h1 h2

/-- The streaming row equals the one-pass row. -/
theorem flash_eq_softmax (hz : ∀ s, RB (z s)) (r0 : ℝ) (h0 : z 0 = (r0 : EReal)) (h : Fin 64) :
    flashOut z (fun s h => (vr s h : EReal)) h = softmaxOut z (fun s h => (vr s h : EReal)) h := by
  obtain ⟨M, -, hl, ha⟩ := inv_all z vr hz r0 h0 4 (by norm_num) le_rfl
  obtain ⟨M0, hM0⟩ := fold_real (Finset.univ : Finset (Fin 2048)) z hz 0 (Finset.mem_univ _) r0 h0
  have hF : flashOut z (fun s h => (vr s h : EReal)) h
      = (((∑ s, ew (z s) M * vr s h) / (∑ s, ew (z s) M) : ℝ) : EReal) := by
    unfold flashOut
    rw [hl, ha h, psum_four, psum_four, ← sum_col, ← sum_col, Ideal.div_coe (norm_pos z r0 h0 M).ne',
      ← EReal.coe_mul, mul_one_div]
  have hS : softmaxOut z (fun s h => (vr s h : EReal)) h
      = ((∑ s, ew (z s) M0 * (1 / ∑ s', ew (z s') M0) * vr s h : ℝ) : EReal) := by
    unfold softmaxOut rowMax
    rw [hM0, ← coe_sum]
    refine Finset.sum_congr rfl (fun s _ => ?_)
    rw [Finset.sum_congr rfl (fun s' _ => exp_sub_coe (hz s') M0), coe_sum, exp_sub_coe (hz s) M0,
      Ideal.div_coe (norm_pos z r0 h0 M0).ne', ← EReal.coe_mul, ← EReal.coe_mul]
  rw [hF, hS]
  congr 1
  have hr : ∀ s, ew (z s) M = Real.exp (M0 - M) * ew (z s) M0 := fun s => ew_rescale (z s) M0 M
  have hc : Real.exp (M0 - M) ≠ 0 := (Real.exp_pos _).ne'
  have hL0 : (∑ s, ew (z s) M0) ≠ 0 := (norm_pos z r0 h0 M0).ne'
  rw [Finset.sum_congr rfl (fun s _ => hr s),
    Finset.sum_congr rfl (fun s _ => show ew (z s) M * vr s h = Real.exp (M0 - M) * (ew (z s) M0 * vr s h) by
      rw [hr s, mul_assoc]),
    ← Finset.mul_sum, ← Finset.mul_sum, mul_div_mul_left _ _ hc, Finset.sum_div]
  refine Finset.sum_congr rfl (fun s _ => ?_)
  field_simp

end Core

end Cert.Spec

end
-- ==== Proof.FlashMath.lean ====
/-
  The two whole results agree on real inputs.

  Every projection of real activations by a real matrix is real (a finite sum of products of reals).  The two logit
  rows agree entrywise: ∑ (q·8)·k = (∑ q·k)·8 in ℝ, and both are -∞ off the causal range.  The common row is real on
  keys s ≤ t (in particular at s = 0) and -∞ beyond, so the streaming row equals the one-pass row.
-/
import proofs.«142842_j2482491097827_2_alg».proof.Proof.FlashMathB

noncomputable section

namespace Cert.Spec

open Idealize.ShloMosaic
open scoped BigOperators

/-- A projection of real activations by a real matrix is real. -/
theorem proj_real (x : Act) (W : Mat) (hx : ∀ b t d, ∃ r : ℝ, x b t d = (r : EReal))
    (hW : ∀ d h, ∃ r : ℝ, W d h = (r : EReal)) (b : Fin 4) (t : Fin 2048) (h : Fin 64) :
    ∃ r : ℝ, proj x W b t h = (r : EReal) := by
  choose xr hxr using hx
  choose Wr hWr using hW
  refine ⟨∑ d, xr b t d * Wr d h, ?_⟩
  unfold proj
  rw [← coe_sum]
  exact Finset.sum_congr rfl (fun d _ => by rw [hxr, hWr, EReal.coe_mul])

theorem coe_eight : (8 : EReal) = ((8 : ℝ) : EReal) := by norm_cast

/-- On the causal range both logits are the cast of one real number. -/
theorem logits_real (x : Act) (Wq Wk : Mat) (hx : ∀ b t d, ∃ r : ℝ, x b t d = (r : EReal))
    (hq : ∀ d h, ∃ r : ℝ, Wq d h = (r : EReal)) (hk : ∀ d h, ∃ r : ℝ, Wk d h = (r : EReal))
    (b : Fin 4) (t s : Fin 2048) :
    ∃ r : ℝ, (∑ h : Fin 64, (proj x Wq b t h * 8) * proj x Wk b s h) = (r : EReal) ∧
      (∑ h : Fin 64, proj x Wq b t h * proj x Wk b s h) * 8 = (r : EReal) := by
  choose qr hqr using (fun h => proj_real x Wq hx hq b t h)
  choose kr hkr using (fun h => proj_real x Wk hx hk b s h)
  refine ⟨(∑ h, qr h * kr h) * 8, ?_, ?_⟩
  · rw [Finset.sum_mul, ← coe_sum]
    refine Finset.sum_congr rfl (fun h _ => ?_)
    rw [hqr, hkr, coe_eight, ← EReal.coe_mul, ← EReal.coe_mul]
    congr 1; ring
  · rw [EReal.coe_mul, ← coe_sum, coe_eight]
    congr 1
    exact Finset.sum_congr rfl (fun h _ => by rw [hqr, hkr, EReal.coe_mul])

theorem outK_eq_outR (x : Act) (Wk Wq Wv : Mat)
    (hx : ∀ b t d, ∃ r : ℝ, x b t d = (r : EReal)) (hk : ∀ d h, ∃ r : ℝ, Wk d h = (r : EReal))
    (hq : ∀ d h, ∃ r : ℝ, Wq d h = (r : EReal)) (hv : ∀ d h, ∃ r : ℝ, Wv d h = (r : EReal))
    (b : Fin 4) (t : Fin 2048) (h : Fin 64) :
    outK x Wk Wq Wv b t h = outR x Wk Wq Wv b t h := by
  choose vr hvr using (fun s h => proj_real x Wv hx hv b s h)
  have hV : proj x Wv b = fun s h => (vr s h : EReal) := funext fun s => funext fun h => hvr s h
  choose zr hzr using (fun s => logits_real x Wq Wk hx hq hk b t s)
  have hZ : logitPre x Wq Wk b t = logitPost x Wq Wk b t := by
    funext s
    unfold logitPre logitPost
    split_ifs
    · rw [(hzr s).1, (hzr s).2]
    · rfl
  have hRB : ∀ s, RB (logitPost x Wq Wk b t s) := by
    intro s
    unfold logitPost
    split_ifs
    · exact Or.inr ⟨zr s, (hzr s).2⟩
    · exact Or.inl rfl
  have h0 : logitPost x Wq Wk b t 0 = (zr 0 : EReal) := by
    unfold logitPost
    rw [if_pos (show (0 : Fin 2048).val ≤ t.val from Nat.zero_le _)]
    exact (hzr 0).2
  unfold outK outR
  rw [hZ, hV]
  exact flash_eq_softmax _ vr hRB (zr 0) h0 h

end Cert.Spec

end
-- ==== Proof.lean ====
/-
  The certificate: a fused-projection, streaming causal attention kernel against a one-pass softmax reference.

  The kernel projects the activations once onto the three weight matrices laid side by side (queries pre-scaled by
  8 = √64, keys stored transposed), then streams the keys in four tiles of 512 per batch entry with a running maximum,
  normaliser and weighted sum, dividing once at the end; masked logits are filled with a finite stand-in that is read as
  -∞.  The reference forms all logits, scales them by √64, masks with -∞, takes a softmax and averages the values.
  Over the extended reals with finite inputs the two agree: the scale commutes with the contraction, a masked logit weighs
  0 on both sides, and rescaling by exp (m_old − m_new) at each tile telescopes to the single shift by the row maximum.
  The frames of the two kernel programs are proved by running both kernel bodies symbolically (the attention body in its
  three control cases) inside the pipelines' launch; the reference's frame is its run.
-/
import proofs.«142842_j2482491097827_2_alg».proof.Defs
import proofs.«142842_j2482491097827_2_alg».proof.Proof.Gen.Kernel
import proofs.«142842_j2482491097827_2_alg».proof.Proof.Gen.KernelIdeal
import proofs.«142842_j2482491097827_2_alg».proof.Proof.Gen.ReferenceIdeal
import proofs.«142842_j2482491097827_2_alg».proof.Proof.Gen.Pre_finite_inputs
import proofs.«142842_j2482491097827_2_alg».proof.Proof.KbRun
import proofs.«142842_j2482491097827_2_alg».proof.Proof.KiValue
import proofs.«142842_j2482491097827_2_alg».proof.Proof.ClaimRef
import proofs.«142842_j2482491097827_2_alg».proof.Proof.FlashMath
import Idealize.ShloMosaic.Adequacy
import Idealize.ShloMosaic.Init

noncomputable section

namespace Cert.Proof

open Idealize.ShloMosaic Idealize.ShloMosaic.ValueIdx Idealize.SL.Sem

/-- The word-level kernel program runs and leaves its arguments alone. -/
theorem frame_k : Cert.frame_Kernel := fun m ρ _ =>
  (θ_run (Cert.Kernel.defs (F := Bits)) _ _).mono (fun _ h c => (h c).2) (Cert.Kernel.Hand.run_main (F := Bits) m ρ)

/-- So does the idealized kernel program. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- With finite inputs the two idealized programs end with the same result: the streaming form and the one-pass form of
    causal attention are one function of the four arguments. -/
theorem algebraic : Cert.algebraic_KernelIdeal_ReferenceIdeal := by
  intro m ρ m' ρ' hpre hagree
  refine ⟨fun c => (fun i => Cert.Spec.outK
      (Cert.Spec.act (m ((c.tc : Thread Cert.KernelIdeal.nD Cert.KernelIdeal.τ).loc Cert.KernelIdeal.main_arg0)))
      (Cert.Spec.mat (m ((c.tc : Thread Cert.KernelIdeal.nD Cert.KernelIdeal.τ).loc Cert.KernelIdeal.main_arg1)))
      (Cert.Spec.mat (m ((c.tc : Thread Cert.KernelIdeal.nD Cert.KernelIdeal.τ).loc Cert.KernelIdeal.main_arg2)))
      (Cert.Spec.mat (m ((c.tc : Thread Cert.KernelIdeal.nD Cert.KernelIdeal.τ).loc Cert.KernelIdeal.main_arg3))) (i 0) (i 1) (i 2)), ?_, ?_⟩
  · refine (θ_run (Cert.KernelIdeal.defs (F := Ideal)) _ _).mono (fun _ h c => ⟨(h c).1.trans ?_, (h c).2⟩)
      (Cert.KernelIdeal.Hand.run_main (F := Ideal) m ρ)
    funext i
    obtain ⟨b, t, hh, rfl⟩ : ∃ (b : Fin 4) (t : Fin 2048) (hh : Fin 64), i = ix3 b t hh := ⟨i 0, i 1, i 2, eq_ix3 i⟩
    exact Cert.KernelIdeal.Hand.kernel_value m c b t hh
  · refine (θ_run (Cert.ReferenceIdeal.defs (F := Ideal)) _ _).mono (fun _ h c => ⟨(h c).1.trans ?_, (h c).2⟩)
      (Cert.Proof.Hand.ref_run m' ρ')
    rw [(hagree c).1, (hagree c).2.1, (hagree c).2.2.1, (hagree c).2.2.2]
    funext i
    obtain ⟨hx, hk, hq, hv⟩ := Cert.Proof.Hand.pre_real m hpre c
    exact (Cert.Spec.outK_eq_outR _ _ _ _ (fun b t d => hx (ix3 b t d)) (fun d h => hk (ix2 d h)) (fun d h => hq (ix2 d h))
      (fun d h => hv (ix2 d h)) (i 0) (i 1) (i 2)).symm

theorem claim : Cert.Claim :=
  ⟨Cert.Kernel.Gen.facts, Cert.KernelIdeal.Gen.facts, Cert.ReferenceIdeal.Gen.facts, Cert.Pre_finite_inputs.Gen.facts,
    frame_k, frame_ki, Cert.Proof.Hand.frame_ri, Cert.Proof.Hand.preserves, algebraic⟩

end Cert.Proof

end
